-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x512 : Shape := ⟨4, ![8, 32, 32, 512]⟩
abbrev S512 : Shape := ⟨1, ![512]⟩
abbrev S512x1536 : Shape := ⟨2, ![512, 1536]⟩
abbrev S512x512 : Shape := ⟨2, ![512, 512]⟩
abbrev S_ : Shape := ⟨0, ![]⟩

class Facts : Prop where
  bcast_S_S8x32x32x512 : S_.BroadcastsInDim S8x32x32x512 (![] : Fin 0 → Fin S8x32x32x512.rank)
  reducesTo_S8x32x32x512_S_d0_1_2_3 : S8x32x32x512.ReducesTo [0, 1, 2, 3] S_
  h_S_ : 0 < S_.numel
  bcast_S_S512 : S_.BroadcastsInDim S512 (![] : Fin 0 → Fin S512.rank)
  reducesTo_S512_S_d0 : S512.ReducesTo [0] S_
  bcast_S_S512x1536 : S_.BroadcastsInDim S512x1536 (![] : Fin 0 → Fin S512x1536.rank)
  reducesTo_S512x1536_S_d0_1 : S512x1536.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_arg5 : FVec F S512 .f32) (main_v13 : IVec S_ 1) (main_v16 : IVec S512x1536 1) : IVec S_ 1 :=
  let main_c_5 : IVec S_ 1 := constantI S_ 1 1#1
  let main_v17 : IVec S_ 1 := (fun x v => Host.reduce IntOp.andi x v reducesTo_S512x1536_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x32x32x512 .f32) (main_arg1 : FVec F S512 .f32) (main_arg2 : FVec F S512 .f32) (main_arg3 : FVec F S512x1536 .f32) (main_arg4 : FVec F S512x512 .f32) (main_arg5 : FVec F S512 .f32) : IVec S_ 1 :=
  let main_v0 : FVec F S8x32x32x512 .f32 := Host.absf main_arg0
  let main_cst : FVec F S_ .f32 := constant S_ .f32 0x7F800000#32
  let main_v1 : FVec F S8x32x32x512 .f32 := broadcastInDim S8x32x32x512 ![] bcast_S_S8x32x32x512 main_cst
  let main_v2 : IVec S8x32x32x512 1 := cmpf .olt main_v0 main_v1
  let main_c : IVec S_ 1 := constantI S_ 1 1#1
  let main_v3 : IVec S_ 1 := (fun x v => Host.reduce IntOp.andi x v reducesTo_S8x32x32x512_S_d0_1_2_3 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1536 .f32 := Host.absf main_arg3
  let main_cst_4 : FVec F S_ .f32 := constant S_ .f32 0x7F800000#32
  let main_v15 : FVec F S512x1536 .f32 := broadcastInDim S512x1536 ![] bcast_S_S512x1536 main_cst_4
  let main_v16 : IVec S512x1536 1 := cmpf .olt main_v14 main_v15
  fn_part1 (F := F) main_arg4 main_arg5 main_v13 main_v16
-- ==== Kernel.lean ====
abbrev S8x32x32x512 : Shape := ⟨4, ![8, 32, 32, 512]⟩
abbrev S512 : Shape := ⟨1, ![512]⟩
abbrev S512x1536 : Shape := ⟨2, ![512, 1536]⟩
abbrev S512x512 : Shape := ⟨2, ![512, 512]⟩
abbrev S8x1024x512 : Shape := ⟨3, ![8, 1024, 512]⟩
abbrev S1x1024x512 : Shape := ⟨3, ![1, 1024, 512]⟩
abbrev S1024x1536 : Shape := ⟨2, ![1024, 1536]⟩
abbrev S1024x512 : Shape := ⟨2, ![1024, 512]⟩
abbrev S1024x16x32 : Shape := ⟨3, ![1024, 16, 32]⟩
abbrev S1024x16 : Shape := ⟨2, ![1024, 16]⟩
abbrev S1024x16x1 : Shape := ⟨3, ![1024, 16, 1]⟩
abbrev S16x1 : Shape := ⟨2, ![16, 1]⟩
abbrev S1x16x1 : Shape := ⟨3, ![1, 16, 1]⟩
abbrev S1x512 : Shape := ⟨2, ![1, 512]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S8x32x32x512, .f32⟩
  | .hbm, ⟨1, _⟩ => ⟨S512, .f32⟩
  | .hbm, ⟨2, _⟩ => ⟨S512, .f32⟩
  | .hbm, ⟨3, _⟩ => ⟨S512x1536, .f32⟩
  | .hbm, ⟨4, _⟩ => ⟨S512x512, .f32⟩
  | .hbm, ⟨5, _⟩ => ⟨S512, .f32⟩
  | .hbm, ⟨6, _⟩ => ⟨S8x1024x512, .f32⟩
  | .hbm, ⟨7, _⟩ => ⟨S512x1536, .bf16⟩
  | .hbm, ⟨8, _⟩ => ⟨S512x512, .bf16⟩
  | .hbm, ⟨9, _⟩ => ⟨S8x1024x512, .f32⟩
  | .hbm, ⟨10, _⟩ => ⟨S8x32x32x512, .f32⟩
  | .local _ .vmem, ⟨0, _⟩ => ⟨S1x1024x512, .f32⟩
  | .local _ .vmem, ⟨1, _⟩ => ⟨S1x1024x512, .f32⟩
  | .local _ .vmem, ⟨2, _⟩ => ⟨S512, .f32⟩
  | .local _ .vmem, ⟨3, _⟩ => ⟨S512, .f32⟩
  | .local _ .vmem, ⟨4, _⟩ => ⟨S512x1536, .bf16⟩
  | .local _ .vmem, ⟨5, _⟩ => ⟨S512x512, .bf16⟩
  | .local _ .vmem, ⟨6, _⟩ => ⟨S512, .f32⟩
  | .local _ .vmem, ⟨7, _⟩ => ⟨S1x1024x512, .f32⟩
  | .local _ .vmem, ⟨8, _⟩ => ⟨S1x1024x512, .f32⟩
  | .local _ .vmem, ⟨9, _⟩ => ⟨S1024x1536, .bf16⟩
  | .local _ .vmem, ⟨10, _⟩ => ⟨S1024x512, .bf16⟩
  | _, _ => ⟨S8x32x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x32x32x512_S8x1024x512 : S8x32x32x512.ShapeCasts S8x1024x512
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1024x16x32 : S1024x512.ShapeCasts S1024x16x32
  reduces_S1024x16x32_S1024x16 : S1024x16x32.Reduces [2] S1024x16
  shapeCasts_S1024x16_S1024x16x1 : S1024x16.ShapeCasts S1024x16x1
  reduces_S1024x16x1_S16x1 : S1024x16x1.Reduces [0] S16x1
  shapeCasts_S16x1_S1x16x1 : S16x1.ShapeCasts S1x16x1
  broadcasts_S1x16x1_S1024x16x32 : S1x16x1.Broadcasts S1024x16x32
  shapeCasts_S1024x16x32_S1024x512 : S1024x16x32.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  packedbf16_S1024x1536_S1024x1536_0_0 : (Rect.unit (s := S1024x1536) ![0, 0] S1024x1536.size inb_S1024x1536_S1024x1536_0_0).PackedRows (EltTy.packing .bf16)
  inb_S1024x1536_S1024x64_0_0 : ∀ a, (![0, 0] : Fin 2 → Nat) a + S1024x64.size a ≤ S1024x1536.size a
  h_S1024x64 : 0 < S1024x64.numel
  inb_S1024x1536_S1024x64_0_64 : ∀ a, (![0, 64] : Fin 2 → Nat) a + S1024x64.size a ≤ S1024x1536.size a
  inb_S1024x1536_S1024x64_0_128 : ∀ a, (![0, 128] : Fin 2 → Nat) a + S1024x64.size a ≤ S1024x1536.size a
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  inb_S1024x512_S1024x64_0_0 : ∀ a, (![0, 0] : Fin 2 → Nat) a + S1024x64.size a ≤ S1024x512.size a
  shapeCasts_S1024x64_S1024x64 : S1024x64.ShapeCasts S1024x64
  packedbf16_S1024x512_S1024x64_0_0 : (Rect.unit (s := S1024x512) ![0, 0] S1024x64.size inb_S1024x512_S1024x64_0_0).PackedRows (EltTy.packing .bf16)
  inb_S1024x1536_S1024x64_0_192 : ∀ a, (![0, 192] : Fin 2 → Nat) a + S1024x64.size a ≤ S1024x1536.size a
  inb_S1024x1536_S1024x64_0_256 : ∀ a, (![0, 256] : Fin 2 → Nat) a + S1024x64.size a ≤ S1024x1536.size a
  inb_S1024x1536_S1024x64_0_320 : ∀ a, (![0, 320] : Fin 2 → Nat) a + S1024x64.size a ≤ S1024x1536.size a
  inb_S1024x512_S1024x64_0_64 : ∀ a, (![0, 64] : Fin 2 → Nat) a + S1024x64.size a ≤ S1024x512.size a
  packedbf16_S1024x512_S1024x64_0_64 : (Rect.unit (s := S1024x512) ![0, 64] S1024x64.size inb_S1024x512_S1024x64_0_64).PackedRows (EltTy.packing .bf16)
  inb_S1024x1536_S1024x64_0_384 : ∀ a, (![0, 384] : Fin 2 → Nat) a + S1024x64.size a ≤ S1024x1536.size a
  inb_S1024x1536_S1024x64_0_448 : ∀ a, (![0, 448] : Fin 2 → Nat) a + S1024x64.size a ≤ S1024x1536.size a
  inb_S1024x1536_S1024x64_0_512 : ∀ a, (![0, 512] : Fin 2 → Nat) a + S1024x64.size a ≤ S1024x1536.size a
  inb_S1024x512_S1024x64_0_128 : ∀ a, (![0, 128] : Fin 2 → Nat) a + S1024x64.size a ≤ S1024x512.size a
  packedbf16_S1024x512_S1024x64_0_128 : (Rect.unit (s := S1024x512) ![0, 128] S1024x64.size inb_S1024x512_S1024x64_0_128).PackedRows (EltTy.packing .bf16)
  inb_S1024x1536_S1024x64_0_576 : ∀ a, (![0, 576] : Fin 2 → Nat) a + S1024x64.size a ≤ S1024x1536.size a
  inb_S1024x1536_S1024x64_0_640 : ∀ a, (![0, 640] : Fin 2 → Nat) a + S1024x64.size a ≤ S1024x1536.size a
  inb_S1024x1536_S1024x64_0_704 : ∀ a, (![0, 704] : Fin 2 → Nat) a + S1024x64.size a ≤ S1024x1536.size a
  inb_S1024x512_S1024x64_0_192 : ∀ a, (![0, 192] : Fin 2 → Nat) a + S1024x64.size a ≤ S1024x512.size a
  packedbf16_S1024x512_S1024x64_0_192 : (Rect.unit (s := S1024x512) ![0, 192] S1024x64.size inb_S1024x512_S1024x64_0_192).PackedRows (EltTy.packing .bf16)
  inb_S1024x1536_S1024x64_0_768 : ∀ a, (![0, 768] : Fin 2 → Nat) a + S1024x64.size a ≤ S1024x1536.size a
  inb_S1024x1536_S1024x64_0_832 : ∀ a, (![0, 832] : Fin 2 → Nat) a + S1024x64.size a ≤ S1024x1536.size a
  inb_S1024x1536_S1024x64_0_896 : ∀ a, (![0, 896] : Fin 2 → Nat) a + S1024x64.size a ≤ S1024x1536.size a
  inb_S1024x512_S1024x64_0_256 : ∀ a, (![0, 256] : Fin 2 → Nat) a + S1024x64.size a ≤ S1024x512.size a
  packedbf16_S1024x512_S1024x64_0_256 : (Rect.unit (s := S1024x512) ![0, 256] S1024x64.size inb_S1024x512_S1024x64_0_256).PackedRows (EltTy.packing .bf16)
  inb_S1024x1536_S1024x64_0_960 : ∀ a, (![0, 960] : Fin 2 → Nat) a + S1024x64.size a ≤ S1024x1536.size a
  inb_S1024x1536_S1024x64_0_1024 : ∀ a, (![0, 1024] : Fin 2 → Nat) a + S1024x64.size a ≤ S1024x1536.size a
  inb_S1024x1536_S1024x64_0_1088 : ∀ a, (![0, 1088] : Fin 2 → Nat) a + S1024x64.size a ≤ S1024x1536.size a
  inb_S1024x512_S1024x64_0_320 : ∀ a, (![0, 320] : Fin 2 → Nat) a + S1024x64.size a ≤ S1024x512.size a
  packedbf16_S1024x512_S1024x64_0_320 : (Rect.unit (s := S1024x512) ![0, 320] S1024x64.size inb_S1024x512_S1024x64_0_320).PackedRows (EltTy.packing .bf16)
  inb_S1024x1536_S1024x64_0_1152 : ∀ a, (![0, 1152] : Fin 2 → Nat) a + S1024x64.size a ≤ S1024x1536.size a
  inb_S1024x1536_S1024x64_0_1216 : ∀ a, (![0, 1216] : Fin 2 → Nat) a + S1024x64.size a ≤ S1024x1536.size a
  inb_S1024x1536_S1024x64_0_1280 : ∀ a, (![0, 1280] : Fin 2 → Nat) a + S1024x64.size a ≤ S1024x1536.size a
  inb_S1024x512_S1024x64_0_384 : ∀ a, (![0, 384] : Fin 2 → Nat) a + S1024x64.size a ≤ S1024x512.size a
  packedbf16_S1024x512_S1024x64_0_384 : (Rect.unit (s := S1024x512) ![0, 384] S1024x64.size inb_S1024x512_S1024x64_0_384).PackedRows (EltTy.packing .bf16)
  inb_S1024x1536_S1024x64_0_1344 : ∀ a, (![0, 1344] : Fin 2 → Nat) a + S1024x64.size a ≤ S1024x1536.size a
  inb_S1024x1536_S1024x64_0_1408 : ∀ a, (![0, 1408] : Fin 2 → Nat) a + S1024x64.size a ≤ S1024x1536.size a
  inb_S1024x1536_S1024x64_0_1472 : ∀ a, (![0, 1472] : Fin 2 → Nat) a + S1024x64.size a ≤ S1024x1536.size a
  inb_S1024x512_S1024x64_0_448 : ∀ a, (![0, 448] : Fin 2 → Nat) a + S1024x64.size a ≤ S1024x512.size a
  packedbf16_S1024x512_S1024x64_0_448 : (Rect.unit (s := S1024x512) ![0, 448] S1024x64.size inb_S1024x512_S1024x64_0_448).PackedRows (EltTy.packing .bf16)
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1024x512_S1x1024x512 : S1024x512.ShapeCasts S1x1024x512
  shapeCasts_S8x1024x512_S8x32x32x512 : S8x1024x512.ShapeCasts S8x32x32x512
  dot_S1024x512_S512x1536_S1024x1536_1_0_0_1_n_n_wf : DotDims.WF S1024x512 S512x1536 S1024x1536 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x512.size a ≤ S8x1024x512.size a
  hwx0_6 : ∀ i : grid0.Coords, EltTy.bits .f32 = 32 ∨ (Rect.block (s := S8x1024x512) S1x1024x512.size (cc0_transform_6 i) (hinb0_6 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x32x32x512 : Shape := ⟨4, ![8, 32, 32, 512]⟩
abbrev S512 : Shape := ⟨1, ![512]⟩
abbrev S512x1536 : Shape := ⟨2, ![512, 1536]⟩
abbrev S512x512 : Shape := ⟨2, ![512, 512]⟩
abbrev S8x32x32x16x32 : Shape := ⟨5, ![8, 32, 32, 16, 32]⟩
abbrev S_ : Shape := ⟨0, ![]⟩
abbrev S8x16 : Shape := ⟨2, ![8, 16]⟩
abbrev S8x1x1x16x1 : Shape := ⟨5, ![8, 1, 1, 16, 1]⟩
abbrev S1x1x1x512 : Shape := ⟨4, ![1, 1, 1, 512]⟩
abbrev S8x32x32x1536 : Shape := ⟨4, ![8, 32, 32, 1536]⟩
abbrev S8x1024x8x192 : Shape := ⟨4, ![8, 1024, 8, 192]⟩
abbrev S8x8x192x1024 : Shape := ⟨4, ![8, 8, 192, 1024]⟩
abbrev S64x192x1024 : Shape := ⟨3, ![64, 192, 1024]⟩
abbrev S64x64x1024 : Shape := ⟨3, ![64, 64, 1024]⟩
abbrev S64x1024x1024 : Shape := ⟨3, ![64, 1024, 1024]⟩
abbrev S64x1024 : Shape := ⟨2, ![64, 1024]⟩
abbrev S64x1024x1 : Shape := ⟨3, ![64, 1024, 1]⟩
abbrev S64x1024x64 : Shape := ⟨3, ![64, 1024, 64]⟩
abbrev S8x8x1024x64 : Shape := ⟨4, ![8, 8, 1024, 64]⟩
abbrev S8x1024x8x64 : Shape := ⟨4, ![8, 1024, 8, 64]⟩

abbrev nBuf : Space → Nat
  | .hbm => 86
  | .vmem => 0
  | .smem => 0
  | _ => 0

abbrev bufTy : (tb : Table) → Fin (tcTables nBuf tb) → BufTy
  | .hbm, ⟨0, _⟩ => ⟨S8x32x32x512, .f32⟩
  | .hbm, ⟨1, _⟩ => ⟨S512, .f32⟩
  | .hbm, ⟨2, _⟩ => ⟨S512, .f32⟩
  | .hbm, ⟨3, _⟩ => ⟨S512x1536, .f32⟩
  | .hbm, ⟨4, _⟩ => ⟨S512x512, .f32⟩
  | .hbm, ⟨5, _⟩ => ⟨S512, .f32⟩
  | .hbm, ⟨6, _⟩ => ⟨S8x32x32x16x32, .f32⟩
  | .hbm, ⟨7, _⟩ => ⟨S_, .f32⟩
  | .hbm, ⟨8, _⟩ => ⟨S8x16, .f32⟩
  | .hbm, ⟨9, _⟩ => ⟨S8x1x1x16x1, .f32⟩
  | .hbm, ⟨10, _⟩ => ⟨S_, .f32⟩
  | .hbm, ⟨11, _⟩ => ⟨S8x1x1x16x1, .f32⟩
  | .hbm, ⟨12, _⟩ => ⟨S8x1x1x16x1, .f32⟩
  | .hbm, ⟨13, _⟩ => ⟨S_, .i32⟩
  | .hbm, ⟨14, _⟩ => ⟨S_, .f32⟩
  | .hbm, ⟨15, _⟩ => ⟨S8x16, .f32⟩
  | .hbm, ⟨16, _⟩ => ⟨S8x1x1x16x1, .f32⟩
  | .hbm, ⟨17, _⟩ => ⟨S_, .f32⟩
  | .hbm, ⟨18, _⟩ => ⟨S8x1x1x16x1, .f32⟩
  | .hbm, ⟨19, _⟩ => ⟨S8x1x1x16x1, .f32⟩
  | .hbm, ⟨20, _⟩ => ⟨S8x32x32x16x32, .f32⟩
  | .hbm, ⟨21, _⟩ => ⟨S8x32x32x16x32, .f32⟩
  | .hbm, ⟨22, _⟩ => ⟨S8x32x32x16x32, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x16, .f32⟩
  | .hbm, ⟨28, _⟩ => ⟨S8x1x1x16x1, .f32⟩
  | .hbm, ⟨29, _⟩ => ⟨S8x1x1x16x1, .f32⟩
  | .hbm, ⟨30, _⟩ => ⟨S8x1x1x16x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S8x1x1x16x1, .f32⟩
  | .hbm, ⟨36, _⟩ => ⟨S8x1x1x16x1, .f32⟩
  | .hbm, ⟨37, _⟩ => ⟨S8x32x32x16x32, .f32⟩
  | .hbm, ⟨38, _⟩ => ⟨S8x32x32x16x32, .f32⟩
  | .hbm, ⟨39, _⟩ => ⟨S_, .f32⟩
  | .hbm, ⟨40, _⟩ => ⟨S8x1x1x16x1, .f32⟩
  | .hbm, ⟨41, _⟩ => ⟨S8x1x1x16x1, .f32⟩
  | .hbm, ⟨42, _⟩ => ⟨S8x1x1x16x1, .f32⟩
  | .hbm, ⟨43, _⟩ => ⟨S8x32x32x16x32, .f32⟩
  | .hbm, ⟨44, _⟩ => ⟨S8x32x32x16x32, .f32⟩
  | .hbm, ⟨45, _⟩ => ⟨S8x32x32x512, .f32⟩
  | .hbm, ⟨46, _⟩ => ⟨S1x1x1x512, .f32⟩
  | .hbm, ⟨47, _⟩ => ⟨S8x32x32x512, .f32⟩
  | .hbm, ⟨48, _⟩ => ⟨S8x32x32x512, .f32⟩
  | .hbm, ⟨49, _⟩ => ⟨S1x1x1x512, .f32⟩
  | .hbm, ⟨50, _⟩ => ⟨S8x32x32x512, .f32⟩
  | .hbm, ⟨51, _⟩ => ⟨S8x32x32x512, .f32⟩
  | .hbm, ⟨52, _⟩ => ⟨S8x32x32x1536, .f32⟩
  | .hbm, ⟨53, _⟩ => ⟨S8x1024x8x192, .f32⟩
  | .hbm, ⟨54, _⟩ => ⟨S8x8x192x1024, .f32⟩
  | .hbm, ⟨55, _⟩ => ⟨S64x192x1024, .f32⟩
  | .hbm, ⟨56, _⟩ => ⟨S64x64x1024, .f32⟩
  | .hbm, ⟨57, _⟩ => ⟨S64x64x1024, .f32⟩
  | .hbm, ⟨58, _⟩ => ⟨S64x64x1024, .f32⟩
  | .hbm, ⟨59, _⟩ => ⟨S64x1024x1024, .f32⟩
  | .hbm, ⟨60, _⟩ => ⟨S_, .f32⟩
  | .hbm, ⟨61, _⟩ => ⟨S64x1024x1024, .f32⟩
  | .hbm, ⟨62, _⟩ => ⟨S64x1024x1024, .f32⟩
  | .hbm, ⟨63, _⟩ => ⟨S_, .f32⟩
  | .hbm, ⟨64, _⟩ => ⟨S64x1024, .f32⟩
  | .hbm, ⟨65, _⟩ => ⟨S_, .f32⟩
  | .hbm, ⟨66, _⟩ => ⟨S64x1024, .f32⟩
  | .hbm, ⟨67, _⟩ => ⟨S64x1024, .f32⟩
  | .hbm, ⟨68, _⟩ => ⟨S64x1024x1, .f32⟩
  | .hbm, ⟨69, _⟩ => ⟨S64x1024x1024, .f32⟩
  | .hbm, ⟨70, _⟩ => ⟨S64x1024x1024, .f32⟩
  | .hbm, ⟨71, _⟩ => ⟨S64x1024x1024, .f32⟩
  | .hbm, ⟨72, _⟩ => ⟨S_, .f32⟩
  | .hbm, ⟨73, _⟩ => ⟨S64x1024, .f32⟩
  | .hbm, ⟨74, _⟩ => ⟨S64x1024x1, .f32⟩
  | .hbm, ⟨75, _⟩ => ⟨S64x1024x1024, .f32⟩
  | .hbm, ⟨76, _⟩ => ⟨S64x1024x1024, .f32⟩
  | .hbm, ⟨77, _⟩ => ⟨S64x1024x64, .f32⟩
  | .hbm, ⟨78, _⟩ => ⟨S8x8x1024x64, .f32⟩
  | .hbm, ⟨79, _⟩ => ⟨S8x1024x8x64, .f32⟩
  | .hbm, ⟨80, _⟩ => ⟨S8x32x32x512, .f32⟩
  | .hbm, ⟨81, _⟩ => ⟨S8x32x32x512, .f32⟩
  | .hbm, ⟨82, _⟩ => ⟨S1x1x1x512, .f32⟩
  | .hbm, ⟨83, _⟩ => ⟨S8x32x32x512, .f32⟩
  | .hbm, ⟨84, _⟩ => ⟨S8x32x32x512, .f32⟩
  | .hbm, ⟨85, _⟩ => ⟨S8x32x32x512, .f32⟩
  | _, _ => ⟨S8x32x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_2 : Ref sig .tc := ⟨.hbm, 60, rfl⟩
abbrev main_v28 : Ref sig .tc := ⟨.hbm, 61, rfl⟩
abbrev main_v29 : Ref sig .tc := ⟨.hbm, 62, rfl⟩
abbrev main_cst_3 : Ref sig .tc := ⟨.hbm, 63, rfl⟩
abbrev main_v30 : Ref sig .tc := ⟨.hbm, 64, rfl⟩
abbrev main_cst_4 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_5 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩

abbrev nD : Nat := 1
abbrev τ : Topo := Topo.v7x

variable {F : FTy → Type} [FloatOps F]

class Facts₀ : Prop where
  shapeCasts_S8x32x32x512_S8x32x32x16x32 : S8x32x32x512.ShapeCasts S8x32x32x16x32
  reducesTo_S8x32x32x16x32_S8x16_d1_2_4 : S8x32x32x16x32.ReducesTo [1, 2, 4] S8x16
  h_S_ : 0 < S_.numel
  bcast_S8x16_S8x1x1x16x1_0_3 : S8x16.BroadcastsInDim S8x1x1x16x1 (![0, 3] : Fin 2 → Fin S8x1x1x16x1.rank)
  bcast_S_S8x1x1x16x1 : S_.BroadcastsInDim S8x1x1x16x1 (![] : Fin 0 → Fin S8x1x1x16x1.rank)
  bcast_S8x1x1x16x1_S8x32x32x16x32_0_1_2_3_4 : S8x1x1x16x1.BroadcastsInDim S8x32x32x16x32 (![0, 1, 2, 3, 4] : Fin 5 → Fin S8x32x32x16x32.rank)
  shapeCasts_S8x32x32x16x32_S8x32x32x512 : S8x32x32x16x32.ShapeCasts S8x32x32x512
  bcast_S512_S1x1x1x512_3 : S512.BroadcastsInDim S1x1x1x512 (![3] : Fin 1 → Fin S1x1x1x512.rank)
  bcast_S1x1x1x512_S8x32x32x512_0_1_2_3 : S1x1x1x512.BroadcastsInDim S8x32x32x512 (![0, 1, 2, 3] : Fin 4 → Fin S8x32x32x512.rank)
  shapeCasts_S8x32x32x1536_S8x1024x8x192 : S8x32x32x1536.ShapeCasts S8x1024x8x192
  transposes_S8x1024x8x192_S8x8x192x1024_0_2_3_1 : S8x1024x8x192.Transposes [0, 2, 3, 1] S8x8x192x1024
  shapeCasts_S8x8x192x1024_S64x192x1024 : S8x8x192x1024.ShapeCasts S64x192x1024
  slices_S64x192x1024_S64x64x1024_0_0_0 : S64x192x1024.Slices ![0, 0, 0] S64x64x1024
  slices_S64x192x1024_S64x64x1024_0_64_0 : S64x192x1024.Slices ![0, 64, 0] S64x64x1024
  slices_S64x192x1024_S64x64x1024_0_128_0 : S64x192x1024.Slices ![0, 128, 0] S64x64x1024
  bcast_S_S64x1024x1024 : S_.BroadcastsInDim S64x1024x1024 (![] : Fin 0 → Fin S64x1024x1024.rank)
  reducesTo_S64x1024x1024_S64x1024_d2 : S64x1024x1024.ReducesTo [2] S64x1024
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  shapeCasts_S64x1024x64_S8x8x1024x64 : S64x1024x64.ShapeCasts S8x8x1024x64
  transposes_S8x8x1024x64_S8x1024x8x64_0_2_1_3 : S8x8x1024x64.Transposes [0, 2, 1, 3] S8x1024x8x64
  shapeCasts_S8x1024x8x64_S8x32x32x512 : S8x1024x8x64.ShapeCasts S8x32x32x512
  dot_S8x32x32x512_S512x1536_S8x32x32x1536_3_0_012_1_n_n_wf : DotDims.WF S8x32x32x512 S512x1536 S8x32x32x1536 [3] [0] [0, 1, 2] [1] [] []
  dot_S64x64x1024_S64x64x1024_S64x1024x1024_1_1_2_2_0_0_wf : DotDims.WF S64x64x1024 S64x64x1024 S64x1024x1024 [1] [1] [2] [2] [0] [0]
  dot_S64x1024x1024_S64x64x1024_S64x1024x64_2_2_1_1_0_0_wf : DotDims.WF S64x1024x1024 S64x64x1024 S64x1024x64 [2] [2] [1] [1] [0] [0]
  dot_S8x32x32x512_S512x512_S8x32x32x512_3_0_012_1_n_n_wf : DotDims.WF S8x32x32x512 S512x512 S8x32x32x512 [3] [0] [0, 1, 2] [1] [] []

variable [Facts₀]

def dot_S8x32x32x512_S512x1536_S8x32x32x1536_3_0_012_1_n_n : DotDims S8x32x32x512 S512x1536 S8x32x32x1536 where
  lhsContracting := [3]
  rhsContracting := [0]
  lhsNonContracting := [0, 1, 2]
  rhsNonContracting := [1]
  lhsBatch := []
  rhsBatch := []
  wf := dot_S8x32x32x512_S512x1536_S8x32x32x1536_3_0_012_1_n_n_wf
def dot_S64x64x1024_S64x64x1024_S64x1024x1024_1_1_2_2_0_0 : DotDims S64x64x1024 S64x64x1024 S64x1024x1024 where
  lhsContracting := [1]
  rhsContracting := [1]
  lhsNonContracting := [2]
  rhsNonContracting := [2]
  lhsBatch := [0]
  rhsBatch := [0]
  wf := dot_S64x64x1024_S64x64x1024_S64x1024x1024_1_1_2_2_0_0_wf
def dot_S64x1024x1024_S64x64x1024_S64x1024x64_2_2_1_1_0_0 : DotDims S64x1024x1024 S64x64x1024 S64x1024x64 where
  lhsContracting := [2]
  rhsContracting := [2]
  lhsNonContracting := [1]
  rhsNonContracting := [1]
  lhsBatch := [0]
  rhsBatch := [0]
  wf := dot_S64x1024x1024_S64x64x1024_S64x1024x64_2_2_1_1_0_0_wf
def dot_S8x32x32x512_S512x512_S8x32x32x512_3_0_012_1_n_n : DotDims S8x32x32x512 S512x512 S8x32x32x512 where
  lhsContracting := [3]
  rhsContracting := [0]
  lhsNonContracting := [0, 1, 2]
  rhsNonContracting := [1]
  lhsBatch := []
  rhsBatch := []
  wf := dot_S8x32x32x512_S512x512_S8x32x32x512_3_0_012_1_n_n_wf

class Facts : Prop extends Facts₀ where

variable [Facts]
-- ==== Proof.Spec.lean ====
/-
  The mathematics both programs compute, written once over plain coordinates on the extended reals.

  One batch element is a 1024 × 512 matrix X (1024 = 32·32 positions, 512 channels in 16 groups of 32).
  * Group normalisation: for group g the mean is (Σ_p Σ_j X p (32g+j)) · 2⁻¹⁵ (32768 = 1024·32 entries), the
    variance is the mean of the squared deviations, and an entry becomes
    (X p c − mean) · rsqrt(var + ε) · scale c + bias c.
  * The 1536 projected columns are 8 heads of 192 = 64 (query) + 64 (key) + 64 (value).
  * One head: scores (Σ_c Q p c · K k c) · 0.125, a softmax over the key position k written as
    exp(s − max) / Σ exp(s − max), and the weighted sum of the value rows.
  * The 8 heads side by side give a 1024 × 512 matrix O; the result is (O · Wo + bo) + X.
-/
import Idealize.ShloMosaic.PureOps.Ideal
import Idealize.ShloMosaic.Lib.ValueIdx

noncomputable section

namespace Cert.AttnSpec

open Idealize.ShloMosaic Idealize.ShloMosaic.ValueIdx

/-- 2⁻¹⁵ = 1/32768, the reciprocal of the number of entries of one group. -/
abbrev invN : EReal := Ideal.ofBits .f32 0x38000000#32
/-- The variance's ε (the float nearest 10⁻⁵). -/
abbrev eps : EReal := Ideal.ofBits .f32 0x3727C5AC#32
/-- 0.125 = 64^(-1/2), the scale of the scores. -/
abbrev scl : EReal := Ideal.ofBits .f32 0x3E000000#32
/-- −∞, where a running maximum starts. -/
abbrev negInf : EReal := Ideal.ofBits .f32 0xFF800000#32

/-- Channel j of group g. -/
def ch (g : Fin 16) (j : Fin 32) : Fin 512 := ⟨g.val * 32 + j.val, by omega⟩
/-- The group of a channel. -/
def grp (c : Fin 512) : Fin 16 := ⟨c.val / 32, by omega⟩
/-- Column c of part `part` (0 query, 1 key, 2 value) of head h among the 1536 projected columns. -/
def hcol (h : Fin 8) (part : Fin 3) (c : Fin 64) : Fin 1536 := ⟨h.val * 192 + part.val * 64 + c.val, by omega⟩
/-- The head a channel of the attention output belongs to, and its place inside the head. -/
def hd (c : Fin 512) : Fin 8 := ⟨c.val / 64, by omega⟩
def lane (c : Fin 512) : Fin 64 := ⟨c.val % 64, by omega⟩
/-- Position (h, w) of the 32 × 32 grid as one of 1024, and back. -/
def pos (h w : Fin 32) : Fin 1024 := ⟨h.val * 32 + w.val, by omega⟩
def prow (p : Fin 1024) : Fin 32 := ⟨p.val / 32, by omega⟩
def pcol (p : Fin 1024) : Fin 32 := ⟨p.val % 32, by omega⟩

section norm
variable (X : Fin 1024 → Fin 512 → EReal)

def mean (g : Fin 16) : EReal := (∑ p : Fin 1024, ∑ j : Fin 32, X p (ch g j)) * invN
def dif (p : Fin 1024) (c : Fin 512) : EReal := X p c - mean X (grp c)
def var (g : Fin 16) : EReal := (∑ p : Fin 1024, ∑ j : Fin 32, dif X p (ch g j) * dif X p (ch g j)) * invN
def rstd (g : Fin 16) : EReal := Ideal.rsqrt (var X g + eps)
def xn (sc bi : Fin 512 → EReal) (p : Fin 1024) (c : Fin 512) : EReal :=
  dif X p c * rstd X (grp c) * sc c + bi c
def qkv (sc bi : Fin 512 → EReal) (Wq : Fin 512 → Fin 1536 → EReal) (p : Fin 1024) (d : Fin 1536) : EReal :=
  ∑ c : Fin 512, xn X sc bi p c * Wq c d

end norm

section head
variable (Q K V : Fin 1024 → Fin 64 → EReal)

def score (p k : Fin 1024) : EReal := (∑ c : Fin 64, Q p c * K k c) * scl
def smax (p : Fin 1024) : EReal := (Finset.univ : Finset (Fin 1024)).fold max negInf (fun k => score Q K p k)
def ex (p k : Fin 1024) : EReal := Ideal.exp (score Q K p k - smax Q K p)
def den (p : Fin 1024) : EReal := ∑ k : Fin 1024, ex Q K p k
def head (p : Fin 1024) (c : Fin 64) : EReal := ∑ k : Fin 1024, Ideal.div (ex Q K p k) (den Q K p) * V k c

end head

/-- The 8 heads side by side: channel c of the attention output is lane (c mod 64) of head (c div 64), each head reading
    its own 192 columns of the projection T. -/
def att (T : Fin 1024 → Fin 1536 → EReal) (p : Fin 1024) (c : Fin 512) : EReal :=
  head (fun p' c' => T p' (hcol (hd c) 0 c')) (fun p' c' => T p' (hcol (hd c) 1 c')) (fun p' c' => T p' (hcol (hd c) 2 c'))
    p (lane c)

/-- The output projection, its bias, and the residual. -/
def proj (O : Fin 1024 → Fin 512 → EReal) (Wo : Fin 512 → Fin 512 → EReal) (bo : Fin 512 → EReal)
    (X : Fin 1024 → Fin 512 → EReal) (p : Fin 1024) (d : Fin 512) : EReal :=
  ((∑ c : Fin 512, O p c * Wo c d) + bo d) + X p d

/-- One batch element, end to end. -/
def block (X : Fin 1024 → Fin 512 → EReal) (sc bi : Fin 512 → EReal) (Wq : Fin 512 → Fin 1536 → EReal)
    (Wo : Fin 512 → Fin 512 → EReal) (bo : Fin 512 → EReal) (p : Fin 1024) (d : Fin 512) : EReal :=
  proj (att (qkv X sc bi Wq)) Wo bo X p d

/-- Batch element b of the [8, 32, 32, 512] input as a 1024 × 512 matrix (position p = 32·h + w). -/
def slab (x : (⟨4, ![8, 32, 32, 512]⟩ : Shape).Idx → EReal) (b : Fin 8) (p : Fin 1024) (c : Fin 512) : EReal :=
  x (ix4 b (prow p) (pcol p) c)

/-- The whole result array as one function of the six argument arrays. -/
def G (x : (⟨4, ![8, 32, 32, 512]⟩ : Shape).Idx → EReal) (s bi : (⟨1, ![512]⟩ : Shape).Idx → EReal)
    (wq : (⟨2, ![512, 1536]⟩ : Shape).Idx → EReal) (wo : (⟨2, ![512, 512]⟩ : Shape).Idx → EReal)
    (bo : (⟨1, ![512]⟩ : Shape).Idx → EReal) : (⟨4, ![8, 32, 32, 512]⟩ : Shape).Idx → EReal :=
  fun i => block (slab x (i 0)) (fun c => s (ix1 c)) (fun c => bi (ix1 c)) (fun c d => wq (ix2 c d))
    (fun c d => wo (ix2 c d)) (fun c => bo (ix1 c)) (pos (i 1) (i 2)) (i 3)

theorem G_apply (x : (⟨4, ![8, 32, 32, 512]⟩ : Shape).Idx → EReal) (s bi : (⟨1, ![512]⟩ : Shape).Idx → EReal)
    (wq : (⟨2, ![512, 1536]⟩ : Shape).Idx → EReal) (wo : (⟨2, ![512, 512]⟩ : Shape).Idx → EReal)
    (bo : (⟨1, ![512]⟩ : Shape).Idx → EReal) (b : Fin 8) (h w : Fin 32) (c : Fin 512) :
    G x s bi wq wo bo (ix4 b h w c)
      = block (slab x b) (fun c => s (ix1 c)) (fun c => bi (ix1 c)) (fun c d => wq (ix2 c d))
          (fun c d => wo (ix2 c d)) (fun c => bo (ix1 c)) (pos h w) c := rfl

theorem pos_prow_pcol (p : Fin 1024) : pos (prow p) (pcol p) = p := by
  apply Fin.ext; simp only [pos, prow, pcol]; omega

theorem prow_pos (h w : Fin 32) : prow (pos h w) = h := by
  apply Fin.ext; simp only [pos, prow]; omega

theorem pcol_pos (h w : Fin 32) : pcol (pos h w) = w := by
  apply Fin.ext; simp only [pos, pcol]; omega

theorem grp_ch (g : Fin 16) (j : Fin 32) : grp (ch g j) = g := by
  apply Fin.ext; simp only [grp, ch]; omega

end Cert.AttnSpec

end
-- ==== Proof.KernBlock.lean ====
/-
  What one run of the kernel's body leaves in the output block, as ONE explicit term of the six input blocks.

  The body writes the 1024 × 1536 projection into its first scratch buffer, reads it back sixty-four columns at a
  time (query, key and value columns of each of the eight heads), writes each head's 1024 × 64 result into columns
  64h … 64h + 63 of its second scratch buffer, reads that buffer back whole, and stores the output projection plus
  bias plus the input block. The run found exactly these stores; here they are named: `headPieces` is the list of
  the eight column stores into the second scratch buffer, `blockTerm` the one store into the output block.
-/
import proofs.«170573_j2095944040541_2_alg».proof.Proof.Gen.KernelIdeal.Frame
import Idealize.ShloMosaic.Lib.Pipeline.Value

set_option maxRecDepth 16384

noncomputable section

namespace Cert.KernelIdeal.Blk

open Idealize.ShloMosaic Idealize.ShloMosaic.TcCoe Idealize.ShloMosaic.Tactic
open Idealize.SL Idealize.SL.Sem
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The eight column stores into the second scratch buffer (last store first), each a head's payload of the
    projection `T` read back from the first scratch buffer through the head's three column windows. -/
def headPieces (v8 : View sig .tc .vmem S1024x1536 .bf16) (T : FVec F S1024x1536 .bf16) :
    List (View.Piece (Elt F) S1024x512 .bf16) :=
  [
    ⟨Rect.unit (s := S1024x512) ![0, 448] S1024x64.size inb_S1024x512_S1024x64_0_448,
      k0_pay16 (v8.readCov [⟨Rect.unit (s := S1024x1536) ![0, 0] S1024x1536.size inb_S1024x1536_S1024x1536_0_0, T⟩] (Rect.unit (s := S1024x1536) ![0, 1344] S1024x64.size inb_S1024x1536_S1024x64_0_1344).toLoadRect) (v8.readCov [⟨Rect.unit (s := S1024x1536) ![0, 0] S1024x1536.size inb_S1024x1536_S1024x1536_0_0, T⟩] (Rect.unit (s := S1024x1536) ![0, 1408] S1024x64.size inb_S1024x1536_S1024x64_0_1408).toLoadRect) (v8.readCov [⟨Rect.unit (s := S1024x1536) ![0, 0] S1024x1536.size inb_S1024x1536_S1024x1536_0_0, T⟩] (Rect.unit (s := S1024x1536) ![0, 1472] S1024x64.size inb_S1024x1536_S1024x64_0_1472).toLoadRect)⟩,
    ⟨Rect.unit (s := S1024x512) ![0, 384] S1024x64.size inb_S1024x512_S1024x64_0_384,
      k0_pay15 (v8.readCov [⟨Rect.unit (s := S1024x1536) ![0, 0] S1024x1536.size inb_S1024x1536_S1024x1536_0_0, T⟩] (Rect.unit (s := S1024x1536) ![0, 1280] S1024x64.size inb_S1024x1536_S1024x64_0_1280).toLoadRect) (k0_pay13 (v8.readCov [⟨Rect.unit (s := S1024x1536) ![0, 0] S1024x1536.size inb_S1024x1536_S1024x1536_0_0, T⟩] (Rect.unit (s := S1024x1536) ![0, 1152] S1024x64.size inb_S1024x1536_S1024x64_0_1152).toLoadRect) (v8.readCov [⟨Rect.unit (s := S1024x1536) ![0, 0] S1024x1536.size inb_S1024x1536_S1024x1536_0_0, T⟩] (Rect.unit (s := S1024x1536) ![0, 1216] S1024x64.size inb_S1024x1536_S1024x64_0_1216).toLoadRect)) (k0_pay14 (v8.readCov [⟨Rect.unit (s := S1024x1536) ![0, 0] S1024x1536.size inb_S1024x1536_S1024x1536_0_0, T⟩] (Rect.unit (s := S1024x1536) ![0, 1152] S1024x64.size inb_S1024x1536_S1024x64_0_1152).toLoadRect) (v8.readCov [⟨Rect.unit (s := S1024x1536) ![0, 0] S1024x1536.size inb_S1024x1536_S1024x1536_0_0, T⟩] (Rect.unit (s := S1024x1536) ![0, 1216] S1024x64.size inb_S1024x1536_S1024x64_0_1216).toLoadRect))⟩,
    ⟨Rect.unit (s := S1024x512) ![0, 320] S1024x64.size inb_S1024x512_S1024x64_0_320,
      k0_pay12 (v8.readCov [⟨Rect.unit (s := S1024x1536) ![0, 0] S1024x1536.size inb_S1024x1536_S1024x1536_0_0, T⟩] (Rect.unit (s := S1024x1536) ![0, 960] S1024x64.size inb_S1024x1536_S1024x64_0_960).toLoadRect) (v8.readCov [⟨Rect.unit (s := S1024x1536) ![0, 0] S1024x1536.size inb_S1024x1536_S1024x1536_0_0, T⟩] (Rect.unit (s := S1024x1536) ![0, 1024] S1024x64.size inb_S1024x1536_S1024x64_0_1024).toLoadRect) (v8.readCov [⟨Rect.unit (s := S1024x1536) ![0, 0] S1024x1536.size inb_S1024x1536_S1024x1536_0_0, T⟩] (Rect.unit (s := S1024x1536) ![0, 1088] S1024x64.size inb_S1024x1536_S1024x64_0_1088).toLoadRect)⟩,
    ⟨Rect.unit (s := S1024x512) ![0, 256] S1024x64.size inb_S1024x512_S1024x64_0_256,
      k0_pay11 (v8.readCov [⟨Rect.unit (s := S1024x1536) ![0, 0] S1024x1536.size inb_S1024x1536_S1024x1536_0_0, T⟩] (Rect.unit (s := S1024x1536) ![0, 768] S1024x64.size inb_S1024x1536_S1024x64_0_768).toLoadRect) (v8.readCov [⟨Rect.unit (s := S1024x1536) ![0, 0] S1024x1536.size inb_S1024x1536_S1024x1536_0_0, T⟩] (Rect.unit (s := S1024x1536) ![0, 832] S1024x64.size inb_S1024x1536_S1024x64_0_832).toLoadRect) (v8.readCov [⟨Rect.unit (s := S1024x1536) ![0, 0] S1024x1536.size inb_S1024x1536_S1024x1536_0_0, T⟩] (Rect.unit (s := S1024x1536) ![0, 896] S1024x64.size inb_S1024x1536_S1024x64_0_896).toLoadRect)⟩,
    ⟨Rect.unit (s := S1024x512) ![0, 192] S1024x64.size inb_S1024x512_S1024x64_0_192,
      k0_pay10 (v8.readCov [⟨Rect.unit (s := S1024x1536) ![0, 0] S1024x1536.size inb_S1024x1536_S1024x1536_0_0, T⟩] (Rect.unit (s := S1024x1536) ![0, 704] S1024x64.size inb_S1024x1536_S1024x64_0_704).toLoadRect) (k0_pay9 (v8.readCov [⟨Rect.unit (s := S1024x1536) ![0, 0] S1024x1536.size inb_S1024x1536_S1024x1536_0_0, T⟩] (Rect.unit (s := S1024x1536) ![0, 576] S1024x64.size inb_S1024x1536_S1024x64_0_576).toLoadRect) (v8.readCov [⟨Rect.unit (s := S1024x1536) ![0, 0] S1024x1536.size inb_S1024x1536_S1024x1536_0_0, T⟩] (Rect.unit (s := S1024x1536) ![0, 640] S1024x64.size inb_S1024x1536_S1024x64_0_640).toLoadRect)) (FloatOps.ofBits FTy.f32 1040187392#32)⟩,
    ⟨Rect.unit (s := S1024x512) ![0, 128] S1024x64.size inb_S1024x512_S1024x64_0_128,
      k0_pay8 (v8.readCov [⟨Rect.unit (s := S1024x1536) ![0, 0] S1024x1536.size inb_S1024x1536_S1024x1536_0_0, T⟩] (Rect.unit (s := S1024x1536) ![0, 384] S1024x64.size inb_S1024x1536_S1024x64_0_384).toLoadRect) (v8.readCov [⟨Rect.unit (s := S1024x1536) ![0, 0] S1024x1536.size inb_S1024x1536_S1024x1536_0_0, T⟩] (Rect.unit (s := S1024x1536) ![0, 448] S1024x64.size inb_S1024x1536_S1024x64_0_448).toLoadRect) (v8.readCov [⟨Rect.unit (s := S1024x1536) ![0, 0] S1024x1536.size inb_S1024x1536_S1024x1536_0_0, T⟩] (Rect.unit (s := S1024x1536) ![0, 512] S1024x64.size inb_S1024x1536_S1024x64_0_512).toLoadRect)⟩,
    ⟨Rect.unit (s := S1024x512) ![0, 64] S1024x64.size inb_S1024x512_S1024x64_0_64,
      k0_pay7 (v8.readCov [⟨Rect.unit (s := S1024x1536) ![0, 0] S1024x1536.size inb_S1024x1536_S1024x1536_0_0, T⟩] (Rect.unit (s := S1024x1536) ![0, 320] S1024x64.size inb_S1024x1536_S1024x64_0_320).toLoadRect) (k0_pay5 (v8.readCov [⟨Rect.unit (s := S1024x1536) ![0, 0] S1024x1536.size inb_S1024x1536_S1024x1536_0_0, T⟩] (Rect.unit (s := S1024x1536) ![0, 192] S1024x64.size inb_S1024x1536_S1024x64_0_192).toLoadRect) (v8.readCov [⟨Rect.unit (s := S1024x1536) ![0, 0] S1024x1536.size inb_S1024x1536_S1024x1536_0_0, T⟩] (Rect.unit (s := S1024x1536) ![0, 256] S1024x64.size inb_S1024x1536_S1024x64_0_256).toLoadRect)) (k0_pay6 (v8.readCov [⟨Rect.unit (s := S1024x1536) ![0, 0] S1024x1536.size inb_S1024x1536_S1024x1536_0_0, T⟩] (Rect.unit (s := S1024x1536) ![0, 192] S1024x64.size inb_S1024x1536_S1024x64_0_192).toLoadRect) (v8.readCov [⟨Rect.unit (s := S1024x1536) ![0, 0] S1024x1536.size inb_S1024x1536_S1024x1536_0_0, T⟩] (Rect.unit (s := S1024x1536) ![0, 256] S1024x64.size inb_S1024x1536_S1024x64_0_256).toLoadRect))⟩,
    ⟨Rect.unit (s := S1024x512) ![0, 0] S1024x64.size inb_S1024x512_S1024x64_0_0,
      k0_pay4 (v8.readCov [⟨Rect.unit (s := S1024x1536) ![0, 0] S1024x1536.size inb_S1024x1536_S1024x1536_0_0, T⟩] (Rect.unit (s := S1024x1536) ![0, 0] S1024x64.size inb_S1024x1536_S1024x64_0_0).toLoadRect) (v8.readCov [⟨Rect.unit (s := S1024x1536) ![0, 0] S1024x1536.size inb_S1024x1536_S1024x1536_0_0, T⟩] (Rect.unit (s := S1024x1536) ![0, 64] S1024x64.size inb_S1024x1536_S1024x64_0_64).toLoadRect) (v8.readCov [⟨Rect.unit (s := S1024x1536) ![0, 0] S1024x1536.size inb_S1024x1536_S1024x1536_0_0, T⟩] (Rect.unit (s := S1024x1536) ![0, 128] S1024x64.size inb_S1024x1536_S1024x64_0_128).toLoadRect)⟩ ]

/-- The second scratch buffer read back whole after those stores. -/
def headsRead (v8 : View sig .tc .vmem S1024x1536 .bf16) (v9 : View sig .tc .vmem S1024x512 .bf16)
    (T : FVec F S1024x1536 .bf16) : Vec F S1024x512 .bf16 :=
  v9.readCov (headPieces v8 T) (Rect.unit (s := S1024x512) ![0, 0] S1024x512.size inb_S1024x512_S1024x512_0_0).toLoadRect

/-- The block the body stores: output projection of the heads, plus bias, plus the input block. -/
def blockTerm (v8 : View sig .tc .vmem S1024x1536 .bf16) (v9 : View sig .tc .vmem S1024x512 .bf16)
    (x0 : Vec F S1x1024x512 .f32) (x1 x2 : Vec F S512 .f32) (x3 : Vec F S512x1536 .bf16) (x4 : Vec F S512x512 .bf16)
    (x5 : Vec F S512 .f32) : Vec F S1x1024x512 .f32 :=
  k0_pay1 (k0_pay2 x0) (k0_pay17 (headsRead v8 v9 (k0_pay3 x0 x1 x2 x3)) x4) (k0_pay18 x5)

/-- What the run leaves in the output block is that term. -/
theorem out_eq (c : Dev nD) (i : grid0.Coords) (arg1 : Memref sig .tc .vmem S1x1024x512 .f32) (harg1 : arg1.IsWhole) (arg2 : Memref sig .tc .vmem S512 .f32) (harg2 : arg2.IsWhole) (arg3 : Memref sig .tc .vmem S512 .f32) (harg3 : arg3.IsWhole) (arg4 : Memref sig .tc .vmem S512x1536 .bf16) (harg4 : arg4.IsWhole) (arg5 : Memref sig .tc .vmem S512x512 .bf16) (harg5 : arg5.IsWhole) (arg6 : Memref sig .tc .vmem S512 .f32) (harg6 : arg6.IsWhole) (arg7 : Memref sig .tc .vmem S1x1024x512 .f32) (harg7 : arg7.IsWhole) (arg8 : Memref sig .tc .vmem S1024x1536 .bf16) (harg8 : arg8.IsWhole) (arg9 : Memref sig .tc .vmem S1024x512 .bf16) (harg9 : arg9.IsWhole)
    (x0 : Vec F S1x1024x512 .f32) (x1 : Vec F S512 .f32) (x2 : Vec F S512 .f32) (x3 : Vec F S512x1536 .bf16) (x4 : Vec F S512x512 .bf16) (x5 : Vec F S512 .f32) :
    out0_A_6 c i arg1 harg1 arg2 harg2 arg3 harg3 arg4 harg4 arg5 harg5 arg6 harg6 arg7 harg7 arg8 harg8 arg9 harg9 x0 x1 x2 x3 x4 x5 = blockTerm arg8.view arg9.view x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero hz3]
  simp only [View.readAt_eq_ld, harg1.read_unread, harg2.read_unread, harg3.read_unread, harg4.read_unread,
    harg5.read_unread, harg6.read_unread, View.ld_unit_zero (S := S1x1024x512) hz3, View.ld_unit_zero (S := S512) hz1,
    View.ld_unit_zero (S := S512x1536) hz2, View.ld_unit_zero (S := S512x512) hz2]
  rfl

end Cert.KernelIdeal.Blk

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibRowMax.lean ====
/-
  A kernel's row maxima, read at an index given by coordinates.

  `jnp.max(x, axis=1)` of a matrix `[a, b]` is, in a kernel, a lane reduction `[a, b] → [a]` by `maximumf` from an
  accumulator word. On the extended reals `max` is commutative and associative, so the order of the reduction does not
  matter: read at row `r` the result is the fold of `max`, from the value the accumulator's word denotes, over the entries
  `x (r, k)`, `k` running over the row.
-/
import Idealize.ShloMosaic.Lib.ValueIdx
import Idealize.ShloMosaic.PureOps.Ideal.Laws

noncomputable section

namespace Cert.LibRowMax

open Idealize.ShloMosaic Idealize.ShloMosaic.ValueIdx

/-- A lane reduction by `maximumf` of an `[a, b]` matrix along its rows, at the ideal values and read at row `r`: the
    fold of `max` from the accumulator's value over the row. -/
theorem multiReduction_max_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Cert.LibRowMax

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.LibRowMin.lean ====
/-
  A kernel's row minima, and the lattice reading of a row reduction, at an index given by coordinates.

  `jnp.min(x, axis=1)` of a matrix `[a, b]` is, in a kernel, a lane reduction `[a, b] → [a]` by `minimumf` from an
  accumulator word. On the extended reals `min` is commutative and associative, so the order of the reduction does not
  matter: read at row `r` the result is the fold of `min`, from the value the accumulator's word denotes, over the entries
  `x (r, k)`, `k` running over the row. When that word is the one of +∞ the accumulator's value is the top element and the
  fold over the whole row is the infimum of the row; dually a fold of `max` from the word of −∞, the bottom element, is
  the supremum — the form a masked maximum or minimum (`jnp.where(mask, x, ∓inf)` reduced along the row) is compared in.
  Last, a matrix transposed by the permutation `[1, 0]` reads, at `(d, j)`, the operand at `(j, d)`: the right operand of
  `x @ y.T`.
-/
import Idealize.ShloMosaic.Lib.ValueIdx
import Idealize.ShloMosaic.Lib.Pipeline.Value
import Idealize.ShloMosaic.PureOps.Ideal.Laws

noncomputable section

namespace Cert.LibRowMin

open Idealize.ShloMosaic Idealize.ShloMosaic.ValueIdx

/-! ## The two infinities' words, and folds over a whole row as lattice operations -/

/-- The f32 word of minus infinity denotes the bottom element of the extended reals. -/
theorem ofBits_neg_inf : Ideal.ofBits .f32 0xFF800000#32 = ⊥ := by simp [Ideal.ofBits, Ideal.ieee]
/-- The f32 word of plus infinity denotes the top element of the extended reals. -/
theorem ofBits_pos_inf : Ideal.ofBits .f32 0x7F800000#32 = ⊤ := by simp [Ideal.ofBits, Ideal.ieee]

/-- A fold of max from bottom over all of `Fin n` is the supremum. -/
theorem fold_max_bot {n : ℕ} (f : Fin n → EReal) : (Finset.univ : Finset (Fin n)).fold max ⊥ f = Finset.univ.sup f := rfl
/-- A fold of min from top over all of `Fin n` is the infimum. -/
theorem fold_min_top {n : ℕ} (f : Fin n → EReal) : (Finset.univ : Finset (Fin n)).fold min ⊤ f = Finset.univ.inf f := rfl

/-! ## A minimum along one axis -/

/-- A lane reduction by minimumf over one axis, at the ideal values: min commutes and associates on the extended reals,
    so the result at an index is the fold of min, from the accumulator's value, over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A lane reduction by `minimumf` of an `[a, b]` matrix along its rows, at the ideal values and read at row `r`: the
    fold of `min` from the accumulator's value over the row. -/
theorem multiReduction_min_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (r : Fin a) :
    multiReduction .minimumf [1] ⟨1, ![a]⟩ src acc h hφ hacc (ix1 r)
      = (Finset.univ : Finset (Fin b)).fold min (Ideal.ofBits φ acc) (fun k => src (ix2 r k)) := by
  refine (multiReduction_minimumf_single src acc h hφ hacc (ix1 r)).trans ?_
  refine congrArg (Finset.fold _ _ · _) (funext fun k => congrArg src (funext fun ax => Fin.ext ?_))
  match ax with
  | ⟨0, _⟩ => rfl
  | ⟨1, _⟩ => rfl

/-! ## A transposed matrix -/

/-- An `[a, b]` matrix transposed to `[b, a]` reads, at `(d, j)`, the operand at `(j, d)`. -/
theorem transpose_ab_ba_apply {a b : ℕ} {α : Type} (x : (⟨2, ![a, b]⟩ : Shape).Idx → α)
    (h : (⟨2, ![a, b]⟩ : Shape).Transposes [1, 0] ⟨2, ![b, a]⟩) (d : Fin b) (j : Fin a) :
    transpose ⟨2, ![b, a]⟩ [1, 0] x h (ix2 d j) = x (ix2 j d) :=
  transpose_apply [1, 0] x h (ix2 d j) (ix2 j d) fun ax => by
    match ax with
    | ⟨0, _⟩ => rfl
    | ⟨1, _⟩ => rfl

end Cert.LibRowMin

end
-- ==== Proof.KernHead.lean ====
/-
  One attention head of the kernel, read at an index over the extended reals.

  The kernel computes a head from three 1024 × 64 blocks q, k, v: the scores q · kᵀ into a zero accumulator times 0.125,
  the row maxima, exp(score − max), the row sums, the quotient, and the product with v. Each step is read at a pair of
  coordinates; the result is the head of the specification: Σ_j (ex p j / den p) · v j c.
-/
import proofs.«170573_j2095944040541_2_alg».proof.Proof.Gen.KernelIdeal.Skeleton
import proofs.«170573_j2095944040541_2_alg».proof.Proof.Spec
import proofs.«170573_j2095944040541_2_alg».proof.Proof.LibMatmulNN
import proofs.«170573_j2095944040541_2_alg».proof.Proof.LibRowMax
import proofs.«170573_j2095944040541_2_alg».proof.Proof.LibColumns
import proofs.«170573_j2095944040541_2_alg».proof.Proof.LibRowMin

noncomputable section

open scoped BigOperators

namespace Cert.KernelIdeal.Pay

open Idealize.ShloMosaic Idealize.ShloMosaic.ValueIdx Cert.KernelIdeal Cert.KernelIdeal.Gen

/-- The head of the specification on the three blocks read by coordinates. -/
def headOf (q k v : Vec Ideal S1024x64 .bf16) : Fin 1024 → Fin 64 → EReal :=
  Cert.AttnSpec.head (fun p c => q (ix2 p c)) (fun p c => k (ix2 p c)) (fun p c => v (ix2 p c))

/-- The unscaled scores q · kᵀ into a zero accumulator. -/
def rawK (q k : FVec Ideal S1024x64 .bf16) : FVec Ideal S1024x1024 .f32 :=
  matmul dot_S1024x64_S64x1024_S1024x1024_1_0_0_1_n_n none q
    (transpose S64x1024 [1, 0] k transposes_S1024x64_p1_0_S64x1024) (constant S1024x1024 .f32 0x00000000#32)

/-- exp(score − row maximum) from a matrix of scores. -/
def exOfK (s : FVec Ideal S1024x1024 .f32) : FVec Ideal S1024x1024 .f32 :=
  exp (subf s (broadcastTo S1024x1024 (shapeCast S1024x1
    (multiReduction .maximumf [1] S1024 s 0xFF800000#32 reduces_S1024x1024_S1024 (.inl rfl) rfl)
    shapeCasts_S1024_S1024x1) broadcasts_S1024x1_S1024x1024))

/-- The row sums of a matrix, kept as a column and broadcast back along the rows. -/
def denOfK (e : FVec Ideal S1024x1024 .f32) : FVec Ideal S1024x1024 .f32 :=
  broadcastTo S1024x1024 (shapeCast S1024x1
    (multiReduction .add [1] S1024 e 0x00000000#32 reduces_S1024x1024_S1024 (.inl rfl) rfl)
    shapeCasts_S1024_S1024x1) broadcasts_S1024x1_S1024x1024

/-- The quotient e / d times v into a zero accumulator. -/
def mixK (v : FVec Ideal S1024x64 .bf16) (e d : FVec Ideal S1024x1024 .f32) : FVec Ideal S1024x64 .bf16 :=
  shapeCast S1024x64 (truncf .bf16
    (matmul dot_S1024x1024_S1024x64_S1024x64_1_0_0_1_n_n none (truncf .bf16 (divf e d) bitsLt_bf16_f32) v
      (constant S1024x64 .f32 0x00000000#32)) bitsLt_bf16_f32) shapeCasts_S1024x64_S1024x64

/-- The scaled scores. -/
def scoresK (q k : FVec Ideal S1024x64 .bf16) (c : Ideal .f32) : FVec Ideal S1024x1024 .f32 :=
  mulf (rawK q k) (broadcast S1024x1024 c)

section
variable (q k v : FVec Ideal S1024x64 .bf16)

theorem rawK_apply (p j : Fin 1024) : rawK q k (ix2 p j) = ∑ c : Fin 64, q (ix2 p c) * k (ix2 j c) := by
  refine (Cert.LibMatmulNN.matmul_nn_apply (M := 1024) (N := 1024) (K := 64) (φ₁ := .bf16) (φ₂ := .bf16)
    dot_S1024x64_S64x1024_S1024x1024_1_0_0_1_n_n rfl rfl rfl rfl rfl rfl none q
    (transpose S64x1024 [1, 0] k transposes_S1024x64_p1_0_S64x1024) p j).trans ?_
  refine Finset.sum_congr rfl fun c _ => ?_
  rw [Cert.LibRowMin.transpose_ab_ba_apply (a := 1024) (b := 64) k transposes_S1024x64_p1_0_S64x1024 c j]

theorem scoresK_apply (p j : Fin 1024) :
    scoresK q k (FloatOps.ofBits FTy.f32 0x3E000000#32) (ix2 p j)
      = Cert.AttnSpec.score (fun p c => q (ix2 p c)) (fun p c => k (ix2 p c)) p j := by
  show rawK q k (ix2 p j) * Cert.AttnSpec.scl = _
  rw [rawK_apply]
  rfl

end

section
variable (q k v : FVec Ideal S1024x64 .bf16)

/-- The row maximum of a score matrix, kept as a column and broadcast back, at (p, j): the fold of max over row p. -/
theorem rowMaxK_apply (s : FVec Ideal S1024x1024 .f32) (p j : Fin 1024) :
    broadcastTo S1024x1024 (shapeCast S1024x1
        (multiReduction .maximumf [1] S1024 s 0xFF800000#32 reduces_S1024x1024_S1024 (.inl rfl) rfl)
        shapeCasts_S1024_S1024x1) broadcasts_S1024x1_S1024x1024 (ix2 p j)
      = (Finset.univ : Finset (Fin 1024)).fold max Cert.AttnSpec.negInf (fun i => s (ix2 p i)) := by
  refine (Cert.LibColumns.broadcastTo_a1_ab_apply (a := 1024) (b := 1024) _ broadcasts_S1024x1_S1024x1024 p j).trans ?_
  refine (Cert.LibColumns.shapeCast_a_a1_apply (a := 1024) _ shapeCasts_S1024_S1024x1 p 0).trans ?_
  exact Cert.LibRowMax.multiReduction_max_rows_apply (a := 1024) (b := 1024) s 0xFF800000#32
    reduces_S1024x1024_S1024 (.inl rfl) rfl p

/-- exp(score − row maximum) at (p, j). -/
theorem exOfK_apply (s : FVec Ideal S1024x1024 .f32) (p j : Fin 1024) :
    exOfK s (ix2 p j)
      = Ideal.exp (s (ix2 p j) - (Finset.univ : Finset (Fin 1024)).fold max Cert.AttnSpec.negInf (fun i => s (ix2 p i))) := by
  show Ideal.exp (s (ix2 p j) - _) = _
  rw [rowMaxK_apply]

/-- The broadcast row sums at (p, j): the sum over row p. -/
theorem denOfK_apply (e : FVec Ideal S1024x1024 .f32) (p j : Fin 1024) :
    denOfK e (ix2 p j) = ∑ i : Fin 1024, e (ix2 p i) := by
  refine (Cert.LibColumns.broadcastTo_a1_ab_apply (a := 1024) (b := 1024) _ broadcasts_S1024x1_S1024x1024 p j).trans ?_
  refine (Cert.LibColumns.shapeCast_a_a1_apply (a := 1024) _ shapeCasts_S1024_S1024x1 p 0).trans ?_
  exact Cert.LibColumns.multiReduction_add_rows_apply (a := 1024) (b := 1024) e 0x00000000#32
    reduces_S1024x1024_S1024 (.inl rfl) rfl p

/-- (e / d) · v into a zero accumulator at (p, c). -/
theorem mixK_apply (e d : FVec Ideal S1024x1024 .f32) (p : Fin 1024) (c : Fin 64) :
    mixK v e d (ix2 p c) = ∑ j : Fin 1024, Ideal.div (e (ix2 p j)) (d (ix2 p j)) * v (ix2 j c) := by
  unfold mixK
  rw [shapeCast_self]
  exact Cert.LibMatmulNN.matmul_nn_apply (M := 1024) (N := 64) (K := 1024) (φ₁ := .bf16) (φ₂ := .bf16)
    dot_S1024x1024_S1024x64_S1024x64_1_0_0_1_n_n rfl rfl rfl rfl rfl rfl none
    (truncf .bf16 (divf e d) bitsLt_bf16_f32) v p c

/-- The scaled scores' exponentials are the specification's. -/
theorem exK_apply (p j : Fin 1024) :
    exOfK (scoresK q k (FloatOps.ofBits FTy.f32 0x3E000000#32)) (ix2 p j)
      = Cert.AttnSpec.ex (fun p c => q (ix2 p c)) (fun p c => k (ix2 p c)) p j := by
  have h : (fun i => scoresK q k (FloatOps.ofBits FTy.f32 0x3E000000#32) (ix2 p i))
      = fun i => Cert.AttnSpec.score (fun p c => q (ix2 p c)) (fun p c => k (ix2 p c)) p i :=
    funext fun i => scoresK_apply q k p i
  rw [exOfK_apply, scoresK_apply, h]
  rfl

/-- The whole head from its three stages. -/
theorem headK_apply (p : Fin 1024) (c : Fin 64) :
    mixK v (exOfK (scoresK q k (FloatOps.ofBits FTy.f32 0x3E000000#32)))
        (denOfK (exOfK (scoresK q k (FloatOps.ofBits FTy.f32 0x3E000000#32)))) (ix2 p c)
      = headOf q k v p c := by
  rw [mixK_apply]
  unfold headOf Cert.AttnSpec.head
  refine Finset.sum_congr rfl fun j _ => ?_
  have h : (∑ i : Fin 1024, exOfK (scoresK q k (FloatOps.ofBits FTy.f32 0x3E000000#32)) (ix2 p i))
      = Cert.AttnSpec.den (fun p c => q (ix2 p c)) (fun p c => k (ix2 p c)) p :=
    Finset.sum_congr rfl fun i _ => exK_apply q k p i
  rw [denOfK_apply, exK_apply, h]

end

/-! ## The kernel's eight heads, computed whole or in two or three pieces, are these stages -/

section
variable (q k v : Vec Ideal S1024x64 .bf16) (p : Fin 1024) (c : Fin 64)

theorem head0 : k0_pay4 (F := Ideal) q k v (ix2 p c) = headOf q k v p c := headK_apply q k v p c
theorem head2 : k0_pay8 (F := Ideal) q k v (ix2 p c) = headOf q k v p c := headK_apply q k v p c
theorem head4 : k0_pay11 (F := Ideal) q k v (ix2 p c) = headOf q k v p c := headK_apply q k v p c
theorem head5 : k0_pay12 (F := Ideal) q k v (ix2 p c) = headOf q k v p c := headK_apply q k v p c
theorem head7 : k0_pay16 (F := Ideal) q k v (ix2 p c) = headOf q k v p c := headK_apply q k v p c
theorem head1 : k0_pay7 (F := Ideal) v (k0_pay5 q k) (k0_pay6 q k) (ix2 p c) = headOf q k v p c := headK_apply q k v p c
theorem head3 : k0_pay10 (F := Ideal) v (k0_pay9 q k) (FloatOps.ofBits FTy.f32 1040187392#32) (ix2 p c) = headOf q k v p c :=
  headK_apply q k v p c
theorem head6 : k0_pay15 (F := Ideal) v (k0_pay13 q k) (k0_pay14 q k) (ix2 p c) = headOf q k v p c := headK_apply q k v p c

end

end Cert.KernelIdeal.Pay

end
-- ==== Proof.LibPairTile.lean ====
/-
  Layout operations of a kernel that works on a TILE OF PAIRS, read at an index by coordinates.

  A pairwise kernel holds, per grid point, a [a, b] tile indexed by (query row p, key row q), lifts it to
  [a, b, c] by a trailing feature axis, folds the pair axes into one row axis of a·b rows for a matrix product,
  and unfolds and permutes the product [a·b, h] into [h, a, b]. Each lemma reads one such operation at an index
  given by its coordinates and names the operand's index by coordinates; the folded row of the pair (p, q) is
  p·b + q.
-/
import Idealize.ShloMosaic.Lib.Pipeline.Value
import Idealize.ShloMosaic.Lib.ValueIdx
import Idealize.ShloMosaic.Lib.ValueLayout
import Idealize.ShloMosaic.PureOps.Ideal.Laws

noncomputable section

namespace Cert.PairTile

open Idealize.ShloMosaic Idealize.ShloMosaic.ValueIdx

variable {α : Type}

/-- A column [a, 1] broadcast to [a, b] reads, at (p, q), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A tile [a, b] cast to [a, b, 1] reads, at (p, q, u), the tile at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A tile [a, b, 1] broadcast along a trailing axis to [a, b, c] reads, at (p, q, k), the tile at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector [c] cast to [1, 1, c] reads, at (u, v, k), the vector at k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    simp only [hu, hv, Nat.zero_mul, Nat.zero_add, Nat.mul_one, Nat.add_zero])

/-- A row [1, 1, c] broadcast to [a, b, c] reads, at (p, q, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The pair axes folded: [a, b, c] cast to [n, c] (n = a·b) reads, at (r, k) with r = p·b + q, the tile at (p, q, k). -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The pair axes unfolded: [n, c] cast to [a, b, c] (n = a·b) reads, at (p, q, k), the matrix at (r, k), r = p·b + q. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

/-- The trailing axis brought to the front: [a, b, c] permuted by [2, 0, 1] reads, at (k, p, q), the tile at (p, q, k). -/
theorem transpose_201_apply {a b c : ℕ} (x : (⟨3, ![a, b, c]⟩ : Shape).Idx → α)
    (h : (⟨3, ![a, b, c]⟩ : Shape).Transposes [2, 0, 1] ⟨3, ![c, a, b]⟩) (k : Fin c) (p : Fin a) (q : Fin b) :
    transpose ⟨3, ![c, a, b]⟩ [2, 0, 1] x h (ix3 k p q) = x (ix3 p q k) :=
  transpose_apply _ x h _ _ fun d => match d with | ⟨0, _⟩ => rfl | ⟨1, _⟩ => rfl | ⟨2, _⟩ => rfl

/-- Coordinate o of the query rows over the tile: a [1, a, 3] block cast to [a, 3], its column o cut out as [a, 1]
    and broadcast over the key axis, reads at (p, q) the block at (0, p, o). -/
theorem queryCoord_apply {a b n : ℕ} (x : (⟨3, ![1, a, n]⟩ : Shape).Idx → α) (o : ℕ) (ho : o < n)
    (hc : (⟨3, ![1, a, n]⟩ : Shape).ShapeCasts ⟨2, ![a, n]⟩)
    (hs : (⟨2, ![a, n]⟩ : Shape).Slices ![0, o] ⟨2, ![a, 1]⟩)
    (hb : (⟨2, ![a, 1]⟩ : Shape).Broadcasts ⟨2, ![a, b]⟩) (p : Fin a) (q : Fin b) :
    broadcastTo ⟨2, ![a, b]⟩ (extractStridedSlice ⟨2, ![a, 1]⟩ ![0, o] (shapeCast ⟨2, ![a, n]⟩ x hc) hs) hb (ix2 p q)
      = x (ix3 (0 : Fin 1) p ⟨o, ho⟩) :=
  (broadcastTo_a1_ab_apply _ hb p q).trans
    ((slice2_axis1_apply o _ hs p (0 : Fin 1) ⟨o, ho⟩ (Nat.add_zero o).symm).trans (shapeCast_1ab_ab_apply x hc p ⟨o, ho⟩))

/-- Coordinate o of the key rows over the tile: a [1, b, 3] block cast to [b, 3] and transposed to [3, b], its row o
    cut out as [1, b] and broadcast over the query axis, reads at (p, q) the block at (0, q, o). -/
theorem keyCoord_apply {a b n : ℕ} (x : (⟨3, ![1, b, n]⟩ : Shape).Idx → α) (o : ℕ) (ho : o < n)
    (hc : (⟨3, ![1, b, n]⟩ : Shape).ShapeCasts ⟨2, ![b, n]⟩)
    (ht : (⟨2, ![b, n]⟩ : Shape).Transposes [1, 0] ⟨2, ![n, b]⟩)
    (hs : (⟨2, ![n, b]⟩ : Shape).Slices ![o, 0] ⟨2, ![1, b]⟩)
    (hb : (⟨2, ![1, b]⟩ : Shape).Broadcasts ⟨2, ![a, b]⟩) (p : Fin a) (q : Fin b) :
    broadcastTo ⟨2, ![a, b]⟩ (extractStridedSlice ⟨2, ![1, b]⟩ ![o, 0] (transpose ⟨2, ![n, b]⟩ [1, 0] (shapeCast ⟨2, ![b, n]⟩ x hc) ht) hs) hb (ix2 p q)
      = x (ix3 (0 : Fin 1) q ⟨o, ho⟩) :=
  (broadcastTo_1b_ab_apply _ hb p q).trans
    ((slice2_axis0_apply o _ hs (0 : Fin 1) q ⟨o, ho⟩ (Nat.add_zero o).symm).trans
      ((transpose_ix2_apply _ ht ⟨o, ho⟩ q).trans (shapeCast_1ab_ab_apply x hc q ⟨o, ho⟩)))

/-- A tile [a, b] lifted along a trailing feature axis to [a, b, c] reads, at (p, q, k), the tile at (p, q). -/
theorem liftTile_apply {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x hc) hb (ix3 p q k) = x (ix2 p q) :=
  (broadcastTo_ab1_abc_apply _ hb p q k).trans (shapeCast_ab_ab1_apply x hc p q 0)

/-- A feature vector [c] lifted over the pair axes to [a, b, c] reads, at (p, q, k), the vector at k. -/
theorem liftVec_apply {a b c : ℕ} (x : (⟨1, ![c]⟩ : Shape).Idx → α)
    (hc : (⟨1, ![c]⟩ : Shape).ShapeCasts ⟨3, ![1, 1, c]⟩) (hb : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x hc) hb (ix3 p q k) = x (ix1 k) :=
  (broadcastTo_11c_abc_apply _ hb p q k).trans (shapeCast_c_11c_apply x hc 0 0 k)

/-- A bias vector [c] over the folded rows: cast to [1, c] and broadcast to [n, c], it reads at (r, k) the vector at k. -/
theorem biasRows_apply {n c : ℕ} (x : (⟨1, ![c]⟩ : Shape).Idx → α)
    (hc : (⟨1, ![c]⟩ : Shape).ShapeCasts ⟨2, ![1, c]⟩) (hb : (⟨2, ![1, c]⟩ : Shape).Broadcasts ⟨2, ![n, c]⟩)
    (r : Fin n) (k : Fin c) :
    broadcastTo ⟨2, ![n, c]⟩ (shapeCast ⟨2, ![1, c]⟩ x hc) hb (ix2 r k) = x (ix1 k) :=
  (broadcastTo_1b_ab_apply _ hb r k).trans (shapeCast_a_1a_apply x hc 0 k)

end Cert.PairTile

end
-- ==== Proof.KernOut.lean ====
/-
  The kernel's last step read at an index over the extended reals: the attention output O times the output weights
  into a zero accumulator, plus the bias broadcast over the rows, plus the input block (the residual), stored as a
  1 × 1024 × 512 block. Read at (0, p, d) it is (Σ_c O p c · W c d + b d) + X p d.
-/
import proofs.«170573_j2095944040541_2_alg».proof.Proof.Gen.KernelIdeal.Skeleton
import proofs.«170573_j2095944040541_2_alg».proof.Proof.Spec
import proofs.«170573_j2095944040541_2_alg».proof.Proof.LibMatmulNN
import proofs.«170573_j2095944040541_2_alg».proof.Proof.LibPairTile

noncomputable section

open scoped BigOperators

namespace Cert.KernelIdeal.Pay

open Idealize.ShloMosaic Idealize.ShloMosaic.ValueIdx Cert.KernelIdeal Cert.KernelIdeal.Gen

/-- A 1024 × 512 matrix stored as a 1 × 1024 × 512 block reads, at (0, p, d), the matrix at (p, d). -/
theorem cast_add_unit_apply {α : Type} (w : S1024x512.Idx → α) (p : Fin 1024) (d : Fin 512) :
    shapeCast S1x1024x512 w shapeCasts_S1024x512_S1x1024x512 (ix3 (0 : Fin 1) p d) = w (ix2 p d) :=
  shapeCast_apply w shapeCasts_S1024x512_S1x1024x512 _ _ (by
    rw [Shape.rowMajor_val_two, Shape.rowMajor_val_three]
    show p.val * 512 + d.val = ((0 : Fin 1).val * 1024 + p.val) * 512 + d.val
    simp)

/-- A 1 × 1024 × 512 block viewed as a 1024 × 512 matrix reads, at (p, d), the block at (0, p, d). -/
theorem cast_drop_unit_apply {α : Type} (x : S1x1024x512.Idx → α) (p : Fin 1024) (d : Fin 512) :
    shapeCast S1024x512 x shapeCasts_S1x1024x512_S1024x512 (ix2 p d) = x (ix3 (0 : Fin 1) p d) :=
  shapeCast_apply x shapeCasts_S1x1024x512_S1024x512 _ _ (by
    rw [Shape.rowMajor_val_two, Shape.rowMajor_val_three]
    show ((0 : Fin 1).val * 1024 + p.val) * 512 + d.val = p.val * 512 + d.val
    simp)

/-- O · W into a zero accumulator at (p, d). -/
theorem outMatmul_apply (O : FVec Ideal S1024x512 .bf16) (x4 : FVec Ideal S512x512 .bf16) (p : Fin 1024) (d : Fin 512) :
    k0_pay17 (F := Ideal) O x4 (ix2 p d) = ∑ c : Fin 512, O (ix2 p c) * x4 (ix2 c d) := by
  unfold k0_pay17
  rw [shapeCast_self]
  exact Cert.LibMatmulNN.matmul_nn_apply (M := 1024) (N := 512) (K := 512) (φ₁ := .bf16) (φ₂ := .bf16)
    dot_S1024x512_S512x512_S1024x512_1_0_0_1_n_n rfl rfl rfl rfl rfl rfl none O x4 p d

/-- The bias broadcast over the rows at (p, d). -/
theorem outBias_apply (x5 : FVec Ideal S512 .f32) (p : Fin 1024) (d : Fin 512) :
    k0_pay18 (F := Ideal) x5 (ix2 p d) = x5 (ix1 d) :=
  Cert.PairTile.biasRows_apply (n := 1024) (c := 512) x5 shapeCasts_S512_S1x512 broadcasts_S1x512_S1024x512 p d

theorem out_apply (x0 : Vec Ideal S1x1024x512 .f32) (O : Vec Ideal S1024x512 .bf16) (x4 : Vec Ideal S512x512 .bf16)
    (x5 : Vec Ideal S512 .f32) (p : Fin 1024) (d : Fin 512) :
    k0_pay1 (F := Ideal) (k0_pay2 x0) (k0_pay17 O x4) (k0_pay18 x5) (ix3 (0 : Fin 1) p d)
      = Cert.AttnSpec.proj (fun p c => O (ix2 p c)) (fun c d => x4 (ix2 c d)) (fun c => x5 (ix1 c))
          (fun p c => x0 (ix3 (0 : Fin 1) p c)) p d := by
  show shapeCast S1x1024x512 (addf (addf (k0_pay17 (F := Ideal) O x4) (k0_pay18 (F := Ideal) x5)) (k0_pay2 (F := Ideal) x0))
      shapeCasts_S1024x512_S1x1024x512 (ix3 (0 : Fin 1) p d) = _
  refine (cast_add_unit_apply _ p d).trans ?_
  show (k0_pay17 (F := Ideal) O x4 (ix2 p d) + k0_pay18 (F := Ideal) x5 (ix2 p d)) + k0_pay2 (F := Ideal) x0 (ix2 p d) = _
  rw [outMatmul_apply, outBias_apply]
  unfold k0_pay2
  rw [cast_drop_unit_apply]
  rfl

end Cert.KernelIdeal.Pay

end
-- ==== Proof.KernNormLayout.lean ====
/-
  The two casts between a matrix [a, n] and the rank-3 array [a, b, c] that splits its columns into b groups of c
  (n = b·c), read at an index given by coordinates: column r = q·c + k of the matrix is lane k of group q.
-/
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx

variable {α : Type}

/-- The columns split: [a, n] cast to [a, b, c] (n = b·c) reads, at (p, q, k), the matrix at (p, r), r = q·c + k. -/
theorem shapeCast_split_apply {a b c n : ℕ} (x : (⟨2, ![a, n]⟩ : Shape).Idx → α)
    (h : (⟨2, ![a, n]⟩ : Shape).ShapeCasts ⟨3, ![a, b, c]⟩) (hn : n = b * c) (p : Fin a) (q : Fin b) (k : Fin c) (r : Fin n)
    (hr : r.val = q.val * c + k.val) : shapeCast ⟨3, ![a, b, c]⟩ x h (ix3 p q k) = x (ix2 p r) :=
  shapeCast_apply x h _ _ (by
    rw [Shape.rowMajor_val_three, Shape.rowMajor_val_two]
    show p.val * n + r.val = (p.val * b + q.val) * c + k.val
    rw [hr, hn, Nat.add_mul, Nat.mul_assoc, Nat.add_assoc])

/-- The groups merged back: [a, b, c] cast to [a, n] (n = b·c) reads, at (p, r) with r = q·c + k, the array at (p, q, k). -/
theorem shapeCast_merge_apply {a b c n : ℕ} (x : (⟨3, ![a, b, c]⟩ : Shape).Idx → α)
    (h : (⟨3, ![a, b, c]⟩ : Shape).ShapeCasts ⟨2, ![a, n]⟩) (hn : n = b * c) (p : Fin a) (q : Fin b) (k : Fin c) (r : Fin n)
    (hr : r.val = q.val * c + k.val) : shapeCast ⟨2, ![a, n]⟩ x h (ix2 p r) = x (ix3 p q k) :=
  shapeCast_apply x h _ _ (by
    rw [Shape.rowMajor_val_three, Shape.rowMajor_val_two]
    show (p.val * b + q.val) * c + k.val = p.val * n + r.val
    rw [hr, hn, Nat.add_mul, Nat.mul_assoc, Nat.add_assoc])

end Cert.KernelIdeal.Pay

end
-- ==== Proof.LibKeepdims3.lean ====
/-
  General lemmas: a rank-3 array `[a, b, c]` reduced along its last axis with the axis kept, and the layouts that
  bring rank-2 and rank-1 operands to it, each read at an index given by coordinates.

  `jnp.mean(x, axis=-1, keepdims=True)` of `x : [a, b, c]` is a reduction `[a, b, c] → [a, b]`, the kept axis put back
  `[a, b] → [a, b, 1]`, and, where the result meets `x` again, a broadcast `[a, b, 1] → [a, b, c]`; a matrix `[b, c]`
  meets `x` through `[b, c] → [1, b, c] → [a, b, c]`, a vector `[c]` through `[c] → [1, 1, c] → [a, b, c]` (in a kernel from a
  `[1, c]` block). Read at `(p, q, k)` these are the sum over `(p, q, ·)`, the matrix at `(q, k)`, the vector at `k`.
  First the kernel's spellings (`shapeCast`, `broadcastTo`, the lane `multiReduction`), then a host program's
  (`broadcastInDim` with its `dims` a variable, of which only the images of the operand's axes are asked; `Host.reduceAdd`).
-/
import Idealize.ShloMosaic.Lib.ValueLayout
import Idealize.ShloMosaic.PureOps.Ideal.Laws

noncomputable section

open scoped BigOperators

namespace Cert.Lib.Keepdims3

open Idealize.ShloMosaic Idealize.ShloMosaic.ValueIdx

section Layout
variable {α : Type}

/-! ## A kernel's layouts -/

/-- A `[1, b, c]` array broadcast to `[a, b, c]` reads, at `(p, q, k)`, its one slab at `(q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- An `[a, b]` array cast to `[a, b, 1]` (a kept last axis) reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast to `[a, b, c]` reads, at `(p, q, k)`, its one row at `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## A host program's layouts -/

/-- A matrix `[b, c]` broadcast to `[1, b, c]` (its axes sent to the last two) reads, at `(u, q, k)`, the matrix at `(q, k)`. -/
theorem broadcastInDim_bc_1bc_apply {b c : ℕ} (dims : Fin 2 → Fin 3)
    (h : (⟨2, ![b, c]⟩ : Shape).BroadcastsInDim ⟨3, ![1, b, c]⟩ dims) (hd0 : dims 0 = 1) (hd1 : dims 1 = 2)
    (v : (⟨2, ![b, c]⟩ : Shape).Idx → α) (u : Fin 1) (q : Fin b) (k : Fin c) :
    broadcastInDim ⟨3, ![1, b, c]⟩ dims h v (ix3 u q k) = v (ix2 q k) := by
  refine broadcastInDim_apply dims h v (ix3 u q k) (ix2 q k) fun ax => ?_
  match ax with
  | ⟨0, _⟩ =>
    show q.val = if b = 1 then 0 else (ix3 u q k (dims 0)).val
    rw [hd0]
    show q.val = if b = 1 then 0 else q.val
    split
    · have := q.isLt; omega
    · rfl
  | ⟨1, _⟩ =>
    show k.val = if c = 1 then 0 else (ix3 u q k (dims 1)).val
    rw [hd1]
    show k.val = if c = 1 then 0 else k.val
    split
    · have := k.isLt; omega
    · rfl

/-- A `[1, b, c]` array broadcast to `[a, b, c]`, axis to axis, reads, at `(p, q, k)`, its one slab at `(q, k)`. -/
theorem broadcastInDim_1bc_abc_apply {a b c : ℕ} (dims : Fin 3 → Fin 3)
    (h : (⟨3, ![1, b, c]⟩ : Shape).BroadcastsInDim ⟨3, ![a, b, c]⟩ dims) (hd1 : dims 1 = 1) (hd2 : dims 2 = 2)
    (v : (⟨3, ![1, b, c]⟩ : Shape).Idx → α) (p : Fin a) (q : Fin b) (k : Fin c) :
    broadcastInDim ⟨3, ![a, b, c]⟩ dims h v (ix3 p q k) = v (ix3 (0 : Fin 1) q k) := by
  refine broadcastInDim_apply dims h v (ix3 p q k) (ix3 (0 : Fin 1) q k) fun ax => ?_
  match ax with
  | ⟨0, _⟩ => rfl
  | ⟨1, _⟩ =>
    show q.val = if b = 1 then 0 else (ix3 p q k (dims 1)).val
    rw [hd1]
    show q.val = if b = 1 then 0 else q.val
    split
    · have := q.isLt; omega
    · rfl
  | ⟨2, _⟩ =>
    show k.val = if c = 1 then 0 else (ix3 p q k (dims 2)).val
    rw [hd2]
    show k.val = if c = 1 then 0 else k.val
    split
    · have := k.isLt; omega
    · rfl

/-- An `[a, b]` array broadcast to `[a, b, 1]` (a kept last axis) reads, at `(p, q, u)`, the operand at `(p, q)`. -/
theorem broadcastInDim_ab_ab1_apply {a b : ℕ} (dims : Fin 2 → Fin 3)
    (h : (⟨2, ![a, b]⟩ : Shape).BroadcastsInDim ⟨3, ![a, b, 1]⟩ dims) (hd0 : dims 0 = 0) (hd1 : dims 1 = 1)
    (v : (⟨2, ![a, b]⟩ : Shape).Idx → α) (p : Fin a) (q : Fin b) (u : Fin 1) :
    broadcastInDim ⟨3, ![a, b, 1]⟩ dims h v (ix3 p q u) = v (ix2 p q) := by
  refine broadcastInDim_apply dims h v (ix3 p q u) (ix2 p q) fun ax => ?_
  match ax with
  | ⟨0, _⟩ =>
    show p.val = if a = 1 then 0 else (ix3 p q u (dims 0)).val
    rw [hd0]
    show p.val = if a = 1 then 0 else p.val
    split
    · have := p.isLt; omega
    · rfl
  | ⟨1, _⟩ =>
    show q.val = if b = 1 then 0 else (ix3 p q u (dims 1)).val
    rw [hd1]
    show q.val = if b = 1 then 0 else q.val
    split
    · have := q.isLt; omega
    · rfl

/-- An `[a, b, 1]` array broadcast to `[a, b, c]`, axis to axis, reads, at `(p, q, k)`, the operand at `(p, q, 0)`. -/
theorem broadcastInDim_ab1_abc_apply {a b c : ℕ} (dims : Fin 3 → Fin 3)
    (h : (⟨3, ![a, b, 1]⟩ : Shape).BroadcastsInDim ⟨3, ![a, b, c]⟩ dims) (hd0 : dims 0 = 0) (hd1 : dims 1 = 1)
    (v : (⟨3, ![a, b, 1]⟩ : Shape).Idx → α) (p : Fin a) (q : Fin b) (k : Fin c) :
    broadcastInDim ⟨3, ![a, b, c]⟩ dims h v (ix3 p q k) = v (ix3 p q (0 : Fin 1)) := by
  refine broadcastInDim_apply dims h v (ix3 p q k) (ix3 p q (0 : Fin 1)) fun ax => ?_
  match ax with
  | ⟨0, _⟩ =>
    show p.val = if a = 1 then 0 else (ix3 p q k (dims 0)).val
    rw [hd0]
    show p.val = if a = 1 then 0 else p.val
    split
    · have := p.isLt; omega
    · rfl
  | ⟨1, _⟩ =>
    show q.val = if b = 1 then 0 else (ix3 p q k (dims 1)).val
    rw [hd1]
    show q.val = if b = 1 then 0 else q.val
    split
    · have := q.isLt; omega
    · rfl
  | ⟨2, _⟩ => rfl

/-- A vector `[c]` broadcast to `[1, 1, c]` (its axis sent to the last) reads, at `(u, u', k)`, the vector at `k`. -/
theorem broadcastInDim_c_11c_apply {c : ℕ} (dims : Fin 1 → Fin 3)
    (h : (⟨1, ![c]⟩ : Shape).BroadcastsInDim ⟨3, ![1, 1, c]⟩ dims) (hd0 : dims 0 = 2)
    (v : (⟨1, ![c]⟩ : Shape).Idx → α) (u u' : Fin 1) (k : Fin c) :
    broadcastInDim ⟨3, ![1, 1, c]⟩ dims h v (ix3 u u' k) = v (ix1 k) := by
  refine broadcastInDim_apply dims h v (ix3 u u' k) (ix1 k) fun ax => ?_
  match ax with
  | ⟨0, _⟩ =>
    show k.val = if c = 1 then 0 else (ix3 u u' k (dims 0)).val
    rw [hd0]
    show k.val = if c = 1 then 0 else k.val
    split
    · have := k.isLt; omega
    · rfl

/-- A `[1, 1, c]` array broadcast to `[a, b, c]`, axis to axis, reads, at `(p, q, k)`, its one row at `k`. -/
theorem broadcastInDim_11c_abc_apply {a b c : ℕ} (dims : Fin 3 → Fin 3)
    (h : (⟨3, ![1, 1, c]⟩ : Shape).BroadcastsInDim ⟨3, ![a, b, c]⟩ dims) (hd2 : dims 2 = 2)
    (v : (⟨3, ![1, 1, c]⟩ : Shape).Idx → α) (p : Fin a) (q : Fin b) (k : Fin c) :
    broadcastInDim ⟨3, ![a, b, c]⟩ dims h v (ix3 p q k) = v (ix3 (0 : Fin 1) (0 : Fin 1) k) := by
  refine broadcastInDim_apply dims h v (ix3 p q k) (ix3 (0 : Fin 1) (0 : Fin 1) k) fun ax => ?_
  match ax with
  | ⟨0, _⟩ => rfl
  | ⟨1, _⟩ => rfl
  | ⟨2, _⟩ =>
    show k.val = if c = 1 then 0 else (ix3 p q k (dims 2)).val
    rw [hd2]
    show k.val = if c = 1 then 0 else k.val
    split
    · have := k.isLt; omega
    · rfl

end Layout

/-! ## The two sums along the last axis, at the ideal values -/

/-- A kernel's lane reduction by addition of an `[a, b, c]` array along its last axis, read at `(p, q)`: the sum over
    `(p, q, ·)`. The accumulator's word is the neutral one, so it contributes nothing. -/
theorem multiReduction_add_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun ax => Fin.ext ?_)
  match ax with
  | ⟨0, _⟩ => rfl
  | ⟨1, _⟩ => rfl
  | ⟨2, _⟩ => rfl

/-- The host's sum of an `[a, b, c]` array along its last axis, read at `(p, q)`: the initial value plus the sum over
    `(p, q, ·)`. -/
theorem hostReduceAdd_last_apply {a b c : ℕ} {φ : FTy} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduceAdd x init h' hu (ix2 p q) = init (Shape.Idx.first hu) + ∑ k : Fin c, x (ix3 p q k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl
  | ⟨2, _⟩ => rfl

end Cert.Lib.Keepdims3

end
-- ==== Proof.LibLeadAxis.lean ====
/-
  A rank-3 array `[a, b, c]` handled along its LEADING axis, read by coordinates.

  * `multiReduction_add_lead_apply`: a kernel's sum over the leading axis (`jnp.sum(x, axis=0)` of an `[a, b, c]` value), at
    the ideal values, is at `(p, q)` the sum over `k` of the entries `(k, p, q)`.
  * `broadcastTo_1bc_abc_apply`: a `[1, b, c]` value broadcast along a new leading extent `a` (`v[None, :, :]` against an
    `[a, b, c]` operand) reads at `(k, p, q)` its one slice at `(p, q)`.
  * `ld_slab_apply`: of an `[N, 1, a, b, c]` buffer, the slab at leading position `n` — loaded through the unit-stride
    rectangle of sizes `[1, 1, a, b, c]` at offsets `[n, 0, 0, 0, 0]` and cast to `[a, b, c]` (`x_ref[n]` of a block whose
    second axis is squeezed) — reads at `(k, p, q)` the buffer at `(n, 0, k, p, q)`.
-/
import Idealize.ShloMosaic.Lib.Pipeline.Value
import Idealize.ShloMosaic.Lib.ValueLayout
import Idealize.ShloMosaic.PureOps.Ideal.Laws

noncomputable section

open scoped BigOperators

namespace Cert.LeadAxis

open Idealize.ShloMosaic Idealize.ShloMosaic.ValueIdx

/-- The sum over the leading axis of an `[a, b, c]` value, at `(p, q)`: the sum over `k` of the entries `(k, p, q)`. -/
theorem multiReduction_add_lead_apply {a b c : ℕ} {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (p : Fin b) (q : Fin c) :
    multiReduction .add [0] ⟨2, ![b, c]⟩ src acc h hφ hacc (ix2 p q) = ∑ k : Fin a, src (ix3 k p q) := by
  refine (Ideal.multiReduction_add_single src acc h hφ hacc (ix2 p q)).trans ?_
  refine Finset.sum_congr rfl fun k _ => congrArg src ?_
  funext d
  apply Fin.ext
  match d with
  | ⟨0, _⟩ => rfl
  | ⟨1, _⟩ => rfl
  | ⟨2, _⟩ => rfl

/-- A `[1, b, c]` value broadcast to `[a, b, c]` reads, at `(k, p, q)`, its one slice at `(p, q)`. -/
theorem broadcastTo_1bc_abc_apply {α : Type} {a b c : ℕ} (v : (⟨3, ![1, b, c]⟩ : Shape).Idx → α)
    (h : (⟨3, ![1, b, c]⟩ : Shape).Broadcasts ⟨3, ![a, b, c]⟩) (k : Fin a) (p : Fin b) (q : Fin c) :
    broadcastTo ⟨3, ![a, b, c]⟩ v h (ix3 k p q) = v (ix3 (0 : Fin 1) p q) := by
  refine broadcastTo_apply v h (ix3 k p q) (ix3 (0 : Fin 1) p q) fun ax => ?_
  match ax with
  | ⟨0, _⟩ => rfl
  | ⟨1, _⟩ =>
    show p.val = if b = 1 then 0 else p.val
    split
    · have := p.isLt; omega
    · rfl
  | ⟨2, _⟩ =>
    show q.val = if c = 1 then 0 else q.val
    split
    · have := q.isLt; omega
    · rfl

/-- Slab `n` of an `[N, 1, a, b, c]` buffer, loaded through the rectangle at offsets `[n, 0, 0, 0, 0]` and cast to
    `[a, b, c]`, reads at `(k, p, q)` the buffer at `(n, 0, k, p, q)`. -/
theorem ld_slab_apply {α : Type} {N a b c : ℕ} (X : (⟨5, ![N, 1, a, b, c]⟩ : Shape).Idx → α) (n : ℕ) (hn : n < N)
    (inb : ∀ d, (![n, 0, 0, 0, 0] : Fin 5 → ℕ) d + (⟨5, ![1, 1, a, b, c]⟩ : Shape).size d ≤ (⟨5, ![N, 1, a, b, c]⟩ : Shape).size d)
    (h : (⟨5, ![1, 1, a, b, c]⟩ : Shape).ShapeCasts ⟨3, ![a, b, c]⟩) (k : Fin a) (p : Fin b) (q : Fin c) :
    shapeCast ⟨3, ![a, b, c]⟩
        (fun x => X ((Rect.unit (s := ⟨5, ![N, 1, a, b, c]⟩) ![n, 0, 0, 0, 0] (⟨5, ![1, 1, a, b, c]⟩ : Shape).size inb).idx x)) h (ix3 k p q)
      = X (ix5 (⟨n, hn⟩ : Fin N) (0 : Fin 1) k p q) := by
  refine (shapeCast_apply _ h (ix3 k p q) (ix5 (0 : Fin 1) (0 : Fin 1) k p q) ?_).trans ?_
  · rw [Shape.rowMajor_val_five, Shape.rowMajor_val_three]
    show (((0 * 1 + 0) * a + k.val) * b + p.val) * c + q.val = (k.val * b + p.val) * c + q.val
    simp only [Nat.zero_mul, Nat.zero_add]
  · refine congrArg X ?_
    funext d
    apply Fin.ext
    match d with
    | ⟨0, _⟩ => show n + 1 * 0 = n; omega
    | ⟨1, _⟩ => show 0 + 1 * 0 = 0; omega
    | ⟨2, _⟩ => show 0 + 1 * k.val = k.val; omega
    | ⟨3, _⟩ => show 0 + 1 * p.val = p.val; omega
    | ⟨4, _⟩ => show 0 + 1 * q.val = q.val; omega

end Cert.LeadAxis

end
-- ==== Proof.LibMid3.lean ====
/-
  General lemmas: the layouts that bring a vector `[b]` and a matrix `[a, c]` to a rank-3 array `[a, b, c]` whose MIDDLE
  axis is the vector's, each read at an index given by coordinates.

  An expression `x[:, None, :] * w[None, :, None]` of `x : [a, c]` and `w : [b]` meets at `[a, b, c]`: the matrix goes
  `[a, c] → [a, 1, c] → [a, b, c]` (a kept middle axis, then a broadcast along it), the vector
  `[b] → [1, b, 1] → [a, b, c]`. Read at `(p, q, k)` these are the matrix at `(p, k)` and the vector at `q`. With them the
  two casts that undo a kept axis: `[a, 1, c] → [a, c]` and `[b, 1] → [b]`.
-/
import Idealize.ShloMosaic.Lib.ValueIdx
import Idealize.ShloMosaic.Lib.ValueLayout
import Idealize.ShloMosaic.Lib.Pipeline.Value

noncomputable section

namespace Cert.LibMid3

open Idealize.ShloMosaic Idealize.ShloMosaic.ValueIdx

variable {α : Type}

/-- A `[b]` vector cast to `[1, b, 1]` reads, at `(u, q, u')`, the vector at `q`. -/
theorem shapeCast_b_1b1_apply {b : ℕ} (x : (⟨1, ![b]⟩ : Shape).Idx → α) (h : (⟨1, ![b]⟩ : Shape).ShapeCasts ⟨3, ![1, b, 1]⟩)
    (u : Fin 1) (q : Fin b) (u' : Fin 1) : shapeCast ⟨3, ![1, b, 1]⟩ x h (ix3 u q u') = x (ix1 q) :=
  shapeCast_apply x h _ _ (by
    have hu : u.val = 0 := by omega
    have hu' : u'.val = 0 := by omega
    rw [Shape.rowMajor_val_three, Shape.rowMajor_val_one]
    show q.val = (u.val * b + q.val) * 1 + u'.val
    rw [hu, hu', Nat.zero_mul, Nat.zero_add, Nat.mul_one, Nat.add_zero])

/-- A `[1, b, 1]` array broadcast to `[a, b, c]` reads, at `(p, q, k)`, its one line at `q`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (q : Fin b) (k : Fin c) :
    broadcastTo ⟨3, ![a, b, c]⟩ v h (ix3 p q k) = v (ix3 (0 : Fin 1) q (0 : Fin 1)) := by
  refine broadcastTo_apply v h (ix3 p q k) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-- An `[a, c]` matrix cast to `[a, 1, c]` (a kept middle axis) reads, at `(p, u, k)`, the matrix at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- An `[a, 1, c]` array cast to `[a, c]` (the unit middle axis dropped) reads, at `(p, k)`, the array at `(p, 0, k)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

/-- An `[a, 1, c]` array broadcast to `[a, b, c]` reads, at `(p, q, k)`, the array at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[b, 1]` column cast to a `[b]` vector reads, at `q`, the column at `(q, 0)`. -/
theorem shapeCast_b1_b_apply {b : ℕ} (x : (⟨2, ![b, 1]⟩ : Shape).Idx → α) (h : (⟨2, ![b, 1]⟩ : Shape).ShapeCasts ⟨1, ![b]⟩)
    (q : Fin b) : shapeCast ⟨1, ![b]⟩ x h (ix1 q) = x (ix2 q (0 : Fin 1)) :=
  shapeCast_apply x h _ _ (by
    rw [Shape.rowMajor_val_two, Shape.rowMajor_val_one]
    show q.val * 1 + 0 = q.val
    rw [Nat.mul_one, Nat.add_zero])

/-- The vector's whole road: `[b] → [1, b, 1] → [a, b, c]` reads, at `(p, q, k)`, the vector at `q`. -/
theorem broadcastTo_shapeCast_b_abc_apply {a b c : ℕ} (x : (⟨1, ![b]⟩ : Shape).Idx → α)
    (h₁ : (⟨1, ![b]⟩ : Shape).ShapeCasts ⟨3, ![1, b, 1]⟩) (h₂ : (⟨3, ![1, b, 1]⟩ : Shape).Broadcasts ⟨3, ![a, b, c]⟩)
    (p : Fin a) (q : Fin b) (k : Fin c) :
    broadcastTo ⟨3, ![a, b, c]⟩ (shapeCast ⟨3, ![1, b, 1]⟩ x h₁) h₂ (ix3 p q k) = x (ix1 q) :=
  (broadcastTo_1b1_abc_apply _ h₂ p q k).trans (shapeCast_b_1b1_apply x h₁ 0 q 0)

/-- The matrix's whole road: `[a, c] → [a, 1, c] → [a, b, c]` reads, at `(p, q, k)`, the matrix at `(p, k)`. -/
theorem broadcastTo_shapeCast_ac_abc_apply {a b c : ℕ} (x : (⟨2, ![a, c]⟩ : Shape).Idx → α)
    (h₁ : (⟨2, ![a, c]⟩ : Shape).ShapeCasts ⟨3, ![a, 1, c]⟩) (h₂ : (⟨3, ![a, 1, c]⟩ : Shape).Broadcasts ⟨3, ![a, b, c]⟩)
    (p : Fin a) (q : Fin b) (k : Fin c) :
    broadcastTo ⟨3, ![a, b, c]⟩ (shapeCast ⟨3, ![a, 1, c]⟩ x h₁) h₂ (ix3 p q k) = x (ix2 p k) :=
  (broadcastTo_a1c_abc_apply _ h₂ p q k).trans (shapeCast_ac_a1c_apply x h₁ p 0 k)

end Cert.LibMid3

end
-- ==== Proof.KernNorm.lean ====
/-
  The kernel's group normalisation and QKV projection, read at an index over the extended reals.

  One batch element X is a 1024 × 512 matrix; the kernel views it as [1024, 16, 32] (column c = 32·g + j is lane j of
  group g). A statistic of a group is taken in two steps: the lane sum over j, then the sum over the 1024 positions,
  the result times 2⁻¹⁵ — exactly the nesting Σ_p Σ_j of the specification. The mean is subtracted, the same
  statistic of the squared deviations plus ε goes through rsqrt, the product is viewed as [1024, 512] again, scaled
  and shifted per channel, and multiplied by the [512, 1536] weight into a zero accumulator. Format changes are the
  identity on extended reals. Each step below reads one of these stages at an index given by coordinates.
-/
import proofs.«170573_j2095944040541_2_alg».proof.Proof.Gen.KernelIdeal.Skeleton
import proofs.«170573_j2095944040541_2_alg».proof.Proof.Spec
import proofs.«170573_j2095944040541_2_alg».proof.Proof.KernNormLayout
import proofs.«170573_j2095944040541_2_alg».proof.Proof.LibKeepdims3
import proofs.«170573_j2095944040541_2_alg».proof.Proof.LibLeadAxis
import proofs.«170573_j2095944040541_2_alg».proof.Proof.LibMid3
import proofs.«170573_j2095944040541_2_alg».proof.Proof.LibMatmulNN

noncomputable section

namespace Cert.KernelIdeal.Pay

open Idealize.ShloMosaic Idealize.ShloMosaic.ValueIdx Cert.KernelIdeal Cert.KernelIdeal.Gen
open Cert.AttnSpec

/-! ## The stages of the computation, named -/

/-- Per group, the sum of a [1024, 16, 32] array over lanes and then positions, times 2⁻¹⁵, kept as [1, 16, 1]. -/
def gstat (v : FVec Ideal S1024x16x32 .f32) : FVec Ideal S1x16x1 .f32 :=
  mulf
    (shapeCast S1x16x1
      (multiReduction .add [0] S16x1
        (shapeCast S1024x16x1
          (multiReduction .add [2] S1024x16 v 0x00000000#32 reduces_S1024x16x32_S1024x16 (.inl rfl) rfl)
          shapeCasts_S1024x16_S1024x16x1)
        0x00000000#32 reduces_S1024x16x1_S16x1 (.inl rfl) rfl)
      shapeCasts_S16x1_S1x16x1)
    (broadcast S1x16x1 (Scalar.ofBits .f32 0x38000000#32))

/-- The input viewed as [1024, 16, 32]. -/
def split (x0 : Vec Ideal S1x1024x512 .f32) : FVec Ideal S1024x16x32 .f32 :=
  shapeCast S1024x16x32 (k0_pay2 x0) shapeCasts_S1024x512_S1024x16x32

/-- The deviations from the group means. -/
def cent (x0 : Vec Ideal S1x1024x512 .f32) : FVec Ideal S1024x16x32 .f32 :=
  subf (split x0) (broadcastTo S1024x16x32 (gstat (split x0)) broadcasts_S1x16x1_S1024x16x32)

/-- The reciprocal standard deviations, one per group. -/
def rs (x0 : Vec Ideal S1x1024x512 .f32) : FVec Ideal S1x16x1 .f32 :=
  rsqrt (addf (gstat (mulf (cent x0) (cent x0))) (broadcast S1x16x1 (Scalar.ofBits .f32 0x3727C5AC#32)))

/-- The normalised, scaled and shifted activations, as [1024, 512]. -/
def normed (x0 : Vec Ideal S1x1024x512 .f32) (x1 x2 : Vec Ideal S512 .f32) : FVec Ideal S1024x512 .f32 :=
  addf
    (mulf
      (shapeCast S1024x512 (mulf (cent x0) (broadcastTo S1024x16x32 (rs x0) broadcasts_S1x16x1_S1024x16x32))
        shapeCasts_S1024x16x32_S1024x512)
      (broadcastTo S1024x512 (shapeCast S1x512 x1 shapeCasts_S512_S1x512) broadcasts_S1x512_S1024x512))
    (broadcastTo S1024x512 (shapeCast S1x512 x2 shapeCasts_S512_S1x512) broadcasts_S1x512_S1024x512)

/-- The payload is the product of the normalised activations with the weight, through identity format changes. -/
theorem pay3_eq (x0 : Vec Ideal S1x1024x512 .f32) (x1 x2 : Vec Ideal S512 .f32) (x3 : Vec Ideal S512x1536 .bf16) :
    k0_pay3 (F := Ideal) x0 x1 x2 x3
      = shapeCast S1024x1536
          (truncf .bf16
            (matmul dot_S1024x512_S512x1536_S1024x1536_1_0_0_1_n_n none
              (truncf .bf16 (normed x0 x1 x2) bitsLt_bf16_f32)
              (shapeCast S512x1536 x3 shapeCasts_S512x1536_S512x1536 : FVec Ideal S512x1536 .bf16)
              (constant S1024x1536 .f32 0x00000000#32))
            bitsLt_bf16_f32)
          shapeCasts_S1024x1536_S1024x1536 := rfl

/-! ## The stages read at an index -/

section
variable (x0 : Vec Ideal S1x1024x512 .f32)

/-- The group statistic at group g: (Σ_p Σ_j v (p, g, j)) · 2⁻¹⁵. -/
theorem gstat_apply (v : FVec Ideal S1024x16x32 .f32) (g : Fin 16) :
    gstat v (ix3 (0 : Fin 1) g (0 : Fin 1)) = (∑ p : Fin 1024, ∑ j : Fin 32, v (ix3 p g j)) * invN := by
  unfold gstat
  refine congrArg (· * invN) ?_
  refine (shapeCast_ab_1ab_apply _ _ (0 : Fin 1) g (0 : Fin 1)).trans ?_
  refine (Cert.LeadAxis.multiReduction_add_lead_apply _ _ _ _ _ g (0 : Fin 1)).trans ?_
  refine Finset.sum_congr rfl fun p _ => ?_
  refine (Cert.Lib.Keepdims3.shapeCast_ab_ab1_apply _ _ p g (0 : Fin 1)).trans ?_
  exact Cert.Lib.Keepdims3.multiReduction_add_last_apply _ _ _ _ _ p g

/-- Lane j of group g at position p is the input's column 32·g + j. -/
theorem split_apply (p : Fin 1024) (g : Fin 16) (j : Fin 32) :
    split x0 (ix3 p g j) = x0 (ix3 (0 : Fin 1) p (ch g j)) := by
  unfold split k0_pay2
  refine (shapeCast_split_apply _ _ rfl p g j (ch g j) rfl).trans ?_
  exact shapeCast_1ab_ab_apply x0 _ p (ch g j)

/-- The kernel's group mean is the specification's. -/
theorem mean_apply (g : Fin 16) :
    gstat (split x0) (ix3 (0 : Fin 1) g (0 : Fin 1)) = mean (fun p c => x0 (ix3 (0 : Fin 1) p c)) g := by
  refine (gstat_apply _ g).trans ?_
  exact congrArg (· * invN) (Finset.sum_congr rfl fun p _ => Finset.sum_congr rfl fun j _ => split_apply x0 p g j)

/-- The deviation at (p, g, j) is the specification's at column 32·g + j. -/
theorem cent_apply (p : Fin 1024) (g : Fin 16) (j : Fin 32) :
    cent x0 (ix3 p g j) = dif (fun p c => x0 (ix3 (0 : Fin 1) p c)) p (ch g j) := by
  unfold cent
  refine (congrArg₂ (· - ·) (split_apply x0 p g j)
    ((Cert.LibMid3.broadcastTo_1b1_abc_apply _ _ p g j).trans (mean_apply x0 g))).trans ?_
  unfold dif
  rw [grp_ch]

/-- The kernel's group variance is the specification's. -/
theorem var_apply (g : Fin 16) :
    gstat (mulf (cent x0) (cent x0)) (ix3 (0 : Fin 1) g (0 : Fin 1)) = var (fun p c => x0 (ix3 (0 : Fin 1) p c)) g := by
  refine (gstat_apply _ g).trans ?_
  refine congrArg (· * invN) (Finset.sum_congr rfl fun p _ => Finset.sum_congr rfl fun j _ => ?_)
  exact congrArg₂ (· * ·) (cent_apply x0 p g j) (cent_apply x0 p g j)

/-- The kernel's reciprocal standard deviation is the specification's. -/
theorem rs_apply (g : Fin 16) :
    rs x0 (ix3 (0 : Fin 1) g (0 : Fin 1)) = rstd (fun p c => x0 (ix3 (0 : Fin 1) p c)) g := by
  unfold rs
  exact congrArg (fun t => Ideal.rsqrt (t + eps)) (var_apply x0 g)

/-- Channel c is lane c mod 32 of group c div 32. -/
theorem ch_grp (c : Fin 512) : ch (grp c) ⟨c.val % 32, Nat.mod_lt _ (by omega)⟩ = c :=
  Fin.ext (Nat.div_add_mod' c.val 32)

/-- The normalised activations at (p, c) are the specification's. -/
theorem normed_apply (x1 x2 : Vec Ideal S512 .f32) (p : Fin 1024) (c : Fin 512) :
    normed x0 x1 x2 (ix2 p c)
      = xn (fun p c => x0 (ix3 (0 : Fin 1) p c)) (fun c => x1 (ix1 c)) (fun c => x2 (ix1 c)) p c := by
  unfold normed
  have hm := shapeCast_merge_apply (mulf (cent x0) (broadcastTo S1024x16x32 (rs x0) broadcasts_S1x16x1_S1024x16x32))
    shapeCasts_S1024x16x32_S1024x512 rfl p (grp c) ⟨c.val % 32, Nat.mod_lt _ (by omega)⟩ c (Nat.div_add_mod' c.val 32).symm
  have hl : mulf (cent x0) (broadcastTo S1024x16x32 (rs x0) broadcasts_S1x16x1_S1024x16x32)
      (ix3 p (grp c) ⟨c.val % 32, Nat.mod_lt _ (by omega)⟩)
        = dif (fun p c => x0 (ix3 (0 : Fin 1) p c)) p c * rstd (fun p c => x0 (ix3 (0 : Fin 1) p c)) (grp c) := by
    refine (congrArg₂ (· * ·) (cent_apply x0 p (grp c) _)
      ((Cert.LibMid3.broadcastTo_1b1_abc_apply _ _ p (grp c) _).trans (rs_apply x0 (grp c)))).trans ?_
    rw [ch_grp]
  have h1 := (broadcastTo_1b_ab_apply _ broadcasts_S1x512_S1024x512 p c).trans
    (shapeCast_a_1a_apply x1 shapeCasts_S512_S1x512 (0 : Fin 1) c)
  have h2 := (broadcastTo_1b_ab_apply _ broadcasts_S1x512_S1024x512 p c).trans
    (shapeCast_a_1a_apply x2 shapeCasts_S512_S1x512 (0 : Fin 1) c)
  exact congrArg₂ (· + ·) (congrArg₂ (· * ·) (hm.trans hl) h1) h2

end

/-- The QKV projection as the kernel computes it, read at (p, d), is the specification's. -/
theorem qkv_apply (x0 : Vec Ideal S1x1024x512 .f32) (x1 x2 : Vec Ideal S512 .f32) (x3 : Vec Ideal S512x1536 .bf16)
    (p : Fin 1024) (d : Fin 1536) :
    k0_pay3 (F := Ideal) x0 x1 x2 x3 (ix2 p d)
      = Cert.AttnSpec.qkv (fun p c => x0 (ix3 (0 : Fin 1) p c)) (fun c => x1 (ix1 c)) (fun c => x2 (ix1 c))
          (fun c d => x3 (ix2 c d)) p d := by
  rw [pay3_eq, shapeCast_self]
  refine (Cert.LibMatmulNN.matmul_nn_apply dot_S1024x512_S512x1536_S1024x1536_1_0_0_1_n_n rfl rfl rfl rfl rfl rfl none
    _ _ p d).trans ?_
  unfold qkv
  refine Finset.sum_congr rfl fun c _ => ?_
  refine congrArg₂ (· * ·) (normed_apply x0 x1 x2 p c) ?_
  rw [shapeCast_self]

end Cert.KernelIdeal.Pay

end
-- ==== Proof.KernBlockValue.lean ====
/-
  The block the body stores, read at an index, is the specification's `block` of the six input blocks.

  The first scratch buffer holds the whole projection T (one store); a head's three column windows read T at the
  head's query, key and value columns. Each of the eight column stores into the second scratch buffer is a head's
  payload, i.e. lane c of head h of the attention output at columns 64h + c: the eight stores are blocks of ONE
  function of the buffer's index, and they tile the buffer, so the buffer read back whole is the attention output.
  The output projection, bias and residual then give `proj`, and T is the specification's `qkv`.
-/
import proofs.«170573_j2095944040541_2_alg».proof.Proof.KernBlock
import proofs.«170573_j2095944040541_2_alg».proof.Proof.Spec
import proofs.«170573_j2095944040541_2_alg».proof.Proof.KernHead
import proofs.«170573_j2095944040541_2_alg».proof.Proof.KernOut
import proofs.«170573_j2095944040541_2_alg».proof.Proof.KernNorm
import Idealize.ShloMosaic.Lib.ValueIdx
import Idealize.ShloMosaic.Lib.Pipeline.Value

set_option maxRecDepth 16384

noncomputable section

namespace Cert.KernelIdeal.Blk

open Idealize.ShloMosaic Idealize.ShloMosaic.TcCoe Idealize.ShloMosaic.Tactic
open Idealize.SL Idealize.SL.Sem
open Cert.KernelIdeal Cert.KernelIdeal.Gen Idealize.ShloMosaic.ValueIdx

/-- Sixty-four columns of the projection read back from the first scratch buffer: the buffer holds the one whole store
    `T`, and the window at column offset `off` reads `T` at columns `off … off + 63`. -/
theorem col_read (v8 : View sig .tc .vmem S1024x1536 .bf16) (T : FVec Ideal S1024x1536 .bf16) (off : Nat)
    (inb : ∀ a, (![0, off] : Fin 2 → Nat) a + S1024x64.size a ≤ S1024x1536.size a) (p : Fin 1024) (c : Fin 64)
    (e : Fin 1536) (he : e.val = off + c.val) :
    (v8.readCov [(⟨Rect.unit (s := S1024x1536) ![0, 0] S1024x1536.size inb_S1024x1536_S1024x1536_0_0, T⟩ : View.Piece (Elt Ideal) S1024x1536 .bf16)]
      (Rect.unit (s := S1024x1536) ![0, off] S1024x64.size inb).toLoadRect) (ix2 p c) = T (ix2 p e) := by
  rw [View.readCov_eq_canon']
  show View.canon _ _ = _
  rw [View.canon_unit_zero hz2]
  congr 1
  funext a
  apply Fin.ext
  match a with
  | ⟨0, _⟩ => show 0 + 1 * p.val = p.val; omega
  | ⟨1, _⟩ => show off + 1 * c.val = e.val; omega

/-- The attention output as a function of the second scratch buffer's index. -/
def attOf (T : FVec Ideal S1024x1536 .bf16) : S1024x512.Idx → EReal :=
  fun y => Cert.AttnSpec.att (fun p e => T (ix2 p e)) (y 0) (y 1)

/-- One column store agrees with `attOf`: a head's payload of the head's query, key and value columns, stored at
    columns 64h … 64h + 63, is lane c of head h of the attention output. -/
theorem piece_ok (T : FVec Ideal S1024x1536 .bf16) (h : Fin 8) (off : Nat) (hoff : off = 64 * h.val)
    (inb9 : ∀ a, (![0, off] : Fin 2 → Nat) a + S1024x64.size a ≤ S1024x512.size a)
    (pay q k v : Vec Ideal S1024x64 .bf16)
    (hpay : ∀ p c, pay (ix2 p c) = Pay.headOf q k v p c)
    (hq : ∀ p c, q (ix2 p c) = T (ix2 p (Cert.AttnSpec.hcol h 0 c)))
    (hk : ∀ p c, k (ix2 p c) = T (ix2 p (Cert.AttnSpec.hcol h 1 c)))
    (hv : ∀ p c, v (ix2 p c) = T (ix2 p (Cert.AttnSpec.hcol h 2 c)))
    (x : (Rect.unit (s := S1024x512) ![0, off] S1024x64.size inb9).shape.Idx) :
    pay x = attOf T ((Rect.unit (s := S1024x512) ![0, off] S1024x64.size inb9).emb x) := by
  obtain ⟨p, c, rfl⟩ : ∃ (p : Fin 1024) (c : Fin 64), x = ix2 p c := ⟨x 0, x 1, eq_ix2 x⟩
  have hh : h.val < 8 := h.isLt
  have hc : c.val < 64 := c.isLt
  have e0 : (Rect.unit (s := S1024x512) ![0, off] S1024x64.size inb9).emb (ix2 p c) = (ix2 p (⟨off + c.val, by omega⟩ : Fin 512) : S1024x512.Idx) := by
    funext a
    apply Fin.ext
    match a with
    | ⟨0, _⟩ => show 0 + 1 * p.val = p.val; omega
    | ⟨1, _⟩ => show off + 1 * c.val = off + c.val; omega
  rw [hpay, e0]
  have e1 : Cert.AttnSpec.hd (⟨off + c.val, by omega⟩ : Fin 512) = h := Fin.ext (by simp only [Cert.AttnSpec.hd]; omega)
  have e2 : Cert.AttnSpec.lane (⟨off + c.val, by omega⟩ : Fin 512) = c := Fin.ext (by simp only [Cert.AttnSpec.lane]; omega)
  show Pay.headOf q k v p c = Cert.AttnSpec.att (fun p e => T (ix2 p e)) p (⟨off + c.val, by omega⟩ : Fin 512)
  unfold Pay.headOf Cert.AttnSpec.att
  rw [e1, e2]
  congr 1
  · funext p' c'; exact hq p' c'
  · funext p' c'; exact hk p' c'
  · funext p' c'; exact hv p' c'

/-- Column c of the second scratch buffer lies in the column window starting at `off` when off ≤ c < off + 64. -/
theorem mem_col (off : Nat) (inb9 : ∀ a, (![0, off] : Fin 2 → Nat) a + S1024x64.size a ≤ S1024x512.size a)
    (p : Fin 1024) (c : Fin 512) (h1 : off ≤ c.val) (h2 : c.val < off + 64) :
    (ix2 p c : S1024x512.Idx) ∈ (Rect.unit (s := S1024x512) ![0, off] S1024x64.size inb9).set := by
  rw [Rect.mem_set_unit]
  intro a
  match a with
  | ⟨0, _⟩ => exact ⟨Nat.zero_le _, by show p.val < 0 + 1024; have := p.isLt; omega⟩
  | ⟨1, _⟩ => exact ⟨h1, h2⟩

/-- The second scratch buffer, read back whole after the eight column stores, is the attention output of T. -/
theorem headsRead_apply (v8 : View sig .tc .vmem S1024x1536 .bf16) (v9 : View sig .tc .vmem S1024x512 .bf16)
    (T : FVec Ideal S1024x1536 .bf16) (p : Fin 1024) (c : Fin 512) :
    headsRead v8 v9 T (ix2 p c) = Cert.AttnSpec.att (fun p e => T (ix2 p e)) p c := by
  unfold headsRead
  rw [View.readCov_eq_canon']
  have eidx : (Rect.unit (s := S1024x512) ![0, 0] S1024x512.size inb_S1024x512_S1024x512_0_0).toLoadRect.idx (ix2 p c)
      = (ix2 p c : S1024x512.Idx) := by
    funext a
    apply Fin.ext
    match a with
    | ⟨0, _⟩ => show 0 + 1 * p.val = p.val; omega
    | ⟨1, _⟩ => show 0 + 1 * c.val = c.val; omega
  show View.canon (headPieces v8 T) _ = _
  rw [eidx]
  refine (View.canon_apply_of_pieces (attOf T) (headPieces v8 T) ?hL (ix2 p c) ?hcov).trans rfl
  case hcov =>
    have hc : c.val < 512 := c.isLt
    by_cases h0 : 448 ≤ c.val
    · exact ⟨_, List.Mem.head _, mem_col 448 inb_S1024x512_S1024x64_0_448 p c h0 (by omega)⟩
    by_cases h1 : 384 ≤ c.val
    · exact ⟨_, List.Mem.tail _ (List.Mem.head _), mem_col 384 inb_S1024x512_S1024x64_0_384 p c h1 (by omega)⟩
    by_cases h2 : 320 ≤ c.val
    · exact ⟨_, List.Mem.tail _ (List.Mem.tail _ (List.Mem.head _)), mem_col 320 inb_S1024x512_S1024x64_0_320 p c h2 (by omega)⟩
    by_cases h3 : 256 ≤ c.val
    · exact ⟨_, List.Mem.tail _ (List.Mem.tail _ (List.Mem.tail _ (List.Mem.head _))), mem_col 256 inb_S1024x512_S1024x64_0_256 p c h3 (by omega)⟩
    by_cases h4 : 192 ≤ c.val
    · exact ⟨_, List.Mem.tail _ (List.Mem.tail _ (List.Mem.tail _ (List.Mem.tail _ (List.Mem.head _)))), mem_col 192 inb_S1024x512_S1024x64_0_192 p c h4 (by omega)⟩
    by_cases h5 : 128 ≤ c.val
    · exact ⟨_, List.Mem.tail _ (List.Mem.tail _ (List.Mem.tail _ (List.Mem.tail _ (List.Mem.tail _ (List.Mem.head _))))), mem_col 128 inb_S1024x512_S1024x64_0_128 p c h5 (by omega)⟩
    by_cases h6 : 64 ≤ c.val
    · exact ⟨_, List.Mem.tail _ (List.Mem.tail _ (List.Mem.tail _ (List.Mem.tail _ (List.Mem.tail _ (List.Mem.tail _ (List.Mem.head _)))))), mem_col 64 inb_S1024x512_S1024x64_0_64 p c h6 (by omega)⟩
    exact ⟨_, List.Mem.tail _ (List.Mem.tail _ (List.Mem.tail _ (List.Mem.tail _ (List.Mem.tail _ (List.Mem.tail _ (List.Mem.tail _ (List.Mem.head _))))))), mem_col 0 inb_S1024x512_S1024x64_0_0 p c (Nat.zero_le _) (by omega)⟩
  case hL =>
    intro pc hpc x
    simp only [headPieces, List.mem_cons, List.mem_nil_iff, or_false] at hpc
    rcases hpc with rfl | rfl | rfl | rfl | rfl | rfl | rfl | rfl
    · exact piece_ok T 7 448 rfl inb_S1024x512_S1024x64_0_448 _ _ _ _ (Pay.head7 _ _ _)
        (fun p c => col_read v8 T 1344 inb_S1024x1536_S1024x64_0_1344 p c (Cert.AttnSpec.hcol 7 0 c) rfl)
        (fun p c => col_read v8 T 1408 inb_S1024x1536_S1024x64_0_1408 p c (Cert.AttnSpec.hcol 7 1 c) rfl)
        (fun p c => col_read v8 T 1472 inb_S1024x1536_S1024x64_0_1472 p c (Cert.AttnSpec.hcol 7 2 c) rfl) x
    · exact piece_ok T 6 384 rfl inb_S1024x512_S1024x64_0_384 _ _ _ _ (Pay.head6 _ _ _)
        (fun p c => col_read v8 T 1152 inb_S1024x1536_S1024x64_0_1152 p c (Cert.AttnSpec.hcol 6 0 c) rfl)
        (fun p c => col_read v8 T 1216 inb_S1024x1536_S1024x64_0_1216 p c (Cert.AttnSpec.hcol 6 1 c) rfl)
        (fun p c => col_read v8 T 1280 inb_S1024x1536_S1024x64_0_1280 p c (Cert.AttnSpec.hcol 6 2 c) rfl) x
    · exact piece_ok T 5 320 rfl inb_S1024x512_S1024x64_0_320 _ _ _ _ (Pay.head5 _ _ _)
        (fun p c => col_read v8 T 960 inb_S1024x1536_S1024x64_0_960 p c (Cert.AttnSpec.hcol 5 0 c) rfl)
        (fun p c => col_read v8 T 1024 inb_S1024x1536_S1024x64_0_1024 p c (Cert.AttnSpec.hcol 5 1 c) rfl)
        (fun p c => col_read v8 T 1088 inb_S1024x1536_S1024x64_0_1088 p c (Cert.AttnSpec.hcol 5 2 c) rfl) x
    · exact piece_ok T 4 256 rfl inb_S1024x512_S1024x64_0_256 _ _ _ _ (Pay.head4 _ _ _)
        (fun p c => col_read v8 T 768 inb_S1024x1536_S1024x64_0_768 p c (Cert.AttnSpec.hcol 4 0 c) rfl)
        (fun p c => col_read v8 T 832 inb_S1024x1536_S1024x64_0_832 p c (Cert.AttnSpec.hcol 4 1 c) rfl)
        (fun p c => col_read v8 T 896 inb_S1024x1536_S1024x64_0_896 p c (Cert.AttnSpec.hcol 4 2 c) rfl) x
    · exact piece_ok T 3 192 rfl inb_S1024x512_S1024x64_0_192 _ _ _ _ (Pay.head3 _ _ _)
        (fun p c => col_read v8 T 576 inb_S1024x1536_S1024x64_0_576 p c (Cert.AttnSpec.hcol 3 0 c) rfl)
        (fun p c => col_read v8 T 640 inb_S1024x1536_S1024x64_0_640 p c (Cert.AttnSpec.hcol 3 1 c) rfl)
        (fun p c => col_read v8 T 704 inb_S1024x1536_S1024x64_0_704 p c (Cert.AttnSpec.hcol 3 2 c) rfl) x
    · exact piece_ok T 2 128 rfl inb_S1024x512_S1024x64_0_128 _ _ _ _ (Pay.head2 _ _ _)
        (fun p c => col_read v8 T 384 inb_S1024x1536_S1024x64_0_384 p c (Cert.AttnSpec.hcol 2 0 c) rfl)
        (fun p c => col_read v8 T 448 inb_S1024x1536_S1024x64_0_448 p c (Cert.AttnSpec.hcol 2 1 c) rfl)
        (fun p c => col_read v8 T 512 inb_S1024x1536_S1024x64_0_512 p c (Cert.AttnSpec.hcol 2 2 c) rfl) x
    · exact piece_ok T 1 64 rfl inb_S1024x512_S1024x64_0_64 _ _ _ _ (Pay.head1 _ _ _)
        (fun p c => col_read v8 T 192 inb_S1024x1536_S1024x64_0_192 p c (Cert.AttnSpec.hcol 1 0 c) rfl)
        (fun p c => col_read v8 T 256 inb_S1024x1536_S1024x64_0_256 p c (Cert.AttnSpec.hcol 1 1 c) rfl)
        (fun p c => col_read v8 T 320 inb_S1024x1536_S1024x64_0_320 p c (Cert.AttnSpec.hcol 1 2 c) rfl) x
    · exact piece_ok T 0 0 rfl inb_S1024x512_S1024x64_0_0 _ _ _ _ (Pay.head0 _ _ _)
        (fun p c => col_read v8 T 0 inb_S1024x1536_S1024x64_0_0 p c (Cert.AttnSpec.hcol 0 0 c) rfl)
        (fun p c => col_read v8 T 64 inb_S1024x1536_S1024x64_0_64 p c (Cert.AttnSpec.hcol 0 1 c) rfl)
        (fun p c => col_read v8 T 128 inb_S1024x1536_S1024x64_0_128 p c (Cert.AttnSpec.hcol 0 2 c) rfl) x

/-- The stored block at (0, p, d). -/
theorem block_apply (v8 : View sig .tc .vmem S1024x1536 .bf16) (v9 : View sig .tc .vmem S1024x512 .bf16)
    (x0 : Vec Ideal S1x1024x512 .f32) (x1 x2 : Vec Ideal S512 .f32) (x3 : Vec Ideal S512x1536 .bf16)
    (x4 : Vec Ideal S512x512 .bf16) (x5 : Vec Ideal S512 .f32) (p : Fin 1024) (d : Fin 512) :
    blockTerm v8 v9 x0 x1 x2 x3 x4 x5 (ix3 (0 : Fin 1) p d)
      = Cert.AttnSpec.block (fun p c => x0 (ix3 (0 : Fin 1) p c)) (fun c => x1 (ix1 c)) (fun c => x2 (ix1 c))
          (fun c e => x3 (ix2 c e)) (fun c e => x4 (ix2 c e)) (fun c => x5 (ix1 c)) p d := by
  unfold blockTerm
  rw [Pay.out_apply]
  unfold Cert.AttnSpec.block
  have hO : (fun (p : Fin 1024) (c : Fin 512) => headsRead v8 v9 (k0_pay3 (F := Ideal) x0 x1 x2 x3) (ix2 p c))
      = Cert.AttnSpec.att (Cert.AttnSpec.qkv (fun p c => x0 (ix3 (0 : Fin 1) p c)) (fun c => x1 (ix1 c)) (fun c => x2 (ix1 c)) (fun c e => x3 (ix2 c e))) := by
    funext p c
    rw [headsRead_apply]
    congr 1
    funext p' e
    exact Pay.qkv_apply x0 x1 x2 x3 p' e
  rw [hO]

end Cert.KernelIdeal.Blk

end
-- ==== Proof.KernArray.lean ====
/-
  From blocks to the array. Grid point t of the kernel works on batch element t: it is handed the 1 × 1024 × 512 block
  t of the reshaped input and the whole scale, bias and weight arrays, and writes back the 1 × 1024 × 512 block t of the
  result, which by the block lemma is the specification's `block` of those inputs. The eight blocks tile the
  [8, 1024, 512] result array, so the array ends as ONE function of the arrays the region finds (`regionOut`).
  Around the region the host reshapes the input [8,32,32,512] -> [8,1024,512] (position p = 32·h + w), narrows the two
  weight matrices to bf16 (the identity on extended reals), and reshapes the result back; read through these, the
  program's result array is the specification's `G` of the six argument arrays.
-/
import proofs.«170573_j2095944040541_2_alg».proof.Proof.Gen.KernelIdeal.Frame
import proofs.«170573_j2095944040541_2_alg».proof.Proof.Spec
import proofs.«170573_j2095944040541_2_alg».proof.Proof.KernBlock
import proofs.«170573_j2095944040541_2_alg».proof.Proof.KernBlockValue
import Idealize.ShloMosaic.Lib.Pipeline.Value
import Idealize.ShloMosaic.Lib.StableHlo.Run
import Idealize.ShloMosaic.Lib.ValueIdx

set_option maxRecDepth 16384

noncomputable section

namespace Cert.KernelIdeal.Arr

open Idealize.ShloMosaic Idealize.ShloMosaic.TcCoe Idealize.ShloMosaic.Tactic Idealize.ShloMosaic.StableHlo
open Idealize.SL Idealize.SL.Sem
open Cert.KernelIdeal Cert.KernelIdeal.Gen Idealize.ShloMosaic.ValueIdx

variable (m : (ℓ : Loc nD τ sig) → Buf (Elt Ideal) ℓ) (ρ : Dev nD → PrngReg)

/-! ## What the region finds in the three arrays the host wrote -/

theorem V_v0 (c : Dev nD) : (V m c main_v0 : S8x1024x512.Idx → EReal)
    = shapeCast S8x1024x512 (m ((c : Thread nD τ).loc main_arg0) : S8x32x32x512.Idx → EReal) shapeCasts_S8x32x32x512_S8x1024x512 := by
  show StableHlo.after hostOps0 (fun b => m (c, b)) (Proc.devRef .tc main_v0) = _
  after_results
  rfl

theorem V_v1 (c : Dev nD) : (V m c main_v1 : S512x1536.Idx → EReal) = (m ((c : Thread nD τ).loc main_arg3) : S512x1536.Idx → EReal) := by
  show StableHlo.after hostOps0 (fun b => m (c, b)) (Proc.devRef .tc main_v1) = _
  after_results
  rfl

theorem V_v2 (c : Dev nD) : (V m c main_v2 : S512x512.Idx → EReal) = (m ((c : Thread nD τ).loc main_arg4) : S512x512.Idx → EReal) := by
  show StableHlo.after hostOps0 (fun b => m (c, b)) (Proc.devRef .tc main_v2) = _
  after_results
  rfl

/-! ## The printed index maps over the grid -/

theorem idx_facts : ∀ t : Fin cfg0.N,
    win0_0.index t (0 : Fin 3) = t.val ∧ win0_0.index t (1 : Fin 3) = 0 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0 :=
  (by decide +kernel : ∀ t : Fin grid0.N, _)

/-! ## The input blocks at a point -/

/-- Point t's block of the reshaped input is its batch element t. -/
theorem iblk0_apply (c : Dev nD) (t : Fin cfg0.N) (b : Fin 8) (hb : b.val = t.val) (p : Fin 1024) (ch : Fin 512) :
    (iblk m c 0 t : Vec Ideal S1x1024x512 .f32) (ix3 (0 : Fin 1) p ch) = (V m c main_v0 : S8x1024x512.Idx → EReal) (ix3 b p ch) := by
  obtain ⟨e0, e1, e2, -⟩ := idx_facts t
  unfold iblk
  rw [View.read_apply]
  show (V m c main_v0 : S8x1024x512.Idx → EReal) _ = V m c main_v0 _
  congr 1
  funext a
  apply Fin.ext
  match a with
  | ⟨0, _⟩ => show win0_0.index t (0 : Fin 3) * 1 + 1 * 0 = b.val; omega
  | ⟨1, _⟩ => show win0_0.index t (1 : Fin 3) * 1024 + 1 * p.val = p.val; omega
  | ⟨2, _⟩ => show win0_0.index t (2 : Fin 3) * 512 + 1 * ch.val = ch.val; omega

/-- The scale, the bias, the two weight matrices and the output bias are handed over whole at every point. -/
theorem iblk1_eq (c : Dev nD) (t : Fin cfg0.N) : (iblk m c 1 t : Vec Ideal S512 .f32) = (V m c main_arg1 : S512.Idx → EReal) := by
  obtain ⟨-, -, -, e, -⟩ := idx_facts t
  funext y
  unfold iblk
  rw [View.read_apply]
  show (V m c main_arg1 : S512.Idx → EReal) _ = V m c main_arg1 _
  congr 1
  funext a
  apply Fin.ext
  match a with
  | ⟨0, _⟩ => show win0_1.index t (0 : Fin 1) * 512 + 1 * (y 0).val = (y 0).val; omega

theorem iblk2_eq (c : Dev nD) (t : Fin cfg0.N) : (iblk m c 2 t : Vec Ideal S512 .f32) = (V m c main_arg2 : S512.Idx → EReal) := by
  obtain ⟨-, -, -, -, e, -⟩ := idx_facts t
  funext y
  unfold iblk
  rw [View.read_apply]
  show (V m c main_arg2 : S512.Idx → EReal) _ = V m c main_arg2 _
  congr 1
  funext a
  apply Fin.ext
  match a with
  | ⟨0, _⟩ => show win0_2.index t (0 : Fin 1) * 512 + 1 * (y 0).val = (y 0).val; omega

theorem iblk3_eq (c : Dev nD) (t : Fin cfg0.N) : (iblk m c 3 t : Vec Ideal S512x1536 .bf16) = (V m c main_v1 : S512x1536.Idx → EReal) := by
  obtain ⟨-, -, -, -, -, e0, e1, -⟩ := idx_facts t
  funext y
  unfold iblk
  rw [View.read_apply]
  show (V m c main_v1 : S512x1536.Idx → EReal) _ = V m c main_v1 _
  congr 1
  funext a
  apply Fin.ext
  match a with
  | ⟨0, _⟩ => show win0_3.index t (0 : Fin 2) * 512 + 1 * (y 0).val = (y 0).val; omega
  | ⟨1, _⟩ => show win0_3.index t (1 : Fin 2) * 1536 + 1 * (y 1).val = (y 1).val; omega

theorem iblk4_eq (c : Dev nD) (t : Fin cfg0.N) : (iblk m c 4 t : Vec Ideal S512x512 .bf16) = (V m c main_v2 : S512x512.Idx → EReal) := by
  obtain ⟨-, -, -, -, -, -, -, e0, e1, -⟩ := idx_facts t
  funext y
  unfold iblk
  rw [View.read_apply]
  show (V m c main_v2 : S512x512.Idx → EReal) _ = V m c main_v2 _
  congr 1
  funext a
  apply Fin.ext
  match a with
  | ⟨0, _⟩ => show win0_4.index t (0 : Fin 2) * 512 + 1 * (y 0).val = (y 0).val; omega
  | ⟨1, _⟩ => show win0_4.index t (1 : Fin 2) * 512 + 1 * (y 1).val = (y 1).val; omega

theorem iblk5_eq (c : Dev nD) (t : Fin cfg0.N) : (iblk m c 5 t : Vec Ideal S512 .f32) = (V m c main_arg5 : S512.Idx → EReal) := by
  obtain ⟨-, -, -, -, -, -, -, -, -, e, -⟩ := idx_facts t
  funext y
  unfold iblk
  rw [View.read_apply]
  show (V m c main_arg5 : S512.Idx → EReal) _ = V m c main_arg5 _
  congr 1
  funext a
  apply Fin.ext
  match a with
  | ⟨0, _⟩ => show win0_5.index t (0 : Fin 1) * 512 + 1 * (y 0).val = (y 0).val; omega

/-! ## The result array of the region as one function -/

/-- The region's result array: batch element b is the specification's block of batch element b of the reshaped input
    and of the whole parameter arrays, all as the region finds them. -/
def regionOut (c : Dev nD) : S8x1024x512.Idx → EReal := fun i =>
  Cert.AttnSpec.block (fun p ch => (V m c main_v0 : S8x1024x512.Idx → EReal) (ix3 (i 0) p ch))
    (fun ch => (V m c main_arg1 : S512.Idx → EReal) (ix1 ch)) (fun ch => (V m c main_arg2 : S512.Idx → EReal) (ix1 ch))
    (fun ch e => (V m c main_v1 : S512x1536.Idx → EReal) (ix2 ch e)) (fun ch e => (V m c main_v2 : S512x512.Idx → EReal) (ix2 ch e))
    (fun ch => (V m c main_arg5 : S512.Idx → EReal) (ix1 ch)) (i 1) (i 2)

/-- What point t writes back is block t of `regionOut`. -/
theorem flushed_eq (c : Dev nD) (t : Fin cfg0.N) :
    (dats m 0 c).flushed 6 t = ((cfg0.win 6).blk t).view.read (Elt Ideal) (regionOut m c) := by
  show (cfg0.win 6).cut (grid0.coords t) ((dats m 0 c).after 6 t) = _
  rw [after0_6]
  unfold outsAt0
  rw [Blk.out_eq]
  have hN : cfg0.N = 8 := N_0
  obtain ⟨-, -, -, -, -, -, -, -, -, -, e0, e1, e2⟩ := idx_facts t
  funext j
  obtain ⟨z, p, d, rfl⟩ : ∃ (z : Fin 1) (p : Fin 1024) (d : Fin 512), j = ix3 z p d := ⟨j 0, j 1, j 2, eq_ix3 j⟩
  obtain rfl : z = 0 := Subsingleton.elim _ _
  have hemb : ((cfg0.win 6).blk t).view.emb (ix3 (0 : Fin 1) p d) = (ix3 (⟨t.val, by omega⟩ : Fin 8) p d : S8x1024x512.Idx) := by
    funext a
    apply Fin.ext
    match a with
    | ⟨0, _⟩ => show win0_6.index t (0 : Fin 3) * 1 + 1 * 0 = t.val; omega
    | ⟨1, _⟩ => show win0_6.index t (1 : Fin 3) * 1024 + 1 * p.val = p.val; omega
    | ⟨2, _⟩ => show win0_6.index t (2 : Fin 3) * 512 + 1 * d.val = d.val; omega
  rw [View.read_apply, hemb]
  refine (Blk.block_apply scM0_0.view scM0_1.view (iblk m c 0 t) (iblk m c 1 t) (iblk m c 2 t) (iblk m c 3 t) (iblk m c 4 t) (iblk m c 5 t) p d).trans ?_
  have h0 : (fun (p : Fin 1024) (ch : Fin 512) => (iblk m c 0 t : Vec Ideal S1x1024x512 .f32) (ix3 (0 : Fin 1) p ch))
      = fun p ch => (V m c main_v0 : S8x1024x512.Idx → EReal) (ix3 (⟨t.val, by omega⟩ : Fin 8) p ch) :=
    funext fun p => funext fun ch => iblk0_apply m c t ⟨t.val, by omega⟩ rfl p ch
  rw [h0, iblk1_eq, iblk2_eq, iblk3_eq, iblk4_eq, iblk5_eq]
  rfl

/-- An index of the result array is in point t's block iff each coordinate is in the block's range. -/
theorem mem_blk (t : Fin cfg0.N) (i : S8x1024x512.Idx) :
    i ∈ ((cfg0.win 6).blk t).view.set ↔ ∀ a : Fin 3, win0_6.index t a * S1x1024x512.size a ≤ (i a).val ∧ (i a).val < win0_6.index t a * S1x1024x512.size a + S1x1024x512.size a := by
  show i ∈ ((View.whole main_v3).slice (win0_6.rect t)).set ↔ _
  rw [View.set_slice_whole, Rect.mem_set_unit]
  exact Iff.rfl

/-- Every index of the result array lies in the block of the point named by its batch coordinate. -/
theorem cover (i : S8x1024x512.Idx) :
    ∃ t : Fin cfg0.N, (cfg0.win 6).flush t = true ∧ i ∈ ((cfg0.win 6).blk t).view.set := by
  have hN : cfg0.N = 8 := N_0
  have hi0 : (i 0).val < 8 := (i 0).isLt
  have hi1 : (i 1).val < 1024 := (i 1).isLt
  have hi2 : (i 2).val < 512 := (i 2).isLt
  refine ⟨⟨(i 0).val, by omega⟩, flush0_6 _, ?_⟩
  rw [mem_blk]
  obtain ⟨-, -, -, -, -, -, -, -, -, -, e0, e1, e2⟩ := idx_facts ⟨(i 0).val, by omega⟩
  have e0' : win0_6.index (⟨(i 0).val, by omega⟩ : Fin cfg0.N) (0 : Fin 3) = (i 0).val := e0
  intro a
  match a with
  | ⟨0, _⟩ => show win0_6.index _ (0 : Fin 3) * 1 ≤ (i 0).val ∧ (i 0).val < win0_6.index _ (0 : Fin 3) * 1 + 1; rw [e0']; omega
  | ⟨1, _⟩ => show win0_6.index _ (1 : Fin 3) * 1024 ≤ (i 1).val ∧ (i 1).val < win0_6.index _ (1 : Fin 3) * 1024 + 1024; rw [e1]; omega
  | ⟨2, _⟩ => show win0_6.index _ (2 : Fin 3) * 512 ≤ (i 2).val ∧ (i 2).val < win0_6.index _ (2 : Fin 3) * 512 + 512; rw [e2]; omega

/-- The eight blocks cover the array: the region's result array ends as `regionOut`. -/
theorem final (c : Dev nD) : (dats m 0 c).arrAt 6 cfg0.N = regionOut m c :=
  (dats m 0 c).arrAt_eq_of_cover 6 (regionOut m c) (fun t _ => flushed_eq m c t) cover

end Cert.KernelIdeal.Arr

end
-- ==== Proof.KernRun.lean ====
/-
  The kernel program's run, read: after the region the host reshapes the [8, 1024, 512] result array back to
  [8, 32, 32, 512]. Row-major positions are kept, so entry (b, h, w, d) of the program's result is entry
  (b, 32·h + w, d) of the region's result array, which is the specification's block of batch element b of the reshaped
  input: the specification's `G` of the six argument arrays.
-/
import proofs.«170573_j2095944040541_2_alg».proof.Proof.KernArray

set_option maxRecDepth 16384

noncomputable section

namespace Cert.KernelIdeal.Arr

open Idealize.ShloMosaic Idealize.ShloMosaic.TcCoe Idealize.ShloMosaic.Tactic Idealize.ShloMosaic.StableHlo
open Idealize.SL Idealize.SL.Sem
open Cert.KernelIdeal Cert.KernelIdeal.Gen Idealize.ShloMosaic.ValueIdx

variable (m : (ℓ : Loc nD τ sig) → Buf (Elt Ideal) ℓ) (ρ : Dev nD → PrngReg)

/-- The result buffer after the host's last reshape: the region's result array, reshaped. -/
theorem tail_v4 (c : Dev nD) :
    (Pipeline.afterTail₀ cfgs (dats m) 0 (V0 m) [hostOps1] c main_v4 : S8x32x32x512.Idx → EReal)
      = shapeCast S8x32x32x512 (regionOut m c) shapeCasts_S8x1024x512_S8x32x32x512 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = regionOut m c :=
    (Pipeline.withArrays_arr (cfgs 0).spec launch0.win.arr_inj c (V0 m c) (fun w => (dats m 0 c).arrAt w (cfgs 0).N) 6).trans (final m c)
  rw [e]
  rfl

/-- Entry (b, h, w, d) of the reshaped region result is the specification's `G` there. -/
theorem result_eq (c : Dev nD) :
    shapeCast S8x32x32x512 (regionOut m c) shapeCasts_S8x1024x512_S8x32x32x512
      = Cert.AttnSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  obtain ⟨b, h, w, d, rfl⟩ : ∃ (b : Fin 8) (h w : Fin 32) (d : Fin 512), i = ix4 b h w d := ⟨i 0, i 1, i 2, i 3, eq_ix4 i⟩
  rw [Cert.AttnSpec.G_apply]
  rw [shapeCast_apply (regionOut m c) shapeCasts_S8x1024x512_S8x32x32x512 (ix4 b h w d) (ix3 b (Cert.AttnSpec.pos h w) d) (by
    rw [Shape.rowMajor_val_three, Shape.rowMajor_val_four]
    show (b.val * 1024 + (h.val * 32 + w.val)) * 512 + d.val = ((b.val * 32 + h.val) * 32 + w.val) * 512 + d.val
    omega)]
  show Cert.AttnSpec.block (fun p ch => (V m c main_v0 : S8x1024x512.Idx → EReal) (ix3 b p ch))
      (fun ch => (V m c main_arg1 : S512.Idx → EReal) (ix1 ch)) (fun ch => (V m c main_arg2 : S512.Idx → EReal) (ix1 ch))
      (fun ch e => (V m c main_v1 : S512x1536.Idx → EReal) (ix2 ch e)) (fun ch e => (V m c main_v2 : S512x512.Idx → EReal) (ix2 ch e))
      (fun ch => (V m c main_arg5 : S512.Idx → EReal) (ix1 ch)) (Cert.AttnSpec.pos h w) d = _
  rw [V_v0, V_v1, V_v2, V_main_arg1, V_main_arg2, V_main_arg5]
  congr 1
  funext p ch
  have hp : p.val < 1024 := p.isLt
  rw [shapeCast_apply (m ((c.tc : Thread nD τ).loc main_arg0) : S8x32x32x512.Idx → EReal) shapeCasts_S8x32x32x512_S8x1024x512 (ix3 b p ch)
    (ix4 b (Cert.AttnSpec.prow p) (Cert.AttnSpec.pcol p) ch) (by
      show (S8x32x32x512.rowMajor (ix4 b (Cert.AttnSpec.prow p) (Cert.AttnSpec.pcol p) ch)).val = (S8x1024x512.rowMajor (ix3 b p ch)).val
      rw [Shape.rowMajor_val_three, Shape.rowMajor_val_four]
      show ((b.val * 32 + p.val / 32) * 32 + p.val % 32) * 512 + ch.val = (b.val * 1024 + p.val) * 512 + ch.val
      omega)]
  rfl

/-- The frame run re-posted: the result array is `G` of the argument arrays, and the arguments end unchanged. -/
theorem run : θ_run defs (onTc (τ := τ) (main (F := Ideal))) ⟨m, fun _ => 0, ρ⟩ fun r => ∀ c : Dev nD,
      r.2.mem ((c.tc : Thread nD τ).loc main_v4)
        = Cert.AttnSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v4 (Pipeline.mem_restRefs_of main_v4 (by decide) (by decide))).trans ((tail_v4 m c).trans (result_eq m c)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c)))⟩)
    (run_main m ρ)

end Cert.KernelIdeal.Arr

end
-- ==== Proof.RefRunOps.lean ====
/-
  The reference program's @main as one straight line of host operations.

  @main calls the outlined variance function, which itself calls the outlined select; a call executes the
  callee's body on the operands, so the program is the list below: @main's operations in order, with the
  callee's operations written out at the call site over the buffers that call names. The list and @main are
  one chain of steps, equal by computation.
-/
import proofs.«170573_j2095944040541_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 80 operations, in order: eight of its own, the twenty of the variance function and the three of the
    select it calls, then the remaining forty-nine. -/
abbrev ops : List (HloOp τ sig (Elt F)) :=
  [ StableHlo.reshape main_arg0 main_v0 rfl shapeCasts_S8x32x32x512_S8x32x32x16x32,
    StableHlo.nullary main_cst (constant S_ .f32 0x00000000#32),
    StableHlo.binary main_v0 main_cst main_v1 ((fun x v => Host.reduceAdd x v reducesTo_S8x32x32x16x32_S8x16_d1_2_4 h_S_) : (⟨S8x32x32x16x32, .f32⟩ : BufTy).Contents (Elt F) → (⟨S_, .f32⟩ : BufTy).Contents (Elt F) → (⟨S8x16, .f32⟩ : BufTy).Contents (Elt F)),
    StableHlo.unary main_v1 main_v2 (broadcastInDim S8x1x1x16x1 ![0, 3] bcast_S8x16_S8x1x1x16x1_0_3 : (⟨S8x16, .f32⟩ : BufTy).Contents (Elt F) → (⟨S8x1x1x16x1, .f32⟩ : BufTy).Contents (Elt F)),
    StableHlo.nullary main_cst_0 (constant S_ .f32 0x47000000#32),
    StableHlo.unary main_cst_0 main_v3 (broadcastInDim S8x1x1x16x1 ![] bcast_S_S8x1x1x16x1 : (⟨S_, .f32⟩ : BufTy).Contents (Elt F) → (⟨S8x1x1x16x1, .f32⟩ : BufTy).Contents (Elt F)),
    StableHlo.binary main_v2 main_v3 main_v4 (Host.divf : (⟨S8x1x1x16x1, .f32⟩ : BufTy).Contents (Elt F) → (⟨S8x1x1x16x1, .f32⟩ : BufTy).Contents (Elt F) → (⟨S8x1x1x16x1, .f32⟩ : BufTy).Contents (Elt F)),
    StableHlo.nullary main_c (constantI S_ 32 0#32),
    StableHlo.TRef.nullary main_call0.cst (constant S_ .f32 0x00000000#32),
    StableHlo.TRef.binary (.of main_v0 : StableHlo.TRef sig ⟨S8x32x32x16x32, .f32⟩) main_call0.cst main_call0.v0 (fun x v => Host.reduceAdd x v reducesTo_S8x32x32x16x32_S8x16_d1_2_4 h_S_),
    StableHlo.TRef.unary main_call0.v0 main_call0.v1 (broadcastInDim S8x1x1x16x1 ![0, 3] bcast_S8x16_S8x1x1x16x1_0_3),
    StableHlo.TRef.nullary main_call0.cst_0 (constant S_ .f32 0x47000000#32),
    StableHlo.TRef.unary main_call0.cst_0 main_call0.v2 (broadcastInDim S8x1x1x16x1 ![] bcast_S_S8x1x1x16x1),
    StableHlo.TRef.binary main_call0.v1 main_call0.v2 main_call0.v3 Host.divf,
    StableHlo.TRef.unary main_call0.v3 main_call0.v4 (broadcastInDim S8x32x32x16x32 ![0, 1, 2, 3, 4] bcast_S8x1x1x16x1_S8x32x32x16x32_0_1_2_3_4),
    StableHlo.TRef.binary (.of main_v0 : StableHlo.TRef sig ⟨S8x32x32x16x32, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8x32x32x16x32_S8x16_d1_2_4 h_S_),
    StableHlo.TRef.unary main_call0.v9 main_call0.v10 (broadcastInDim S8x1x1x16x1 ![0, 3] bcast_S8x16_S8x1x1x16x1_0_3),
    StableHlo.TRef.unary main_call0.v8 main_call0.v11 (broadcastInDim S8x1x1x16x1 ![] bcast_S_S8x1x1x16x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8x1x1x16x1 ![] bcast_S_S8x1x1x16x1),
    StableHlo.TRef.ternary main_call0.v13 main_call0.v12 main_call0.call0.v1 main_call0.call0.v2 (fun p a b => select (broadcastInDim S8x1x1x16x1 ![] bcast_S_S8x1x1x16x1 p) a b),
    StableHlo.unary main_v4 main_v6 (broadcastInDim S8x32x32x16x32 ![0, 1, 2, 3, 4] bcast_S8x1x1x16x1_S8x32x32x16x32_0_1_2_3_4 : (⟨S8x1x1x16x1, .f32⟩ : BufTy).Contents (Elt F) → (⟨S8x32x32x16x32, .f32⟩ : BufTy).Contents (Elt F)),
    StableHlo.binary main_v0 main_v6 main_v7 (subf : (⟨S8x32x32x16x32, .f32⟩ : BufTy).Contents (Elt F) → (⟨S8x32x32x16x32, .f32⟩ : BufTy).Contents (Elt F) → (⟨S8x32x32x16x32, .f32⟩ : BufTy).Contents (Elt F)),
    StableHlo.nullary main_cst_1 (constant S_ .f32 0x3727C5AC#32),
    StableHlo.unary main_cst_1 main_v8 (broadcastInDim S8x1x1x16x1 ![] bcast_S_S8x1x1x16x1 : (⟨S_, .f32⟩ : BufTy).Contents (Elt F) → (⟨S8x1x1x16x1, .f32⟩ : BufTy).Contents (Elt F)),
    StableHlo.binary main_v5 main_v8 main_v9 (addf : (⟨S8x1x1x16x1, .f32⟩ : BufTy).Contents (Elt F) → (⟨S8x1x1x16x1, .f32⟩ : BufTy).Contents (Elt F) → (⟨S8x1x1x16x1, .f32⟩ : BufTy).Contents (Elt F)),
    StableHlo.unary main_v9 main_v10 (Host.rsqrt : (⟨S8x1x1x16x1, .f32⟩ : BufTy).Contents (Elt F) → (⟨S8x1x1x16x1, .f32⟩ : BufTy).Contents (Elt F)),
    StableHlo.unary main_v10 main_v11 (broadcastInDim S8x32x32x16x32 ![0, 1, 2, 3, 4] bcast_S8x1x1x16x1_S8x32x32x16x32_0_1_2_3_4 : (⟨S8x1x1x16x1, .f32⟩ : BufTy).Contents (Elt F) → (⟨S8x32x32x16x32, .f32⟩ : BufTy).Contents (Elt F)),
    StableHlo.binary main_v7 main_v11 main_v12 (mulf : (⟨S8x32x32x16x32, .f32⟩ : BufTy).Contents (Elt F) → (⟨S8x32x32x16x32, .f32⟩ : BufTy).Contents (Elt F) → (⟨S8x32x32x16x32, .f32⟩ : BufTy).Contents (Elt F)),
    StableHlo.reshape main_v12 main_v13 rfl shapeCasts_S8x32x32x16x32_S8x32x32x512,
    StableHlo.unary main_arg1 main_v14 (broadcastInDim S1x1x1x512 ![3] bcast_S512_S1x1x1x512_3 : (⟨S512, .f32⟩ : BufTy).Contents (Elt F) → (⟨S1x1x1x512, .f32⟩ : BufTy).Contents (Elt F)),
    StableHlo.unary main_v14 main_v15 (broadcastInDim S8x32x32x512 ![0, 1, 2, 3] bcast_S1x1x1x512_S8x32x32x512_0_1_2_3 : (⟨S1x1x1x512, .f32⟩ : BufTy).Contents (Elt F) → (⟨S8x32x32x512, .f32⟩ : BufTy).Contents (Elt F)),
    StableHlo.binary main_v13 main_v15 main_v16 (mulf : (⟨S8x32x32x512, .f32⟩ : BufTy).Contents (Elt F) → (⟨S8x32x32x512, .f32⟩ : BufTy).Contents (Elt F) → (⟨S8x32x32x512, .f32⟩ : BufTy).Contents (Elt F)),
    StableHlo.unary main_arg2 main_v17 (broadcastInDim S1x1x1x512 ![3] bcast_S512_S1x1x1x512_3 : (⟨S512, .f32⟩ : BufTy).Contents (Elt F) → (⟨S1x1x1x512, .f32⟩ : BufTy).Contents (Elt F)),
    StableHlo.unary main_v17 main_v18 (broadcastInDim S8x32x32x512 ![0, 1, 2, 3] bcast_S1x1x1x512_S8x32x32x512_0_1_2_3 : (⟨S1x1x1x512, .f32⟩ : BufTy).Contents (Elt F) → (⟨S8x32x32x512, .f32⟩ : BufTy).Contents (Elt F)),
    StableHlo.binary main_v16 main_v18 main_v19 (addf : (⟨S8x32x32x512, .f32⟩ : BufTy).Contents (Elt F) → (⟨S8x32x32x512, .f32⟩ : BufTy).Contents (Elt F) → (⟨S8x32x32x512, .f32⟩ : BufTy).Contents (Elt F)),
    StableHlo.binary main_v19 main_arg3 main_v20 ((fun l r => Host.dotGeneral dot_S8x32x32x512_S512x1536_S8x32x32x1536_3_0_012_1_n_n none l r) : (⟨S8x32x32x512, .f32⟩ : BufTy).Contents (Elt F) → (⟨S512x1536, .f32⟩ : BufTy).Contents (Elt F) → (⟨S8x32x32x1536, .f32⟩ : BufTy).Contents (Elt F)),
    StableHlo.reshape main_v20 main_v21 rfl shapeCasts_S8x32x32x1536_S8x1024x8x192,
    StableHlo.unary main_v21 main_v22 ((transpose S8x8x192x1024 [0, 2, 3, 1] · transposes_S8x1024x8x192_S8x8x192x1024_0_2_3_1) : (⟨S8x1024x8x192, .f32⟩ : BufTy).Contents (Elt F) → (⟨S8x8x192x1024, .f32⟩ : BufTy).Contents (Elt F)),
    StableHlo.reshape main_v22 main_v23 rfl shapeCasts_S8x8x192x1024_S64x192x1024,
    StableHlo.unary main_v23 main_v24 ((extractStridedSlice S64x64x1024 ![0, 0, 0] · slices_S64x192x1024_S64x64x1024_0_0_0) : (⟨S64x192x1024, .f32⟩ : BufTy).Contents (Elt F) → (⟨S64x64x1024, .f32⟩ : BufTy).Contents (Elt F)),
    StableHlo.unary main_v23 main_v25 ((extractStridedSlice S64x64x1024 ![0, 64, 0] · slices_S64x192x1024_S64x64x1024_0_64_0) : (⟨S64x192x1024, .f32⟩ : BufTy).Contents (Elt F) → (⟨S64x64x1024, .f32⟩ : BufTy).Contents (Elt F)),
    StableHlo.unary main_v23 main_v26 ((extractStridedSlice S64x64x1024 ![0, 128, 0] · slices_S64x192x1024_S64x64x1024_0_128_0) : (⟨S64x192x1024, .f32⟩ : BufTy).Contents (Elt F) → (⟨S64x64x1024, .f32⟩ : BufTy).Contents (Elt F)),
    StableHlo.binary main_v24 main_v25 main_v27 ((fun l r => Host.dotGeneral dot_S64x64x1024_S64x64x1024_S64x1024x1024_1_1_2_2_0_0 none l r) : (⟨S64x64x1024, .f32⟩ : BufTy).Contents (Elt F) → (⟨S64x64x1024, .f32⟩ : BufTy).Contents (Elt F) → (⟨S64x1024x1024, .f32⟩ : BufTy).Contents (Elt F)),
    StableHlo.nullary main_cst_2 (constant S_ .f32 0x3E000000#32),
    StableHlo.unary main_cst_2 main_v28 (broadcastInDim S64x1024x1024 ![] bcast_S_S64x1024x1024 : (⟨S_, .f32⟩ : BufTy).Contents (Elt F) → (⟨S64x1024x1024, .f32⟩ : BufTy).Contents (Elt F)),
    StableHlo.binary main_v27 main_v28 main_v29 (mulf : (⟨S64x1024x1024, .f32⟩ : BufTy).Contents (Elt F) → (⟨S64x1024x1024, .f32⟩ : BufTy).Contents (Elt F) → (⟨S64x1024x1024, .f32⟩ : BufTy).Contents (Elt F)),
    StableHlo.nullary main_cst_3 (constant S_ .f32 0xFF800000#32),
    StableHlo.binary main_v29 main_cst_3 main_v30 ((fun x v => Host.reduce FloatOps.maximumf x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)),
    StableHlo.nullary main_cst_4 (constant S_ .f32 0xFF800000#32),
    StableHlo.unary main_cst_4 main_v31 (broadcastInDim S64x1024 ![] bcast_S_S64x1024 : (⟨S_, .f32⟩ : BufTy).Contents (Elt F) → (⟨S64x1024, .f32⟩ : BufTy).Contents (Elt F)),
    StableHlo.binary main_v31 main_v30 main_v32 (maximumf : (⟨S64x1024, .f32⟩ : BufTy).Contents (Elt F) → (⟨S64x1024, .f32⟩ : BufTy).Contents (Elt F) → (⟨S64x1024, .f32⟩ : BufTy).Contents (Elt F)),
    StableHlo.unary main_v32 main_v33 (broadcastInDim S64x1024x1 ![0, 1] bcast_S64x1024_S64x1024x1_0_1 : (⟨S64x1024, .f32⟩ : BufTy).Contents (Elt F) → (⟨S64x1024x1, .f32⟩ : BufTy).Contents (Elt F)),
    StableHlo.unary main_v33 main_v34 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    StableHlo.binary main_v29 main_v34 main_v35 (subf : (⟨S64x1024x1024, .f32⟩ : BufTy).Contents (Elt F) → (⟨S64x1024x1024, .f32⟩ : BufTy).Contents (Elt F) → (⟨S64x1024x1024, .f32⟩ : BufTy).Contents (Elt F)),
    StableHlo.unary main_v35 main_v36 (Host.exp : (⟨S64x1024x1024, .f32⟩ : BufTy).Contents (Elt F) → (⟨S64x1024x1024, .f32⟩ : BufTy).Contents (Elt F)),
    StableHlo.nullary main_cst_5 (constant S_ .f32 0x00000000#32),
    StableHlo.binary main_v36 main_cst_5 main_v37 ((fun x v => Host.reduceAdd x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)),
    StableHlo.unary main_v37 main_v38 (broadcastInDim S64x1024x1 ![0, 1] bcast_S64x1024_S64x1024x1_0_1 : (⟨S64x1024, .f32⟩ : BufTy).Contents (Elt F) → (⟨S64x1024x1, .f32⟩ : BufTy).Contents (Elt F)),
    StableHlo.unary main_v38 main_v39 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    StableHlo.binary main_v36 main_v39 main_v40 (Host.divf : (⟨S64x1024x1024, .f32⟩ : BufTy).Contents (Elt F) → (⟨S64x1024x1024, .f32⟩ : BufTy).Contents (Elt F) → (⟨S64x1024x1024, .f32⟩ : BufTy).Contents (Elt F)),
    StableHlo.binary main_v40 main_v26 main_v41 ((fun l r => Host.dotGeneral dot_S64x1024x1024_S64x64x1024_S64x1024x64_2_2_1_1_0_0 none l r) : (⟨S64x1024x1024, .f32⟩ : BufTy).Contents (Elt F) → (⟨S64x64x1024, .f32⟩ : BufTy).Contents (Elt F) → (⟨S64x1024x64, .f32⟩ : BufTy).Contents (Elt F)),
    StableHlo.reshape main_v41 main_v42 rfl shapeCasts_S64x1024x64_S8x8x1024x64,
    StableHlo.unary main_v42 main_v43 ((transpose S8x1024x8x64 [0, 2, 1, 3] · transposes_S8x8x1024x64_S8x1024x8x64_0_2_1_3) : (⟨S8x8x1024x64, .f32⟩ : BufTy).Contents (Elt F) → (⟨S8x1024x8x64, .f32⟩ : BufTy).Contents (Elt F)),
    StableHlo.reshape main_v43 main_v44 rfl shapeCasts_S8x1024x8x64_S8x32x32x512,
    StableHlo.binary main_v44 main_arg4 main_v45 ((fun l r => Host.dotGeneral dot_S8x32x32x512_S512x512_S8x32x32x512_3_0_012_1_n_n none l r) : (⟨S8x32x32x512, .f32⟩ : BufTy).Contents (Elt F) → (⟨S512x512, .f32⟩ : BufTy).Contents (Elt F) → (⟨S8x32x32x512, .f32⟩ : BufTy).Contents (Elt F)),
    StableHlo.unary main_arg5 main_v46 (broadcastInDim S1x1x1x512 ![3] bcast_S512_S1x1x1x512_3 : (⟨S512, .f32⟩ : BufTy).Contents (Elt F) → (⟨S1x1x1x512, .f32⟩ : BufTy).Contents (Elt F)),
    StableHlo.unary main_v46 main_v47 (broadcastInDim S8x32x32x512 ![0, 1, 2, 3] bcast_S1x1x1x512_S8x32x32x512_0_1_2_3 : (⟨S1x1x1x512, .f32⟩ : BufTy).Contents (Elt F) → (⟨S8x32x32x512, .f32⟩ : BufTy).Contents (Elt F)),
    StableHlo.binary main_v45 main_v47 main_v48 (addf : (⟨S8x32x32x512, .f32⟩ : BufTy).Contents (Elt F) → (⟨S8x32x32x512, .f32⟩ : BufTy).Contents (Elt F) → (⟨S8x32x32x512, .f32⟩ : BufTy).Contents (Elt F)),
    StableHlo.binary main_v48 main_arg0 main_v49 (addf : (⟨S8x32x32x512, .f32⟩ : BufTy).Contents (Elt F) → (⟨S8x32x32x512, .f32⟩ : BufTy).Contents (Elt F) → (⟨S8x32x32x512, .f32⟩ : BufTy).Contents (Elt F)) ]

-- eighty sequencing steps compared one by one: the comparison recurses once per statement
set_option maxRecDepth 4096 in
/-- @main is that straight line: the two functions' definitions unfolded at their calls, and sequencing a step
    after a line is, by computation, the step at the head of the longer line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., binary_bufs_sub .., unary_bufs_sub .., unary_bufs_sub .., binary_bufs_sub .., binary_bufs_sub .., reshape_bufs_sub .., unary_bufs_sub .., reshape_bufs_sub .., unary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub .., unary_bufs_sub .., reshape_bufs_sub .., binary_bufs_sub .., unary_bufs_sub .., unary_bufs_sub .., binary_bufs_sub .., binary_bufs_sub ..⟩

/-- The first 46 operations: the group normalisation, up to the value handed to the projection. -/
abbrev opsN : List (HloOp τ sig (Elt F)) :=
  [ StableHlo.reshape main_arg0 main_v0 rfl shapeCasts_S8x32x32x512_S8x32x32x16x32,
    StableHlo.nullary main_cst (constant S_ .f32 0x00000000#32),
    StableHlo.binary main_v0 main_cst main_v1 ((fun x v => Host.reduceAdd x v reducesTo_S8x32x32x16x32_S8x16_d1_2_4 h_S_) : (⟨S8x32x32x16x32, .f32⟩ : BufTy).Contents (Elt F) → (⟨S_, .f32⟩ : BufTy).Contents (Elt F) → (⟨S8x16, .f32⟩ : BufTy).Contents (Elt F)),
    StableHlo.unary main_v1 main_v2 (broadcastInDim S8x1x1x16x1 ![0, 3] bcast_S8x16_S8x1x1x16x1_0_3 : (⟨S8x16, .f32⟩ : BufTy).Contents (Elt F) → (⟨S8x1x1x16x1, .f32⟩ : BufTy).Contents (Elt F)),
    StableHlo.nullary main_cst_0 (constant S_ .f32 0x47000000#32),
    StableHlo.unary main_cst_0 main_v3 (broadcastInDim S8x1x1x16x1 ![] bcast_S_S8x1x1x16x1 : (⟨S_, .f32⟩ : BufTy).Contents (Elt F) → (⟨S8x1x1x16x1, .f32⟩ : BufTy).Contents (Elt F)),
    StableHlo.binary main_v2 main_v3 main_v4 (Host.divf : (⟨S8x1x1x16x1, .f32⟩ : BufTy).Contents (Elt F) → (⟨S8x1x1x16x1, .f32⟩ : BufTy).Contents (Elt F) → (⟨S8x1x1x16x1, .f32⟩ : BufTy).Contents (Elt F)),
    StableHlo.nullary main_c (constantI S_ 32 0#32),
    StableHlo.TRef.nullary main_call0.cst (constant S_ .f32 0x00000000#32),
    StableHlo.TRef.binary (.of main_v0 : StableHlo.TRef sig ⟨S8x32x32x16x32, .f32⟩) main_call0.cst main_call0.v0 (fun x v => Host.reduceAdd x v reducesTo_S8x32x32x16x32_S8x16_d1_2_4 h_S_),
    StableHlo.TRef.unary main_call0.v0 main_call0.v1 (broadcastInDim S8x1x1x16x1 ![0, 3] bcast_S8x16_S8x1x1x16x1_0_3),
    StableHlo.TRef.nullary main_call0.cst_0 (constant S_ .f32 0x47000000#32),
    StableHlo.TRef.unary main_call0.cst_0 main_call0.v2 (broadcastInDim S8x1x1x16x1 ![] bcast_S_S8x1x1x16x1),
    StableHlo.TRef.binary main_call0.v1 main_call0.v2 main_call0.v3 Host.divf,
    StableHlo.TRef.unary main_call0.v3 main_call0.v4 (broadcastInDim S8x32x32x16x32 ![0, 1, 2, 3, 4] bcast_S8x1x1x16x1_S8x32x32x16x32_0_1_2_3_4),
    StableHlo.TRef.binary (.of main_v0 : StableHlo.TRef sig ⟨S8x32x32x16x32, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8x32x32x16x32_S8x16_d1_2_4 h_S_),
    StableHlo.TRef.unary main_call0.v9 main_call0.v10 (broadcastInDim S8x1x1x16x1 ![0, 3] bcast_S8x16_S8x1x1x16x1_0_3),
    StableHlo.TRef.unary main_call0.v8 main_call0.v11 (broadcastInDim S8x1x1x16x1 ![] bcast_S_S8x1x1x16x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8x1x1x16x1 ![] bcast_S_S8x1x1x16x1),
    StableHlo.TRef.ternary main_call0.v13 main_call0.v12 main_call0.call0.v1 main_call0.call0.v2 (fun p a b => select (broadcastInDim S8x1x1x16x1 ![] bcast_S_S8x1x1x16x1 p) a b),
    StableHlo.unary main_v4 main_v6 (broadcastInDim S8x32x32x16x32 ![0, 1, 2, 3, 4] bcast_S8x1x1x16x1_S8x32x32x16x32_0_1_2_3_4 : (⟨S8x1x1x16x1, .f32⟩ : BufTy).Contents (Elt F) → (⟨S8x32x32x16x32, .f32⟩ : BufTy).Contents (Elt F)),
    StableHlo.binary main_v0 main_v6 main_v7 (subf : (⟨S8x32x32x16x32, .f32⟩ : BufTy).Contents (Elt F) → (⟨S8x32x32x16x32, .f32⟩ : BufTy).Contents (Elt F) → (⟨S8x32x32x16x32, .f32⟩ : BufTy).Contents (Elt F)),
    StableHlo.nullary main_cst_1 (constant S_ .f32 0x3727C5AC#32),
    StableHlo.unary main_cst_1 main_v8 (broadcastInDim S8x1x1x16x1 ![] bcast_S_S8x1x1x16x1 : (⟨S_, .f32⟩ : BufTy).Contents (Elt F) → (⟨S8x1x1x16x1, .f32⟩ : BufTy).Contents (Elt F)),
    StableHlo.binary main_v5 main_v8 main_v9 (addf : (⟨S8x1x1x16x1, .f32⟩ : BufTy).Contents (Elt F) → (⟨S8x1x1x16x1, .f32⟩ : BufTy).Contents (Elt F) → (⟨S8x1x1x16x1, .f32⟩ : BufTy).Contents (Elt F)),
    StableHlo.unary main_v9 main_v10 (Host.rsqrt : (⟨S8x1x1x16x1, .f32⟩ : BufTy).Contents (Elt F) → (⟨S8x1x1x16x1, .f32⟩ : BufTy).Contents (Elt F)),
    StableHlo.unary main_v10 main_v11 (broadcastInDim S8x32x32x16x32 ![0, 1, 2, 3, 4] bcast_S8x1x1x16x1_S8x32x32x16x32_0_1_2_3_4 : (⟨S8x1x1x16x1, .f32⟩ : BufTy).Contents (Elt F) → (⟨S8x32x32x16x32, .f32⟩ : BufTy).Contents (Elt F)),
    StableHlo.binary main_v7 main_v11 main_v12 (mulf : (⟨S8x32x32x16x32, .f32⟩ : BufTy).Contents (Elt F) → (⟨S8x32x32x16x32, .f32⟩ : BufTy).Contents (Elt F) → (⟨S8x32x32x16x32, .f32⟩ : BufTy).Contents (Elt F)),
    StableHlo.reshape main_v12 main_v13 rfl shapeCasts_S8x32x32x16x32_S8x32x32x512,
    StableHlo.unary main_arg1 main_v14 (broadcastInDim S1x1x1x512 ![3] bcast_S512_S1x1x1x512_3 : (⟨S512, .f32⟩ : BufTy).Contents (Elt F) → (⟨S1x1x1x512, .f32⟩ : BufTy).Contents (Elt F)),
    StableHlo.unary main_v14 main_v15 (broadcastInDim S8x32x32x512 ![0, 1, 2, 3] bcast_S1x1x1x512_S8x32x32x512_0_1_2_3 : (⟨S1x1x1x512, .f32⟩ : BufTy).Contents (Elt F) → (⟨S8x32x32x512, .f32⟩ : BufTy).Contents (Elt F)),
    StableHlo.binary main_v13 main_v15 main_v16 (mulf : (⟨S8x32x32x512, .f32⟩ : BufTy).Contents (Elt F) → (⟨S8x32x32x512, .f32⟩ : BufTy).Contents (Elt F) → (⟨S8x32x32x512, .f32⟩ : BufTy).Contents (Elt F)),
    StableHlo.unary main_arg2 main_v17 (broadcastInDim S1x1x1x512 ![3] bcast_S512_S1x1x1x512_3 : (⟨S512, .f32⟩ : BufTy).Contents (Elt F) → (⟨S1x1x1x512, .f32⟩ : BufTy).Contents (Elt F)),
    StableHlo.unary main_v17 main_v18 (broadcastInDim S8x32x32x512 ![0, 1, 2, 3] bcast_S1x1x1x512_S8x32x32x512_0_1_2_3 : (⟨S1x1x1x512, .f32⟩ : BufTy).Contents (Elt F) → (⟨S8x32x32x512, .f32⟩ : BufTy).Contents (Elt F)),
    StableHlo.binary main_v16 main_v18 main_v19 (addf : (⟨S8x32x32x512, .f32⟩ : BufTy).Contents (Elt F) → (⟨S8x32x32x512, .f32⟩ : BufTy).Contents (Elt F) → (⟨S8x32x32x512, .f32⟩ : BufTy).Contents (Elt F)) ]

/-- The remaining 34 operations: projection, the heads' attention, output projection, bias, residual. -/
abbrev opsA : List (HloOp τ sig (Elt F)) :=
  [ StableHlo.binary main_v19 main_arg3 main_v20 ((fun l r => Host.dotGeneral dot_S8x32x32x512_S512x1536_S8x32x32x1536_3_0_012_1_n_n none l r) : (⟨S8x32x32x512, .f32⟩ : BufTy).Contents (Elt F) → (⟨S512x1536, .f32⟩ : BufTy).Contents (Elt F) → (⟨S8x32x32x1536, .f32⟩ : BufTy).Contents (Elt F)),
    StableHlo.reshape main_v20 main_v21 rfl shapeCasts_S8x32x32x1536_S8x1024x8x192,
    StableHlo.unary main_v21 main_v22 ((transpose S8x8x192x1024 [0, 2, 3, 1] · transposes_S8x1024x8x192_S8x8x192x1024_0_2_3_1) : (⟨S8x1024x8x192, .f32⟩ : BufTy).Contents (Elt F) → (⟨S8x8x192x1024, .f32⟩ : BufTy).Contents (Elt F)),
    StableHlo.reshape main_v22 main_v23 rfl shapeCasts_S8x8x192x1024_S64x192x1024,
    StableHlo.unary main_v23 main_v24 ((extractStridedSlice S64x64x1024 ![0, 0, 0] · slices_S64x192x1024_S64x64x1024_0_0_0) : (⟨S64x192x1024, .f32⟩ : BufTy).Contents (Elt F) → (⟨S64x64x1024, .f32⟩ : BufTy).Contents (Elt F)),
    StableHlo.unary main_v23 main_v25 ((extractStridedSlice S64x64x1024 ![0, 64, 0] · slices_S64x192x1024_S64x64x1024_0_64_0) : (⟨S64x192x1024, .f32⟩ : BufTy).Contents (Elt F) → (⟨S64x64x1024, .f32⟩ : BufTy).Contents (Elt F)),
    StableHlo.unary main_v23 main_v26 ((extractStridedSlice S64x64x1024 ![0, 128, 0] · slices_S64x192x1024_S64x64x1024_0_128_0) : (⟨S64x192x1024, .f32⟩ : BufTy).Contents (Elt F) → (⟨S64x64x1024, .f32⟩ : BufTy).Contents (Elt F)),
    StableHlo.binary main_v24 main_v25 main_v27 ((fun l r => Host.dotGeneral dot_S64x64x1024_S64x64x1024_S64x1024x1024_1_1_2_2_0_0 none l r) : (⟨S64x64x1024, .f32⟩ : BufTy).Contents (Elt F) → (⟨S64x64x1024, .f32⟩ : BufTy).Contents (Elt F) → (⟨S64x1024x1024, .f32⟩ : BufTy).Contents (Elt F)),
    StableHlo.nullary main_cst_2 (constant S_ .f32 0x3E000000#32),
    StableHlo.unary main_cst_2 main_v28 (broadcastInDim S64x1024x1024 ![] bcast_S_S64x1024x1024 : (⟨S_, .f32⟩ : BufTy).Contents (Elt F) → (⟨S64x1024x1024, .f32⟩ : BufTy).Contents (Elt F)),
    StableHlo.binary main_v27 main_v28 main_v29 (mulf : (⟨S64x1024x1024, .f32⟩ : BufTy).Contents (Elt F) → (⟨S64x1024x1024, .f32⟩ : BufTy).Contents (Elt F) → (⟨S64x1024x1024, .f32⟩ : BufTy).Contents (Elt F)),
    StableHlo.nullary main_cst_3 (constant S_ .f32 0xFF800000#32),
    StableHlo.binary main_v29 main_cst_3 main_v30 ((fun x v => Host.reduce FloatOps.maximumf x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)),
    StableHlo.nullary main_cst_4 (constant S_ .f32 0xFF800000#32),
    StableHlo.unary main_cst_4 main_v31 (broadcastInDim S64x1024 ![] bcast_S_S64x1024 : (⟨S_, .f32⟩ : BufTy).Contents (Elt F) → (⟨S64x1024, .f32⟩ : BufTy).Contents (Elt F)),
    StableHlo.binary main_v31 main_v30 main_v32 (maximumf : (⟨S64x1024, .f32⟩ : BufTy).Contents (Elt F) → (⟨S64x1024, .f32⟩ : BufTy).Contents (Elt F) → (⟨S64x1024, .f32⟩ : BufTy).Contents (Elt F)),
    StableHlo.unary main_v32 main_v33 (broadcastInDim S64x1024x1 ![0, 1] bcast_S64x1024_S64x1024x1_0_1 : (⟨S64x1024, .f32⟩ : BufTy).Contents (Elt F) → (⟨S64x1024x1, .f32⟩ : BufTy).Contents (Elt F)),
    StableHlo.unary main_v33 main_v34 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    StableHlo.binary main_v29 main_v34 main_v35 (subf : (⟨S64x1024x1024, .f32⟩ : BufTy).Contents (Elt F) → (⟨S64x1024x1024, .f32⟩ : BufTy).Contents (Elt F) → (⟨S64x1024x1024, .f32⟩ : BufTy).Contents (Elt F)),
    StableHlo.unary main_v35 main_v36 (Host.exp : (⟨S64x1024x1024, .f32⟩ : BufTy).Contents (Elt F) → (⟨S64x1024x1024, .f32⟩ : BufTy).Contents (Elt F)),
    StableHlo.nullary main_cst_5 (constant S_ .f32 0x00000000#32),
    StableHlo.binary main_v36 main_cst_5 main_v37 ((fun x v => Host.reduceAdd x v reducesTo_S64x1024x1024_S64x1024_d2 h_S_) : (⟨S64x1024x1024, .f32⟩ : BufTy).Contents (Elt F) → (⟨S_, .f32⟩ : BufTy).Contents (Elt F) → (⟨S64x1024, .f32⟩ : BufTy).Contents (Elt F)),
    StableHlo.unary main_v37 main_v38 (broadcastInDim S64x1024x1 ![0, 1] bcast_S64x1024_S64x1024x1_0_1 : (⟨S64x1024, .f32⟩ : BufTy).Contents (Elt F) → (⟨S64x1024x1, .f32⟩ : BufTy).Contents (Elt F)),
    StableHlo.unary main_v38 main_v39 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    StableHlo.binary main_v36 main_v39 main_v40 (Host.divf : (⟨S64x1024x1024, .f32⟩ : BufTy).Contents (Elt F) → (⟨S64x1024x1024, .f32⟩ : BufTy).Contents (Elt F) → (⟨S64x1024x1024, .f32⟩ : BufTy).Contents (Elt F)),
    StableHlo.binary main_v40 main_v26 main_v41 ((fun l r => Host.dotGeneral dot_S64x1024x1024_S64x64x1024_S64x1024x64_2_2_1_1_0_0 none l r) : (⟨S64x1024x1024, .f32⟩ : BufTy).Contents (Elt F) → (⟨S64x64x1024, .f32⟩ : BufTy).Contents (Elt F) → (⟨S64x1024x64, .f32⟩ : BufTy).Contents (Elt F)),
    StableHlo.reshape main_v41 main_v42 rfl shapeCasts_S64x1024x64_S8x8x1024x64,
    StableHlo.unary main_v42 main_v43 ((transpose S8x1024x8x64 [0, 2, 1, 3] · transposes_S8x8x1024x64_S8x1024x8x64_0_2_1_3) : (⟨S8x8x1024x64, .f32⟩ : BufTy).Contents (Elt F) → (⟨S8x1024x8x64, .f32⟩ : BufTy).Contents (Elt F)),
    StableHlo.reshape main_v43 main_v44 rfl shapeCasts_S8x1024x8x64_S8x32x32x512,
    StableHlo.binary main_v44 main_arg4 main_v45 ((fun l r => Host.dotGeneral dot_S8x32x32x512_S512x512_S8x32x32x512_3_0_012_1_n_n none l r) : (⟨S8x32x32x512, .f32⟩ : BufTy).Contents (Elt F) → (⟨S512x512, .f32⟩ : BufTy).Contents (Elt F) → (⟨S8x32x32x512, .f32⟩ : BufTy).Contents (Elt F)),
    StableHlo.unary main_arg5 main_v46 (broadcastInDim S1x1x1x512 ![3] bcast_S512_S1x1x1x512_3 : (⟨S512, .f32⟩ : BufTy).Contents (Elt F) → (⟨S1x1x1x512, .f32⟩ : BufTy).Contents (Elt F)),
    StableHlo.unary main_v46 main_v47 (broadcastInDim S8x32x32x512 ![0, 1, 2, 3] bcast_S1x1x1x512_S8x32x32x512_0_1_2_3 : (⟨S1x1x1x512, .f32⟩ : BufTy).Contents (Elt F) → (⟨S8x32x32x512, .f32⟩ : BufTy).Contents (Elt F)),
    StableHlo.binary main_v45 main_v47 main_v48 (addf : (⟨S8x32x32x512, .f32⟩ : BufTy).Contents (Elt F) → (⟨S8x32x32x512, .f32⟩ : BufTy).Contents (Elt F) → (⟨S8x32x32x512, .f32⟩ : BufTy).Contents (Elt F)),
    StableHlo.binary main_v48 main_arg0 main_v49 (addf : (⟨S8x32x32x512, .f32⟩ : BufTy).Contents (Elt F) → (⟨S8x32x32x512, .f32⟩ : BufTy).Contents (Elt F) → (⟨S8x32x32x512, .f32⟩ : BufTy).Contents (Elt F)) ]

theorem ops_split : (ops : List (HloOp τ sig (Elt F))) = opsN ++ opsA := rfl

/-- Running two lines one after the other is running their concatenation. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.RefValue

end
-- ==== Proof.RefTermNorm.lean ====
/-
  The reference's group normalisation as one pure term of its three arguments: the value the host program
  computes for the normalised activations, written operation by operation in the order the program performs them.

  x5 is the input viewed as [8, 32, 32, 16, 32] (channel c = 32·g + j).  For every batch element b and group g the
  mean is (0 + Σ over (h, w, j) of x5) / 32768, kept as an [8, 1, 1, 16, 1] array; the variance routine recomputes
  that mean, subtracts it, squares, sums in the same way, divides by 32768 − 0 and selects the quotient because
  32768 − 0 > 0.  Then (x5 − mean) · rsqrt(var + ε), viewed back as [8, 32, 32, 512], times the scale, plus the bias.
-/
import proofs.«170573_j2095944040541_2_alg».proof.Proof.Gen.ReferenceIdeal
import proofs.«170573_j2095944040541_2_alg».proof.Proof.Spec

noncomputable section

namespace Cert.ReferenceIdeal.RefTerm

open Idealize.ShloMosaic Idealize.ShloMosaic.ValueIdx Cert.ReferenceIdeal
open Cert.ReferenceIdeal.Facts₀

/-- The input viewed with its channel axis split into 16 groups of 32. -/
def x5 (x : FVec Ideal S8x32x32x512 .f32) : FVec Ideal S8x32x32x16x32 .f32 :=
  shapeCast S8x32x32x16x32 x shapeCasts_S8x32x32x512_S8x32x32x16x32

/-- The sum over positions and over the channels of a group, from 0, kept with unit axes: [8, 1, 1, 16, 1]. -/
def gsum (y : FVec Ideal S8x32x32x16x32 .f32) : FVec Ideal S8x1x1x16x1 .f32 :=
  broadcastInDim S8x1x1x16x1 ![0, 3] bcast_S8x16_S8x1x1x16x1_0_3
    (Host.reduceAdd (F := Ideal) y (constant (F := Ideal) S_ .f32 0x00000000#32)
      reducesTo_S8x32x32x16x32_S8x16_d1_2_4 h_S_)

/-- The group mean: the group sum divided by the splat of 32768. -/
def gmean (y : FVec Ideal S8x32x32x16x32 .f32) : FVec Ideal S8x1x1x16x1 .f32 :=
  Host.divf (F := Ideal) (gsum y)
    (broadcastInDim S8x1x1x16x1 ![] bcast_S_S8x1x1x16x1 (constant (F := Ideal) S_ .f32 0x47000000#32))

/-- 32768 minus the correction (the integer 0 converted), a scalar. -/
def cnt : FVec Ideal S_ .f32 :=
  subf (constant (F := Ideal) S_ .f32 0x47000000#32) (sitofp (F := Ideal) .f32 (constantI S_ 32 0#32))

/-- The squared deviations from the group mean. -/
def sqdev (y : FVec Ideal S8x32x32x16x32 .f32) : FVec Ideal S8x32x32x16x32 .f32 :=
  mulf
    (subf y (broadcastInDim S8x32x32x16x32 ![0, 1, 2, 3, 4] bcast_S8x1x1x16x1_S8x32x32x16x32_0_1_2_3_4 (gmean y)))
    (subf y (broadcastInDim S8x32x32x16x32 ![0, 1, 2, 3, 4] bcast_S8x1x1x16x1_S8x32x32x16x32_0_1_2_3_4 (gmean y)))

/-- The variance routine's result: the summed squared deviations over the count, selected where the count is
    positive (and the not-a-number splat elsewhere). -/
def gvar (y : FVec Ideal S8x32x32x16x32 .f32) : FVec Ideal S8x1x1x16x1 .f32 :=
  select
    (broadcastInDim S8x1x1x16x1 ![] bcast_S_S8x1x1x16x1
      (cmpf (F := Ideal) .ogt cnt (constant (F := Ideal) S_ .f32 0x00000000#32)))
    (Host.divf (F := Ideal) (gsum (sqdev y)) (broadcastInDim S8x1x1x16x1 ![] bcast_S_S8x1x1x16x1 cnt))
    (broadcastInDim S8x1x1x16x1 ![] bcast_S_S8x1x1x16x1 (id (constant (F := Ideal) S_ .f32 0x7FC00000#32)))

/-- The normalised activations before scale and bias, at [8, 32, 32, 16, 32]. -/
def centred (y : FVec Ideal S8x32x32x16x32 .f32) : FVec Ideal S8x32x32x16x32 .f32 :=
  mulf
    (subf y (broadcastInDim S8x32x32x16x32 ![0, 1, 2, 3, 4] bcast_S8x1x1x16x1_S8x32x32x16x32_0_1_2_3_4 (gmean y)))
    (broadcastInDim S8x32x32x16x32 ![0, 1, 2, 3, 4] bcast_S8x1x1x16x1_S8x32x32x16x32_0_1_2_3_4
      (Host.rsqrt (F := Ideal)
        (addf (gvar y)
          (broadcastInDim S8x1x1x16x1 ![] bcast_S_S8x1x1x16x1 (constant (F := Ideal) S_ .f32 0x3727C5AC#32)))))

/-- A per-channel vector spread over the whole [8, 32, 32, 512] array. -/
def spread (s : FVec Ideal S512 .f32) : FVec Ideal S8x32x32x512 .f32 :=
  broadcastInDim S8x32x32x512 ![0, 1, 2, 3] bcast_S1x1x1x512_S8x32x32x512_0_1_2_3
    (broadcastInDim S1x1x1x512 ![3] bcast_S512_S1x1x1x512_3 s)

/-- The group-normalised activations: the value the host program hands to the projection. -/
def normed (x : FVec Ideal S8x32x32x512 .f32) (s bi : FVec Ideal S512 .f32) : FVec Ideal S8x32x32x512 .f32 :=
  addf
    (mulf (shapeCast S8x32x32x512 (centred (x5 x)) shapeCasts_S8x32x32x16x32_S8x32x32x512) (spread s))
    (spread bi)

end Cert.ReferenceIdeal.RefTerm

end
-- ==== Proof.RefTermAttn.lean ====
/-
  The reference's attention half as one pure term of its inputs: the projected columns, regrouped by head, the
  scores and their softmax along the key axis, the weighted sums of the value rows, the heads put back side by
  side, and the output projection with its bias and the residual. Every stage is the operation the program
  prints, applied to the stage before it.
-/
import proofs.«170573_j2095944040541_2_alg».proof.Proof.Gen.ReferenceIdeal
import proofs.«170573_j2095944040541_2_alg».proof.Proof.Spec

noncomputable section

namespace Cert.ReferenceIdeal.RefTerm

open Idealize.ShloMosaic Idealize.ShloMosaic.ValueIdx Cert.ReferenceIdeal
open Cert.ReferenceIdeal.Facts₀

/-- The 1536 projected columns of every position, regrouped: row 8·b + n is head n of batch element b, its 192
    columns by the 1024 positions. -/
def heads3 (v : FVec Ideal S8x32x32x512 .f32) (wq : FVec Ideal S512x1536 .f32) : FVec Ideal S64x192x1024 .f32 :=
  shapeCast S64x192x1024
    (transpose S8x8x192x1024 [0, 2, 3, 1]
      (shapeCast S8x1024x8x192
        (Host.dotGeneral (F := Ideal) dot_S8x32x32x512_S512x1536_S8x32x32x1536_3_0_012_1_n_n none v wq)
        shapeCasts_S8x32x32x1536_S8x1024x8x192)
      transposes_S8x1024x8x192_S8x8x192x1024_0_2_3_1)
    shapeCasts_S8x8x192x1024_S64x192x1024

/-- The query, key and value columns of every head. -/
def partQ (t : FVec Ideal S64x192x1024 .f32) : FVec Ideal S64x64x1024 .f32 :=
  extractStridedSlice S64x64x1024 ![0, 0, 0] t slices_S64x192x1024_S64x64x1024_0_0_0
def partK (t : FVec Ideal S64x192x1024 .f32) : FVec Ideal S64x64x1024 .f32 :=
  extractStridedSlice S64x64x1024 ![0, 64, 0] t slices_S64x192x1024_S64x64x1024_0_64_0
def partV (t : FVec Ideal S64x192x1024 .f32) : FVec Ideal S64x64x1024 .f32 :=
  extractStridedSlice S64x64x1024 ![0, 128, 0] t slices_S64x192x1024_S64x64x1024_0_128_0

/-- The scaled scores of every head: query position by key position. -/
def scores (q k : FVec Ideal S64x64x1024 .f32) : FVec Ideal S64x1024x1024 .f32 :=
  mulf (Host.dotGeneral (F := Ideal) dot_S64x64x1024_S64x64x1024_S64x1024x1024_1_1_2_2_0_0 none q k)
    (broadcastInDim S64x1024x1024 ![] bcast_S_S64x1024x1024 (constant (F := Ideal) S_ .f32 0x3E000000#32))

/-- The largest score of every query position. -/
def rowMax (s : FVec Ideal S64x1024x1024 .f32) : FVec Ideal S64x1024 .f32 :=
  maximumf (broadcastInDim S64x1024 ![] bcast_S_S64x1024 (constant (F := Ideal) S_ .f32 0xFF800000#32))
    (Host.reduce (FloatOps.maximumf (F := Ideal) (φ := .f32)) s (constant (F := Ideal) S_ .f32 0xFF800000#32)
      reducesTo_S64x1024x1024_S64x1024_d2 h_S_)

/-- The exponentials of the scores less their row's largest. -/
def expo (s : FVec Ideal S64x1024x1024 .f32) : FVec Ideal S64x1024x1024 .f32 :=
  Host.exp (F := Ideal)
    (subf s
      (broadcastInDim S64x1024x1024 ![0, 1, 2] bcast_S64x1024x1_S64x1024x1024_0_1_2
        (broadcastInDim S64x1024x1 ![0, 1] bcast_S64x1024_S64x1024x1_0_1 (rowMax s))))

/-- The exponentials over their row's sum. -/
def probs (e : FVec Ideal S64x1024x1024 .f32) : FVec Ideal S64x1024x1024 .f32 :=
  Host.divf (F := Ideal) e
    (broadcastInDim S64x1024x1024 ![0, 1, 2] bcast_S64x1024x1_S64x1024x1024_0_1_2
      (broadcastInDim S64x1024x1 ![0, 1] bcast_S64x1024_S64x1024x1_0_1
        (Host.reduceAdd (F := Ideal) e (constant (F := Ideal) S_ .f32 0x00000000#32)
          reducesTo_S64x1024x1024_S64x1024_d2 h_S_)))

/-- The weighted sums of the value rows of every head. -/
def weighted (p : FVec Ideal S64x1024x1024 .f32) (vv : FVec Ideal S64x64x1024 .f32) : FVec Ideal S64x1024x64 .f32 :=
  Host.dotGeneral (F := Ideal) dot_S64x1024x1024_S64x64x1024_S64x1024x64_2_2_1_1_0_0 none p vv

/-- The heads side by side again: channel 64·n + c of position (h, w) of batch element b. -/
def merged (o : FVec Ideal S64x1024x64 .f32) : FVec Ideal S8x32x32x512 .f32 :=
  shapeCast S8x32x32x512
    (transpose S8x1024x8x64 [0, 2, 1, 3]
      (shapeCast S8x8x1024x64 o shapeCasts_S64x1024x64_S8x8x1024x64)
      transposes_S8x8x1024x64_S8x1024x8x64_0_2_1_3)
    shapeCasts_S8x1024x8x64_S8x32x32x512

/-- The output projection, its bias, and the residual. -/
def projected (m : FVec Ideal S8x32x32x512 .f32) (wo : FVec Ideal S512x512 .f32) (bo : FVec Ideal S512 .f32)
    (x : FVec Ideal S8x32x32x512 .f32) : FVec Ideal S8x32x32x512 .f32 :=
  addf
    (addf (Host.dotGeneral (F := Ideal) dot_S8x32x32x512_S512x512_S8x32x32x512_3_0_012_1_n_n none m wo)
      (broadcastInDim S8x32x32x512 ![0, 1, 2, 3] bcast_S1x1x1x512_S8x32x32x512_0_1_2_3
        (broadcastInDim S1x1x1x512 ![3] bcast_S512_S1x1x1x512_3 bo)))
    x

/-- The reference's attention half: the result of the program as one term of the normalised input, the two weight
    matrices, the bias and the input. -/
def attend (v : FVec Ideal S8x32x32x512 .f32) (wq : FVec Ideal S512x1536 .f32) (wo : FVec Ideal S512x512 .f32)
    (bo : FVec Ideal S512 .f32) (x : FVec Ideal S8x32x32x512 .f32) : FVec Ideal S8x32x32x512 .f32 :=
  projected
    (merged
      (weighted (probs (expo (scores (partQ (heads3 v wq)) (partK (heads3 v wq))))) (partV (heads3 v wq))))
    wo bo x

end Cert.ReferenceIdeal.RefTerm

end
-- ==== Proof.RefRun.lean ====
/-
  What the reference program computes, read off its run.

  The program is a straight line of host operations (the list of the sibling module): every weakly fair execution
  terminates, each buffer ends at the fold of the operations over the launch contents, and the arguments are written
  by no operation. The fold is taken in two stages, cut at the normalised activations: the first stage's result is
  the group normalisation as a pure term of the input, the scale and the bias; the second stage's result is the
  attention half as a pure term of that value, the two weight matrices, the bias and the input.
-/
import proofs.«170573_j2095944040541_2_alg».proof.Proof.RefRunOps
import proofs.«170573_j2095944040541_2_alg».proof.Proof.RefTermNorm
import proofs.«170573_j2095944040541_2_alg».proof.Proof.RefTermAttn
import proofs.«170573_j2095944040541_2_alg».proof.Proof.Gen.Pre_finite_inputs
import proofs.«170573_j2095944040541_2_alg».proof.Defs

noncomputable section

namespace Cert.ReferenceIdeal.RefTerm

open Idealize.ShloMosaic Cert.ReferenceIdeal

/-- The whole reference as one pure term of its six arguments: the attention half applied to the normalised input. -/
def result (x : FVec Ideal S8x32x32x512 .f32) (s bi : FVec Ideal S512 .f32) (wq : FVec Ideal S512x1536 .f32)
    (wo : FVec Ideal S512x512 .f32) (bo : FVec Ideal S512 .f32) : FVec Ideal S8x32x32x512 .f32 :=
  attend (normed x s bi) wq wo bo x

end Cert.ReferenceIdeal.RefTerm

namespace Cert.ReferenceIdeal.RefValue

open Cert.ReferenceIdeal Cert.ReferenceIdeal.Gen Idealize.ShloMosaic Idealize.ShloMosaic.TcCoe Idealize.SL.Sem Idealize.ShloMosaic.StableHlo

/-! ## The first stage: the normalised activations

The fold of the first stage read at the buffer of the normalised activations is the composed term of the operations
that feed it; the callee's operations carry the identity transport between a value's type and its buffer's, so the
term and the stated one agree by computation. The reductions are kept folded meanwhile: the equation never looks
inside them. -/

attribute [local irreducible] Host.reduceAdd Host.reduce in
set_option maxRecDepth 8192 in
set_option maxHeartbeats 1000000 in
theorem normed_stage (V : Valuation τ sig (Elt Ideal)) :
    after (opsN (F := Ideal)) V (main_v19 : DevRef τ sig)
      = RefTerm.normed (V (main_arg0 : DevRef τ sig)) (V (main_arg1 : DevRef τ sig)) (V (main_arg2 : DevRef τ sig)) := by
  after_results_simp
  rfl

/-- No operation of the first stage writes an argument. -/
theorem normed_stage_arg0 (V : Valuation τ sig (Elt Ideal)) :
    after (opsN (F := Ideal)) V (main_arg0 : DevRef τ sig) = V (main_arg0 : DevRef τ sig) := by
  after_results_simp
theorem normed_stage_arg1 (V : Valuation τ sig (Elt Ideal)) :
    after (opsN (F := Ideal)) V (main_arg1 : DevRef τ sig) = V (main_arg1 : DevRef τ sig) := by
  after_results_simp
theorem normed_stage_arg2 (V : Valuation τ sig (Elt Ideal)) :
    after (opsN (F := Ideal)) V (main_arg2 : DevRef τ sig) = V (main_arg2 : DevRef τ sig) := by
  after_results_simp
theorem normed_stage_arg3 (V : Valuation τ sig (Elt Ideal)) :
    after (opsN (F := Ideal)) V (main_arg3 : DevRef τ sig) = V (main_arg3 : DevRef τ sig) := by
  after_results_simp
theorem normed_stage_arg4 (V : Valuation τ sig (Elt Ideal)) :
    after (opsN (F := Ideal)) V (main_arg4 : DevRef τ sig) = V (main_arg4 : DevRef τ sig) := by
  after_results_simp
theorem normed_stage_arg5 (V : Valuation τ sig (Elt Ideal)) :
    after (opsN (F := Ideal)) V (main_arg5 : DevRef τ sig) = V (main_arg5 : DevRef τ sig) := by
  after_results_simp

/-! ## The second stage: the attention half -/

attribute [local irreducible] Host.reduceAdd Host.reduce in
set_option maxRecDepth 8192 in
set_option maxHeartbeats 1000000 in
theorem attend_stage (W : Valuation τ sig (Elt Ideal)) :
    after (opsA (F := Ideal)) W (main_v49 : DevRef τ sig)
      = RefTerm.attend (W (main_v19 : DevRef τ sig)) (W (main_arg3 : DevRef τ sig)) (W (main_arg4 : DevRef τ sig))
          (W (main_arg5 : DevRef τ sig)) (W (main_arg0 : DevRef τ sig)) := by
  after_results_simp
  rfl

/-- No operation of the second stage writes an argument. -/
theorem attend_stage_arg0 (V : Valuation τ sig (Elt Ideal)) :
    after (opsA (F := Ideal)) V (main_arg0 : DevRef τ sig) = V (main_arg0 : DevRef τ sig) := by
  after_results_simp
theorem attend_stage_arg1 (V : Valuation τ sig (Elt Ideal)) :
    after (opsA (F := Ideal)) V (main_arg1 : DevRef τ sig) = V (main_arg1 : DevRef τ sig) := by
  after_results_simp
theorem attend_stage_arg2 (V : Valuation τ sig (Elt Ideal)) :
    after (opsA (F := Ideal)) V (main_arg2 : DevRef τ sig) = V (main_arg2 : DevRef τ sig) := by
  after_results_simp
theorem attend_stage_arg3 (V : Valuation τ sig (Elt Ideal)) :
    after (opsA (F := Ideal)) V (main_arg3 : DevRef τ sig) = V (main_arg3 : DevRef τ sig) := by
  after_results_simp
theorem attend_stage_arg4 (V : Valuation τ sig (Elt Ideal)) :
    after (opsA (F := Ideal)) V (main_arg4 : DevRef τ sig) = V (main_arg4 : DevRef τ sig) := by
  after_results_simp
theorem attend_stage_arg5 (V : Valuation τ sig (Elt Ideal)) :
    after (opsA (F := Ideal)) V (main_arg5 : DevRef τ sig) = V (main_arg5 : DevRef τ sig) := by
  after_results_simp

/-! ## The whole line -/

theorem v49_eq (V : Valuation τ sig (Elt Ideal)) :
    after (ops (F := Ideal)) V (main_v49 : DevRef τ sig)
      = RefTerm.result (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_split, after_app, attend_stage, normed_stage, normed_stage_arg0, normed_stage_arg3, normed_stage_arg4,
    normed_stage_arg5]
  rfl

theorem arg0_eq (V : Valuation τ sig (Elt Ideal)) :
    after (ops (F := Ideal)) V (main_arg0 : DevRef τ sig) = V (main_arg0 : DevRef τ sig) := by
  rw [ops_split, after_app, attend_stage_arg0, normed_stage_arg0]
theorem arg1_eq (V : Valuation τ sig (Elt Ideal)) :
    after (ops (F := Ideal)) V (main_arg1 : DevRef τ sig) = V (main_arg1 : DevRef τ sig) := by
  rw [ops_split, after_app, attend_stage_arg1, normed_stage_arg1]
theorem arg2_eq (V : Valuation τ sig (Elt Ideal)) :
    after (ops (F := Ideal)) V (main_arg2 : DevRef τ sig) = V (main_arg2 : DevRef τ sig) := by
  rw [ops_split, after_app, attend_stage_arg2, normed_stage_arg2]
theorem arg3_eq (V : Valuation τ sig (Elt Ideal)) :
    after (ops (F := Ideal)) V (main_arg3 : DevRef τ sig) = V (main_arg3 : DevRef τ sig) := by
  rw [ops_split, after_app, attend_stage_arg3, normed_stage_arg3]
theorem arg4_eq (V : Valuation τ sig (Elt Ideal)) :
    after (ops (F := Ideal)) V (main_arg4 : DevRef τ sig) = V (main_arg4 : DevRef τ sig) := by
  rw [ops_split, after_app, attend_stage_arg4, normed_stage_arg4]
theorem arg5_eq (V : Valuation τ sig (Elt Ideal)) :
    after (ops (F := Ideal)) V (main_arg5 : DevRef τ sig) = V (main_arg5 : DevRef τ sig) := by
  rw [ops_split, after_app, attend_stage_arg5, normed_stage_arg5]

/-- On every device, from any memory with zero counters: every weakly fair execution of the reference terminates
    with its result buffer at the composed term of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v49) = RefTerm.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v49).trans (v49_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

/-- The reference runs and leaves its arguments unchanged. -/
theorem frame_ref : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (run m ρ)

end Cert.ReferenceIdeal.RefValue

end
-- ==== Proof.RefNormA.lean ====
/-
  Layout and summation facts for the reference's group normalisation.

  * The host's sum of a rank-5 array [a, b, c, d, e] over axes 1, 2 and 4, read at (p, g): the initial value plus
    Σ_r Σ_s Σ_k x (p, r, s, g, k) — the indices whose kept coordinates are (p, g) correspond one to one to the
    triples (r, s, k).
  * A sum over a 32 × 32 grid of positions is the sum over the 1024 positions p = 32·r + s.
-/
import Idealize.ShloMosaic.PureOps.Ideal.Laws
import Idealize.ShloMosaic.Lib.ValueIdx
import Idealize.ShloMosaic.Lib.Pipeline.Value
import Idealize.ShloMosaic.Lib.IdealHost
import proofs.«170573_j2095944040541_2_alg».proof.Proof.Spec

noncomputable section

namespace Cert.ReferenceIdeal.RefValue

open Idealize.ShloMosaic Idealize.ShloMosaic.ValueIdx

/-- Dropping coordinates 1, 2 and 4 of (p, r, s, g, k) leaves (p, g). -/
theorem drop_124_0 {a b c d e : Nat} (h : (⟨5, ![a, b, c, d, e]⟩ : Shape).ReducesTo [1, 2, 4] ⟨2, ![a, d]⟩)
    (i : (⟨5, ![a, b, c, d, e]⟩ : Shape).Idx) : ((h.drop i) 0).val = (i 0).val :=
  rfl

theorem drop_124_1 {a b c d e : Nat} (h : (⟨5, ![a, b, c, d, e]⟩ : Shape).ReducesTo [1, 2, 4] ⟨2, ![a, d]⟩)
    (i : (⟨5, ![a, b, c, d, e]⟩ : Shape).Idx) : ((h.drop i) 1).val = (i 3).val :=
  rfl

/-- The host's reduction of [a, b, c, d, e] over axes 1, 2 and 4, read at (p, g). -/
theorem hostSum_124 {a b c d e : Nat} (h : (⟨5, ![a, b, c, d, e]⟩ : Shape).ReducesTo [1, 2, 4] ⟨2, ![a, d]⟩)
    (x : (⟨5, ![a, b, c, d, e]⟩ : Shape).Idx → EReal) (init : EReal) (p : Fin a) (g : Fin d) :
    Ideal.hostReduceAdd h x init (ix2 p g)
      = init + ∑ r : Fin b, ∑ s : Fin c, ∑ k : Fin e, x (ix5 p r s g k) := by
  unfold Ideal.hostReduceAdd
  congr 1
  have e1 : (∑ r : Fin b, ∑ s : Fin c, ∑ k : Fin e, x (ix5 p r s g k))
      = ∑ t : Fin b × Fin c × Fin e, x (ix5 p t.1 t.2.1 g t.2.2) := by
    rw [Fintype.sum_prod_type]
    refine Finset.sum_congr rfl fun r _ => ?_
    rw [Fintype.sum_prod_type]
  rw [e1]
  have h0 : ∀ i : (⟨5, ![a, b, c, d, e]⟩ : Shape).Idx, h.drop i = ix2 p g → ix5 p (i 1) (i 2) g (i 4) = i := by
    intro i hi
    have e0 : (i 0).val = p.val := (drop_124_0 h i).symm.trans (congrArg (fun j => (j 0).val) hi)
    have e3 : (i 3).val = g.val := (drop_124_1 h i).symm.trans (congrArg (fun j => (j 1).val) hi)
    funext q; apply Fin.ext
    match q with
    | ⟨0, _⟩ => exact e0.symm
    | ⟨1, _⟩ => rfl
    | ⟨2, _⟩ => rfl
    | ⟨3, _⟩ => exact e3.symm
    | ⟨4, _⟩ => rfl
  refine Finset.sum_nbij' (fun i => ((i 1, i 2, i 4) : Fin b × Fin c × Fin e))
    (fun t => ix5 p t.1 t.2.1 g t.2.2) ?_ ?_ ?_ ?_ ?_
  · intro i _; exact Finset.mem_univ _
  · intro t _
    refine Finset.mem_filter.2 ⟨Finset.mem_univ _, ?_⟩
    funext q; apply Fin.ext
    match q with
    | ⟨0, _⟩ => exact drop_124_0 h (ix5 p t.1 t.2.1 g t.2.2)
    | ⟨1, _⟩ => exact drop_124_1 h (ix5 p t.1 t.2.1 g t.2.2)
  · intro i hi; exact h0 i (Finset.mem_filter.1 hi).2
  · intro t _; rfl
  · intro i hi; exact congrArg x (h0 i (Finset.mem_filter.1 hi).2).symm

/-- The 32 × 32 grid of positions and the 1024 positions p = 32·r + s correspond one to one. -/
def gridEquiv : Fin 32 × Fin 32 ≃ Fin 1024 where
  toFun rs := Cert.AttnSpec.pos rs.1 rs.2
  invFun p := (Cert.AttnSpec.prow p, Cert.AttnSpec.pcol p)
  left_inv rs := Prod.ext (Cert.AttnSpec.prow_pos rs.1 rs.2) (Cert.AttnSpec.pcol_pos rs.1 rs.2)
  right_inv p := Cert.AttnSpec.pos_prow_pcol p

/-- A sum over the 32 × 32 grid is the sum over the 1024 positions. -/
theorem sum_grid {M : Type} [AddCommMonoid M] (f : Fin 32 → Fin 32 → M) :
    (∑ r : Fin 32, ∑ s : Fin 32, f r s) = ∑ p : Fin 1024, f (Cert.AttnSpec.prow p) (Cert.AttnSpec.pcol p) := by
  rw [← Fintype.sum_prod_type' (f := f)]
  refine (Fintype.sum_equiv gridEquiv.symm (fun p => f (Cert.AttnSpec.prow p) (Cert.AttnSpec.pcol p))
    (fun rs => f rs.1 rs.2) ?_).symm
  intro p
  rfl

end Cert.ReferenceIdeal.RefValue

end
-- ==== Proof.RefNormB.lean ====
/-
  The reference's layout operations and constants read at an index.

  * The view [8, 32, 32, 512] → [8, 32, 32, 16, 32] sends channel 32·g + j to (g, j); the view back sends
    (g, j) to channel 32·g + j, so channel c is read at (c div 32, c mod 32).
  * The kept-axes broadcast [8, 16] → [8, 1, 1, 16, 1] reads (b, g); the broadcast [8, 1, 1, 16, 1] →
    [8, 32, 32, 16, 32] reads (b, 0, 0, g, 0); a per-channel vector spread over [8, 32, 32, 512] reads the channel.
  * The word 0x47000000 is 32768 and the word 0x38000000 is 1/32768; 32768 − 0 is 32768, which is positive.
-/
import proofs.«170573_j2095944040541_2_alg».proof.Proof.RefTermNorm
import Idealize.ShloMosaic.Lib.Pipeline.Value
import Idealize.ShloMosaic.Lib.IdealHost

noncomputable section

namespace Cert.ReferenceIdeal.RefValue

open Idealize.ShloMosaic Idealize.ShloMosaic.ValueIdx Cert.ReferenceIdeal Cert.AttnSpec

/-- The place of a channel inside its group. -/
def lane32 (c : Fin 512) : Fin 32 := ⟨c.val % 32, Nat.mod_lt _ (by norm_num)⟩

theorem ch_grp_lane32 (c : Fin 512) : ch (grp c) (lane32 c) = c := by
  apply Fin.ext; simp only [ch, grp, lane32]; omega

variable {α : Type}

/-- The five-axis view of the input at (b, h, w, g, j) is the input at channel 32·g + j. -/
theorem cast5_apply (x : S8x32x32x512.Idx → α) (hc : S8x32x32x512.ShapeCasts S8x32x32x16x32)
    (b : Fin 8) (h w : Fin 32) (g : Fin 16) (j : Fin 32) :
    shapeCast S8x32x32x16x32 x hc (ix5 b h w g j) = x (ix4 b h w (ch g j)) :=
  shapeCast_apply x hc _ _ (by
    rw [Shape.rowMajor_val_four, Shape.rowMajor_val_five]
    show ((b.val * 32 + h.val) * 32 + w.val) * 512 + (g.val * 32 + j.val)
      = (((b.val * 32 + h.val) * 32 + w.val) * 16 + g.val) * 32 + j.val
    omega)

/-- The four-axis view of a five-axis array at channel c is the array at (c div 32, c mod 32). -/
theorem cast4_apply (y : S8x32x32x16x32.Idx → α) (hc : S8x32x32x16x32.ShapeCasts S8x32x32x512)
    (b : Fin 8) (h w : Fin 32) (c : Fin 512) :
    shapeCast S8x32x32x512 y hc (ix4 b h w c) = y (ix5 b h w (grp c) (lane32 c)) :=
  shapeCast_apply y hc _ _ (by
    rw [Shape.rowMajor_val_four, Shape.rowMajor_val_five]
    show (((b.val * 32 + h.val) * 32 + w.val) * 16 + c.val / 32) * 32 + c.val % 32
      = ((b.val * 32 + h.val) * 32 + w.val) * 512 + c.val
    omega)

/-- The kept-axes broadcast [8, 16] → [8, 1, 1, 16, 1] reads (b, g). -/
theorem keep_apply (v : S8x16.Idx → α) (hb : S8x16.BroadcastsInDim S8x1x1x16x1 (![0, 3] : Fin 2 → Fin S8x1x1x16x1.rank))
    (b : Fin 8) (u u' : Fin 1) (g : Fin 16) (t : Fin 1) :
    broadcastInDim S8x1x1x16x1 ![0, 3] hb v (ix5 b u u' g t) = v (ix2 b g) :=
  broadcastInDim_apply _ hb v _ _ (by
    intro a
    match a with
    | ⟨0, _⟩ => rfl
    | ⟨1, _⟩ => rfl)

/-- The broadcast [8, 1, 1, 16, 1] → [8, 32, 32, 16, 32] reads (b, 0, 0, g, 0). -/
theorem full_apply (v : S8x1x1x16x1.Idx → α)
    (hb : S8x1x1x16x1.BroadcastsInDim S8x32x32x16x32 (![0, 1, 2, 3, 4] : Fin 5 → Fin S8x32x32x16x32.rank))
    (b : Fin 8) (h w : Fin 32) (g : Fin 16) (j : Fin 32) :
    broadcastInDim S8x32x32x16x32 ![0, 1, 2, 3, 4] hb v (ix5 b h w g j)
      = v (ix5 b (0 : Fin 1) (0 : Fin 1) g (0 : Fin 1)) :=
  broadcastInDim_apply _ hb v _ _ (by
    intro a
    match a with
    | ⟨0, _⟩ => rfl
    | ⟨1, _⟩ => rfl
    | ⟨2, _⟩ => rfl
    | ⟨3, _⟩ => rfl
    | ⟨4, _⟩ => rfl)

/-- A per-channel vector spread over the whole array reads the channel. -/
theorem spread_apply (s : FVec Ideal S512 .f32) (b : Fin 8) (h w : Fin 32) (c : Fin 512) :
    RefTerm.spread s (ix4 b h w c) = s (ix1 c) := by
  unfold RefTerm.spread
  refine (broadcastInDim_apply _ _ _ _ (ix4 (0 : Fin 1) (0 : Fin 1) (0 : Fin 1) c) ?_).trans ?_
  · intro a
    match a with
    | ⟨0, _⟩ => rfl
    | ⟨1, _⟩ => rfl
    | ⟨2, _⟩ => rfl
    | ⟨3, _⟩ => rfl
  · refine broadcastInDim_apply _ _ _ _ (ix1 c) ?_
    intro a
    match a with
    | ⟨0, _⟩ => rfl

/-- The word 0x47000000 is the real 32768. -/
theorem ofBits_32768 : Ideal.ofBits .f32 0x47000000#32 = ((32768 : ℝ) : EReal) := by
  simp [Ideal.ofBits, Ideal.ieee, -EReal.coe_mul]; norm_num

/-- The word 0x38000000 is the real 1/32768. -/
theorem ofBits_inv32768 : Ideal.ofBits .f32 0x38000000#32 = (((1 : ℝ) / 32768 : ℝ) : EReal) := by
  simp [Ideal.ofBits, Ideal.ieee, -EReal.coe_mul]; norm_num

/-- Division by the word 32768 is multiplication by the word 1/32768, at every extended real. -/
theorem div_32768 (z : EReal) : Ideal.div z (Ideal.ofBits .f32 0x47000000#32) = z * invN := by
  show _ = z * Ideal.ofBits .f32 0x38000000#32
  rw [ofBits_32768, ofBits_inv32768]
  exact Ideal.div_coe (by norm_num) z

/-- The count 32768 − 0. -/
theorem cnt_apply (i : S_.Idx) : RefTerm.cnt i = Ideal.ofBits .f32 0x47000000#32 := by
  show Ideal.ofBits .f32 0x47000000#32 - (((0#32 : BitVec 32).toInt : ℝ) : EReal) = _
  have : ((0#32 : BitVec 32).toInt : ℝ) = 0 := by norm_num
  rw [this, EReal.coe_zero, sub_zero]

/-- The count is positive: the comparison's bit is set. -/
theorem cnt_pos (i : S_.Idx) :
    cmpf (F := Ideal) .ogt RefTerm.cnt (constant (F := Ideal) S_ .f32 0x00000000#32) i = 1#1 := by
  show Ideal.cmp .ogt (RefTerm.cnt i) (Ideal.ofBits .f32 0x00000000#32) = 1#1
  rw [cnt_apply, Ideal.ofBits_zero_f32, ofBits_32768]
  have : (0 : EReal) < ((32768 : ℝ) : EReal) := by exact_mod_cast (by norm_num : (0 : ℝ) < 32768)
  simp [Ideal.cmp, this]

end Cert.ReferenceIdeal.RefValue

end
-- ==== Proof.RefNorm.lean ====
/-
  The reference's group-normalised activations read at an index are the specification's normalised entry.

  With X the 1024 × 512 matrix of batch element b (position p = 32·h + w), the five-axis view of the input at
  (b, r, s, g, k) is X (32·r + s) (32·g + k).  The group sum over (r, s, k) is therefore Σ_p Σ_j X p (32g + j); divided by
  32768 it is the specification's mean (a quotient by 32768 is a product with 2⁻¹⁵ at every extended real).  The
  variance routine's selected quotient is the specification's variance, and the entry
  (x − mean) · rsqrt(var + ε) · scale + bias follows.
-/
import proofs.«170573_j2095944040541_2_alg».proof.Proof.RefNormA
import proofs.«170573_j2095944040541_2_alg».proof.Proof.RefNormB

noncomputable section

namespace Cert.ReferenceIdeal.RefValue

open Idealize.ShloMosaic Idealize.ShloMosaic.ValueIdx Cert.ReferenceIdeal Cert.AttnSpec

/-- Selecting on a set bit takes the first value. -/
theorem select_one {α : Type} (a b : α) : Scalar.select (1#1) a b = a := by
  simp [Scalar.select]

/-- The group sum at (b, ·, ·, g, ·): the sum over the grid and over the group's channels. -/
theorem gsum_apply (y : FVec Ideal S8x32x32x16x32 .f32) (b : Fin 8) (u u' : Fin 1) (g : Fin 16) (t : Fin 1) :
    RefTerm.gsum y (ix5 b u u' g t) = ∑ r : Fin 32, ∑ s : Fin 32, ∑ k : Fin 32, y (ix5 b r s g k) := by
  unfold RefTerm.gsum
  refine (keep_apply _ _ b u u' g t).trans ?_
  refine (hostReduceAdd_apply y _ _ _ (ix2 b g)).trans ?_
  refine (hostSum_124 _ y _ b g).trans ?_
  show Ideal.ofBits .f32 0x00000000#32 + _ = _
  rw [Ideal.ofBits_zero_f32, zero_add]

/-- The group mean: the group sum times 2⁻¹⁵. -/
theorem gmean_apply (y : FVec Ideal S8x32x32x16x32 .f32) (b : Fin 8) (u u' : Fin 1) (g : Fin 16) (t : Fin 1) :
    RefTerm.gmean y (ix5 b u u' g t) = (∑ r : Fin 32, ∑ s : Fin 32, ∑ k : Fin 32, y (ix5 b r s g k)) * invN := by
  unfold RefTerm.gmean
  refine (hostDivf_apply _ _ _).trans ?_
  rw [gsum_apply, broadcastInDim_scalar_apply]
  exact div_32768 _

/-- A squared deviation. -/
theorem sqdev_apply (y : FVec Ideal S8x32x32x16x32 .f32) (b : Fin 8) (h w : Fin 32) (g : Fin 16) (j : Fin 32) :
    RefTerm.sqdev y (ix5 b h w g j)
      = (y (ix5 b h w g j) - RefTerm.gmean y (ix5 b (0 : Fin 1) (0 : Fin 1) g (0 : Fin 1)))
        * (y (ix5 b h w g j) - RefTerm.gmean y (ix5 b (0 : Fin 1) (0 : Fin 1) g (0 : Fin 1))) := by
  unfold RefTerm.sqdev
  show (y _ - broadcastInDim _ _ _ _ _) * (y _ - broadcastInDim _ _ _ _ _) = _
  rw [full_apply]

/-- The variance routine's result: the summed squared deviations times 2⁻¹⁵ (the count 32768 − 0 is positive, so the
    quotient is the one selected). -/
theorem gvar_apply (y : FVec Ideal S8x32x32x16x32 .f32) (b : Fin 8) (u u' : Fin 1) (g : Fin 16) (t : Fin 1) :
    RefTerm.gvar y (ix5 b u u' g t)
      = (∑ r : Fin 32, ∑ s : Fin 32, ∑ k : Fin 32, RefTerm.sqdev y (ix5 b r s g k)) * invN := by
  unfold RefTerm.gvar
  have hc : broadcastInDim S8x1x1x16x1 ![] Facts₀.bcast_S_S8x1x1x16x1
      (cmpf (F := Ideal) .ogt RefTerm.cnt (constant (F := Ideal) S_ .f32 0x00000000#32)) (ix5 b u u' g t) = 1#1 := by
    rw [broadcastInDim_scalar_apply]; exact cnt_pos _
  show Scalar.select (broadcastInDim S8x1x1x16x1 ![] Facts₀.bcast_S_S8x1x1x16x1
      (cmpf (F := Ideal) .ogt RefTerm.cnt (constant (F := Ideal) S_ .f32 0x00000000#32)) (ix5 b u u' g t)) _ _ = _
  rw [hc, select_one]
  refine (hostDivf_apply _ _ _).trans ?_
  rw [gsum_apply, broadcastInDim_scalar_apply, cnt_apply]
  exact div_32768 _

/-- The normalised entry before scale and bias. -/
theorem centred_apply (y : FVec Ideal S8x32x32x16x32 .f32) (b : Fin 8) (h w : Fin 32) (g : Fin 16) (j : Fin 32) :
    RefTerm.centred y (ix5 b h w g j)
      = (y (ix5 b h w g j) - RefTerm.gmean y (ix5 b (0 : Fin 1) (0 : Fin 1) g (0 : Fin 1)))
        * Ideal.rsqrt (RefTerm.gvar y (ix5 b (0 : Fin 1) (0 : Fin 1) g (0 : Fin 1)) + eps) := by
  unfold RefTerm.centred
  show (y _ - broadcastInDim _ _ _ _ _) * broadcastInDim _ _ _ _ _ = _
  rw [full_apply, full_apply]
  show _ * Ideal.rsqrt (RefTerm.gvar y _ + broadcastInDim _ _ _ _ _) = _
  rw [broadcastInDim_scalar_apply]
  rfl

/-- The reference's group-normalised activations at (b, h, w, c) are the specification's entry at position 32·h + w. -/
theorem normed_apply (x : FVec Ideal S8x32x32x512 .f32) (s bi : FVec Ideal S512 .f32) (b : Fin 8) (h w : Fin 32)
    (c : Fin 512) :
    RefTerm.normed x s bi (ix4 b h w c)
      = Cert.AttnSpec.xn (Cert.AttnSpec.slab x b) (fun c => s (ix1 c)) (fun c => bi (ix1 c)) (Cert.AttnSpec.pos h w) c := by
  have hx : ∀ (r s' : Fin 32) (g : Fin 16) (k : Fin 32),
      RefTerm.x5 x (ix5 b r s' g k) = slab x b (pos r s') (ch g k) := by
    intro r s' g k
    unfold RefTerm.x5
    rw [cast5_apply]
    show x (ix4 b r s' (ch g k)) = x (ix4 b (prow (pos r s')) (pcol (pos r s')) (ch g k))
    rw [prow_pos, pcol_pos]
  have hm : ∀ g : Fin 16,
      RefTerm.gmean (RefTerm.x5 x) (ix5 b (0 : Fin 1) (0 : Fin 1) g (0 : Fin 1)) = mean (slab x b) g := by
    intro g
    rw [gmean_apply]
    unfold mean
    congr 1
    refine (sum_grid _).trans ?_
    refine Finset.sum_congr rfl fun p _ => Finset.sum_congr rfl fun j _ => ?_
    rw [hx, pos_prow_pcol]
  have hd : ∀ (r s' : Fin 32) (g : Fin 16) (k : Fin 32),
      RefTerm.x5 x (ix5 b r s' g k) - RefTerm.gmean (RefTerm.x5 x) (ix5 b (0 : Fin 1) (0 : Fin 1) g (0 : Fin 1))
        = dif (slab x b) (pos r s') (ch g k) := by
    intro r s' g k
    rw [hx, hm]
    unfold dif
    rw [grp_ch]
  have hv : ∀ g : Fin 16,
      RefTerm.gvar (RefTerm.x5 x) (ix5 b (0 : Fin 1) (0 : Fin 1) g (0 : Fin 1)) = var (slab x b) g := by
    intro g
    rw [gvar_apply]
    unfold var
    congr 1
    refine (sum_grid _).trans ?_
    refine Finset.sum_congr rfl fun p _ => Finset.sum_congr rfl fun j _ => ?_
    rw [sqdev_apply, hd, pos_prow_pcol]
  unfold RefTerm.normed
  show shapeCast S8x32x32x512 (RefTerm.centred (RefTerm.x5 x)) _ (ix4 b h w c) * RefTerm.spread s (ix4 b h w c)
      + RefTerm.spread bi (ix4 b h w c) = _
  rw [cast4_apply, spread_apply, spread_apply, centred_apply, hd, hv, ch_grp_lane32]
  rfl

end Cert.ReferenceIdeal.RefValue

end
-- ==== Proof.RefAttnA.lean ====
/-
  The three matrix products of an attention block in a host program, each read at an index on the extended reals
  (where the host's schedule of the additions does not matter):

  * a `[A, B, C, K]` array by a `[K, N]` matrix, the last axis contracted with the first (a channel matmul,
    `einsum('bhwc,cd->bhwd')`): at `(a, b, c, n)` it is `Σ_k X(a, b, c, k) · W(k, n)`;
  * two stacks `[B, K, M]` and `[B, K, N]`, batch axis 0, the middle axes contracted (`einsum('bcq,bck->bqk')`): at
    `(b, i, j)` it is `Σ_k L(b, k, i) · R(b, k, j)`;
  * two stacks `[B, M, K]` and `[B, N, K]`, batch axis 0, the last axes contracted (`einsum('bqk,bck->bqc')`): at
    `(b, i, j)` it is `Σ_k L(b, i, k) · R(b, j, k)`.

  Each is stated for ANY record of dimension numbers with the six lists of that product, each hypothesis closed by
  `rfl` at a printed record.
-/
import Idealize.ShloMosaic.Lib.ValueIdx
import Idealize.ShloMosaic.Lib.Pipeline.Value
import Idealize.ShloMosaic.PureOps.Ideal.Laws

noncomputable section

open scoped BigOperators

namespace Cert.RefAttnA

open Idealize.ShloMosaic Idealize.ShloMosaic.ValueIdx

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

section general
variable {sl sr so : Shape} (d : DotDims sl sr so)

/-- A batch axis of the left operand reads the result's index at its place among the batch axes. -/
theorem lhsIdx_batch_val (j : so.Idx) (k : d.contr.Idx) (a : Fin sl.rank) (hb : a ∈ d.lhsBatch)
    (p : Nat) (hp : p < so.rank) (e : d.lhsBatch.idxOf a = p) : (d.lhsIdx j k a).val = (j ⟨p, hp⟩).val := by
  unfold DotDims.lhsIdx
  rw [dif_pos hb, Fin.val_cast]
  exact coord_congr j _ p _ hp e

/-- A free axis of the left operand reads the result's index after the batch axes. -/
theorem lhsIdx_free_val (j : so.Idx) (k : d.contr.Idx) (a : Fin sl.rank) (hb : a ∉ d.lhsBatch)
    (hn : a ∈ d.lhsNonContracting) (p : Nat) (hp : p < so.rank)
    (e : d.lhsBatch.length + d.lhsNonContracting.idxOf a = p) : (d.lhsIdx j k a).val = (j ⟨p, hp⟩).val := by
  unfold DotDims.lhsIdx
  rw [dif_neg hb, dif_pos hn, Fin.val_cast]
  exact coord_congr j _ p _ hp e

/-- A batch axis of the right operand reads the result's index at its place among the batch axes. -/
theorem rhsIdx_batch_val (j : so.Idx) (k : d.contr.Idx) (a : Fin sr.rank) (hb : a ∈ d.rhsBatch)
    (p : Nat) (hp : p < so.rank) (e : d.rhsBatch.idxOf a = p) : (d.rhsIdx j k a).val = (j ⟨p, hp⟩).val := by
  unfold DotDims.rhsIdx
  rw [dif_pos hb, Fin.val_cast]
  exact coord_congr j _ p _ hp e

/-- A free axis of the right operand reads the result's index after the batch axes and the left operand's free axes. -/
theorem rhsIdx_free_val (j : so.Idx) (k : d.contr.Idx) (a : Fin sr.rank) (hb : a ∉ d.rhsBatch)
    (hn : a ∈ d.rhsNonContracting) (p : Nat) (hp : p < so.rank)
    (e : d.lhsBatch.length + d.lhsNonContracting.length + d.rhsNonContracting.idxOf a = p) :
    (d.rhsIdx j k a).val = (j ⟨p, hp⟩).val := by
  unfold DotDims.rhsIdx
  rw [dif_neg hb, dif_pos hn, Fin.val_cast]
  exact coord_congr j _ p _ hp e

/-- One contracted axis: the contraction ranges over one axis. -/
theorem contr_rank_one {c : Fin sl.rank} (hlc : d.lhsContracting = [c]) : d.contr.rank = 1 := by
  rw [d.rank_contr, hlc]; rfl

theorem contr_size_one {c : Fin sl.rank} (hlc : d.lhsContracting = [c]) :
    d.contr.size ⟨0, by rw [contr_rank_one d hlc]; exact Nat.one_pos⟩ = sl.size c := by
  rw [d.size_contr 0 (by rw [hlc]; exact Nat.one_pos), List.getElem_of_eq hlc]
  rfl

end general

/-! ## `[A, B, C, K] · [K, N]` -/

section channel
variable {A B C K N : Nat} (d : DotDims ⟨4, ![A, B, C, K]⟩ ⟨2, ![K, N]⟩ ⟨4, ![A, B, C, N]⟩)

/-- The host's channel product, at `(a, b, c, n)`, is `Σ_k X(a, b, c, k) · W(k, n)`. -/
theorem hostDot_channel_apply {φ₁ φ₂ : FTy}
    (hlc : d.lhsContracting = [3]) (hrc : d.rhsContracting = [0])
    (hln : d.lhsNonContracting = [0, 1, 2]) (hrn : d.rhsNonContracting = [1])
    (hlb : d.lhsBatch = []) (hrb : d.rhsBatch = [])
    (prec : Option ContractPrecision) (X : FVec Ideal ⟨4, ![A, B, C, K]⟩ φ₁) (W : FVec Ideal ⟨2, ![K, N]⟩ φ₂)
    (a : Fin A) (b : Fin B) (c : Fin C) (n : Fin N) :
    Host.dotGeneral d prec X W (ix4 a b c n) = ∑ k : Fin K, X (ix4 a b c k) * W (ix2 k n) := by
  have hr := contr_rank_one d hlc
  have hs : d.contr.size ⟨0, by omega⟩ = K := contr_size_one d hlc
  have nb : ∀ x : Fin 4, x ∉ d.lhsBatch := fun x => by rw [hlb]; exact List.not_mem_nil
  have nb' : ∀ x : Fin 2, x ∉ d.rhsBatch := fun x => by rw [hrb]; exact List.not_mem_nil
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix4 a b c n) ((contrEquiv1 d K hr hs).symm k) = ix4 a b c k := funext fun x => Fin.ext (by
    match x with
    | ⟨0, _⟩ => exact lhsIdx_free_val d _ _ 0 (nb 0) (by rw [hln]; simp) 0 (by show 0 < 4; omega) (by rw [hlb, hln]; rfl)
    | ⟨1, _⟩ => exact lhsIdx_free_val d _ _ 1 (nb 1) (by rw [hln]; simp) 1 (by show 1 < 4; omega) (by rw [hlb, hln]; rfl)
    | ⟨2, _⟩ => exact lhsIdx_free_val d _ _ 2 (nb 2) (by rw [hln]; simp) 2 (by show 2 < 4; omega) (by rw [hlb, hln]; rfl)
    | ⟨3, _⟩ => exact (d.lhsIdx_val_of_single hlc _ _).trans hk)
  have er : d.rhsIdx (ix4 a b c n) ((contrEquiv1 d K hr hs).symm k) = ix2 k n := funext fun x => Fin.ext (by
    match x with
    | ⟨0, _⟩ => exact (d.rhsIdx_val_of_single hrc _ _).trans hk
    | ⟨1, _⟩ => exact rhsIdx_free_val d _ _ 1 (nb' 1) (by rw [hrn]; simp) 3 (by show 3 < 4; omega) (by rw [hlb, hln, hrn]; rfl))
  rw [el, er]

end channel

/-! ## `[B, K, M]` with `[B, K, N]`, the middle axes contracted -/

section middle
variable {B K M N : Nat} (d : DotDims ⟨3, ![B, K, M]⟩ ⟨3, ![B, K, N]⟩ ⟨3, ![B, M, N]⟩)

/-- The host's batched product over the middle axes, at `(b, i, j)`, is `Σ_k L(b, k, i) · R(b, k, j)`. -/
theorem hostDot_middle_apply {φ₁ φ₂ : FTy}
    (hlc : d.lhsContracting = [1]) (hrc : d.rhsContracting = [1])
    (hln : d.lhsNonContracting = [2]) (hrn : d.rhsNonContracting = [2])
    (hlb : d.lhsBatch = [0]) (hrb : d.rhsBatch = [0])
    (prec : Option ContractPrecision) (L : FVec Ideal ⟨3, ![B, K, M]⟩ φ₁) (R : FVec Ideal ⟨3, ![B, K, N]⟩ φ₂)
    (b : Fin B) (i : Fin M) (j : Fin N) :
    Host.dotGeneral d prec L R (ix3 b i j) = ∑ k : Fin K, L (ix3 b k i) * R (ix3 b k j) := by
  have hr := contr_rank_one d hlc
  have hs : d.contr.size ⟨0, by omega⟩ = K := contr_size_one d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix3 b i j) ((contrEquiv1 d K hr hs).symm k) = ix3 b k i := funext fun x => Fin.ext (by
    match x with
    | ⟨0, _⟩ => exact lhsIdx_batch_val d _ _ 0 (by rw [hlb]; simp) 0 (by show 0 < 3; omega) (by rw [hlb]; rfl)
    | ⟨1, _⟩ => exact (d.lhsIdx_val_of_single hlc _ _).trans hk
    | ⟨2, _⟩ => exact lhsIdx_free_val d _ _ 2 (by rw [hlb]; simp) (by rw [hln]; simp) 1 (by show 1 < 3; omega) (by rw [hlb, hln]; rfl))
  have er : d.rhsIdx (ix3 b i j) ((contrEquiv1 d K hr hs).symm k) = ix3 b k j := funext fun x => Fin.ext (by
    match x with
    | ⟨0, _⟩ => exact rhsIdx_batch_val d _ _ 0 (by rw [hrb]; simp) 0 (by show 0 < 3; omega) (by rw [hrb]; rfl)
    | ⟨1, _⟩ => exact (d.rhsIdx_val_of_single hrc _ _).trans hk
    | ⟨2, _⟩ => exact rhsIdx_free_val d _ _ 2 (by rw [hrb]; simp) (by rw [hrn]; simp) 2 (by show 2 < 3; omega) (by rw [hlb, hln, hrn]; rfl))
  rw [el, er]

end middle

/-! ## `[B, M, K]` with `[B, N, K]`, the last axes contracted -/

section last
variable {B K M N : Nat} (d : DotDims ⟨3, ![B, M, K]⟩ ⟨3, ![B, N, K]⟩ ⟨3, ![B, M, N]⟩)

/-- The host's batched product over the last axes, at `(b, i, j)`, is `Σ_k L(b, i, k) · R(b, j, k)`. -/
theorem hostDot_last_apply {φ₁ φ₂ : FTy}
    (hlc : d.lhsContracting = [2]) (hrc : d.rhsContracting = [2])
    (hln : d.lhsNonContracting = [1]) (hrn : d.rhsNonContracting = [1])
    (hlb : d.lhsBatch = [0]) (hrb : d.rhsBatch = [0])
    (prec : Option ContractPrecision) (L : FVec Ideal ⟨3, ![B, M, K]⟩ φ₁) (R : FVec Ideal ⟨3, ![B, N, K]⟩ φ₂)
    (b : Fin B) (i : Fin M) (j : Fin N) :
    Host.dotGeneral d prec L R (ix3 b i j) = ∑ k : Fin K, L (ix3 b i k) * R (ix3 b j k) := by
  have hr := contr_rank_one d hlc
  have hs : d.contr.size ⟨0, by omega⟩ = K := contr_size_one d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix3 b i j) ((contrEquiv1 d K hr hs).symm k) = ix3 b i k := funext fun x => Fin.ext (by
    match x with
    | ⟨0, _⟩ => exact lhsIdx_batch_val d _ _ 0 (by rw [hlb]; simp) 0 (by show 0 < 3; omega) (by rw [hlb]; rfl)
    | ⟨1, _⟩ => exact lhsIdx_free_val d _ _ 1 (by rw [hlb]; simp) (by rw [hln]; simp) 1 (by show 1 < 3; omega) (by rw [hlb, hln]; rfl)
    | ⟨2, _⟩ => exact (d.lhsIdx_val_of_single hlc _ _).trans hk)
  have er : d.rhsIdx (ix3 b i j) ((contrEquiv1 d K hr hs).symm k) = ix3 b j k := funext fun x => Fin.ext (by
    match x with
    | ⟨0, _⟩ => exact rhsIdx_batch_val d _ _ 0 (by rw [hrb]; simp) 0 (by show 0 < 3; omega) (by rw [hrb]; rfl)
    | ⟨1, _⟩ => exact rhsIdx_free_val d _ _ 1 (by rw [hrb]; simp) (by rw [hrn]; simp) 2 (by show 2 < 3; omega) (by rw [hlb, hln, hrn]; rfl)
    | ⟨2, _⟩ => exact (d.rhsIdx_val_of_single hrc _ _).trans hk)
  rw [el, er]

end last

end Cert.RefAttnA

end
-- ==== Proof.RefAttnB.lean ====
/-
  The re-indexings of an attention block in a host program, each read at an index given by coordinates.

  * The 1536 projected columns of the `[8, 32, 32, 1536]` array are regrouped by head: a reshape to
    `[8, 1024, 8, 192]` (position p = 32·h + w, column 192·n + e), the transposition `[0, 2, 3, 1]` and a reshape to
    `[64, 192, 1024]` (row 8·b + n). Read at `(8·b + n, e, p)` the result is the array at
    `(b, p div 32, p mod 32, 192·n + e)`.
  * A window of 64 of the 192 columns starting at column `off` reads column `off + c`.
  * The heads' results `[64, 1024, 64]` are put back side by side: a reshape to `[8, 8, 1024, 64]`, the transposition
    `[0, 2, 1, 3]` and a reshape to `[8, 32, 32, 512]` (channel 64·n + c). Read at `(b, h, w, d)` the result is the array
    at `(8·b + d div 64, 32·h + w, d mod 64)`.
  * A bias `[512]` brought to `[8, 32, 32, 512]` through `[1, 1, 1, 512]` reads, at `(b, h, w, d)`, the bias at `d`.
-/
import Idealize.ShloMosaic.Lib.ValueIdx
import Idealize.ShloMosaic.Lib.ValueLayout
import Idealize.ShloMosaic.Lib.Pipeline.Value
import proofs.«170573_j2095944040541_2_alg».proof.Proof.Spec

noncomputable section

namespace Cert.RefAttnB

open Idealize.ShloMosaic Idealize.ShloMosaic.ValueIdx Cert.AttnSpec

variable {α : Type}

/-- Row 8·b + n of the 64 rows: head n of batch element b. -/
def hrow (b n : Fin 8) : Fin 64 := ⟨b.val * 8 + n.val, by omega⟩

/-- Column e of the 192 columns of head n among the 1536 projected columns. -/
def col192 (n : Fin 8) (e : Fin 192) : Fin 1536 := ⟨n.val * 192 + e.val, by omega⟩

/-- Column c of a window of 64 of the 192 columns that starts at column `64·part`. -/
def win (part : Fin 3) (c : Fin 64) : Fin 192 := ⟨part.val * 64 + c.val, by omega⟩

theorem col192_win (n : Fin 8) (part : Fin 3) (c : Fin 64) : col192 n (win part c) = hcol n part c := by
  apply Fin.ext; simp only [col192, win, hcol]; omega

/-- The projected columns regrouped by head, read at `(8·b + n, e, p)`. -/
theorem regroup_apply (D : (⟨4, ![8, 32, 32, 1536]⟩ : Shape).Idx → α)
    (h1 : (⟨4, ![8, 32, 32, 1536]⟩ : Shape).ShapeCasts ⟨4, ![8, 1024, 8, 192]⟩)
    (h2 : (⟨4, ![8, 1024, 8, 192]⟩ : Shape).Transposes [0, 2, 3, 1] ⟨4, ![8, 8, 192, 1024]⟩)
    (h3 : (⟨4, ![8, 8, 192, 1024]⟩ : Shape).ShapeCasts ⟨3, ![64, 192, 1024]⟩)
    (b n : Fin 8) (e : Fin 192) (p : Fin 1024) :
    shapeCast ⟨3, ![64, 192, 1024]⟩
        (transpose ⟨4, ![8, 8, 192, 1024]⟩ [0, 2, 3, 1] (shapeCast ⟨4, ![8, 1024, 8, 192]⟩ D h1) h2) h3
        (ix3 (hrow b n) e p)
      = D (ix4 b (prow p) (pcol p) (col192 n e)) := by
  refine (shapeCast_apply _ h3 _ (ix4 b n e p) ?_).trans ?_
  · rw [Shape.rowMajor_val_four, Shape.rowMajor_val_three]
    rfl
  refine (transpose_apply [0, 2, 3, 1] _ h2 (ix4 b n e p) (ix4 b p n e) fun t => ?_).trans ?_
  · match t with
    | ⟨0, _⟩ => rfl
    | ⟨1, _⟩ => rfl
    | ⟨2, _⟩ => rfl
    | ⟨3, _⟩ => rfl
  refine shapeCast_apply _ h1 _ (ix4 b (prow p) (pcol p) (col192 n e)) ?_
  rw [Shape.rowMajor_val_four, Shape.rowMajor_val_four]
  show ((b.val * 32 + p.val / 32) * 32 + p.val % 32) * 1536 + (n.val * 192 + e.val)
    = ((b.val * 1024 + p.val) * 8 + n.val) * 192 + e.val
  omega

/-- A window of 64 of the 192 columns, starting at column `off`, read at `(r, c, p)`. -/
theorem window_apply (t : (⟨3, ![64, 192, 1024]⟩ : Shape).Idx → α) (off : ℕ)
    (h : (⟨3, ![64, 192, 1024]⟩ : Shape).Slices ![0, off, 0] ⟨3, ![64, 64, 1024]⟩)
    (r : Fin 64) (c : Fin 64) (p : Fin 1024) (c' : Fin 192) (hc : c'.val = off + c.val) :
    extractStridedSlice ⟨3, ![64, 64, 1024]⟩ ![0, off, 0] t h (ix3 r c p) = t (ix3 r c' p) := by
  refine extractStridedSlice_apply _ t h _ _ fun a => ?_
  match a with
  | ⟨0, _⟩ => exact (Nat.zero_add _).symm
  | ⟨1, _⟩ => exact hc
  | ⟨2, _⟩ => exact (Nat.zero_add _).symm

/-- The heads' results put back side by side, read at `(b, h, w, d)`. -/
theorem merge_apply (o : (⟨3, ![64, 1024, 64]⟩ : Shape).Idx → α)
    (h1 : (⟨3, ![64, 1024, 64]⟩ : Shape).ShapeCasts ⟨4, ![8, 8, 1024, 64]⟩)
    (h2 : (⟨4, ![8, 8, 1024, 64]⟩ : Shape).Transposes [0, 2, 1, 3] ⟨4, ![8, 1024, 8, 64]⟩)
    (h3 : (⟨4, ![8, 1024, 8, 64]⟩ : Shape).ShapeCasts ⟨4, ![8, 32, 32, 512]⟩)
    (b : Fin 8) (h w : Fin 32) (d : Fin 512) :
    shapeCast ⟨4, ![8, 32, 32, 512]⟩
        (transpose ⟨4, ![8, 1024, 8, 64]⟩ [0, 2, 1, 3] (shapeCast ⟨4, ![8, 8, 1024, 64]⟩ o h1) h2) h3
        (ix4 b h w d)
      = o (ix3 (hrow b (hd d)) (pos h w) (lane d)) := by
  refine (shapeCast_apply _ h3 _ (ix4 b (pos h w) (hd d) (lane d)) ?_).trans ?_
  · rw [Shape.rowMajor_val_four, Shape.rowMajor_val_four]
    show ((b.val * 1024 + (h.val * 32 + w.val)) * 8 + d.val / 64) * 64 + d.val % 64
      = ((b.val * 32 + h.val) * 32 + w.val) * 512 + d.val
    omega
  refine (transpose_apply [0, 2, 1, 3] _ h2 (ix4 b (pos h w) (hd d) (lane d)) (ix4 b (hd d) (pos h w) (lane d))
    fun t => ?_).trans ?_
  · match t with
    | ⟨0, _⟩ => rfl
    | ⟨1, _⟩ => rfl
    | ⟨2, _⟩ => rfl
    | ⟨3, _⟩ => rfl
  refine shapeCast_apply _ h1 _ (ix3 (hrow b (hd d)) (pos h w) (lane d)) ?_
  rw [Shape.rowMajor_val_three, Shape.rowMajor_val_four]
  rfl

/-- A bias brought to every position of every batch element, read at `(b, h, w, d)`. -/
theorem bias_apply (v : (⟨1, ![512]⟩ : Shape).Idx → α)
    (h1 : (⟨1, ![512]⟩ : Shape).BroadcastsInDim ⟨4, ![1, 1, 1, 512]⟩ ![3])
    (h2 : (⟨4, ![1, 1, 1, 512]⟩ : Shape).BroadcastsInDim ⟨4, ![8, 32, 32, 512]⟩ ![0, 1, 2, 3])
    (b : Fin 8) (h w : Fin 32) (d : Fin 512) :
    broadcastInDim ⟨4, ![8, 32, 32, 512]⟩ ![0, 1, 2, 3] h2 (broadcastInDim ⟨4, ![1, 1, 1, 512]⟩ ![3] h1 v) (ix4 b h w d)
      = v (ix1 d) := by
  refine (broadcastInDim_apply _ h2 _ (ix4 b h w d) (ix4 (0 : Fin 1) (0 : Fin 1) (0 : Fin 1) d) fun a => ?_).trans ?_
  · match a with
    | ⟨0, _⟩ => rfl
    | ⟨1, _⟩ => rfl
    | ⟨2, _⟩ => rfl
    | ⟨3, _⟩ => rfl
  refine broadcastInDim_apply _ h1 v _ (ix1 d) fun a => ?_
  match a with
  | ⟨0, _⟩ => rfl

end Cert.RefAttnB

end
-- ==== Proof.RefAttnLayout.lean ====
/-
  The reference's layout stages read at an index over the extended reals.

  * The projected columns regrouped by head: row 8·b + n of the [64, 192, 1024] array is head n of batch element b, and
    its entry (e, q) is the product of the input's row at position q = 32·h + w with column 192·n + e of the weight.
    The query, key and value parts are the windows of 64 columns starting at 0, 64 and 128.
  * The heads' results put back side by side: channel d of position (h, w) of batch element b is lane d mod 64 of head
    d div 64, read from row 8·b + d div 64 at position 32·h + w.
  * The output projection is a product over the 512 channels, plus the bias of the column, plus the residual.
-/
import proofs.«170573_j2095944040541_2_alg».proof.Proof.RefTermAttn
import proofs.«170573_j2095944040541_2_alg».proof.Proof.Spec
import proofs.«170573_j2095944040541_2_alg».proof.Proof.RefAttnA
import proofs.«170573_j2095944040541_2_alg».proof.Proof.RefAttnB

noncomputable section

namespace Cert.ReferenceIdeal.RefValue

open Idealize.ShloMosaic Idealize.ShloMosaic.ValueIdx Cert.ReferenceIdeal
open Cert.AttnSpec Cert.RefAttnB

/-- Entry (e, q) of head n of batch element b: the input's row at position q times column 192·n + e of the weight. -/
theorem heads3_apply (v : FVec Ideal S8x32x32x512 .f32) (wq : FVec Ideal S512x1536 .f32) (b n : Fin 8) (e : Fin 192)
    (q : Fin 1024) :
    RefTerm.heads3 v wq (ix3 (hrow b n) e q)
      = ∑ ch : Fin 512, v (ix4 b (prow q) (pcol q) ch) * wq (ix2 ch (col192 n e)) := by
  unfold RefTerm.heads3
  refine (regroup_apply _ _ _ _ b n e q).trans ?_
  exact Cert.RefAttnA.hostDot_channel_apply _ rfl rfl rfl rfl rfl rfl none v wq b (prow q) (pcol q) (col192 n e)

/-- The query columns of head n of batch element b. -/
theorem partQ_apply (v : FVec Ideal S8x32x32x512 .f32) (wq : FVec Ideal S512x1536 .f32) (b n : Fin 8) (c : Fin 64)
    (q : Fin 1024) :
    RefTerm.partQ (RefTerm.heads3 v wq) (ix3 (hrow b n) c q)
      = ∑ ch : Fin 512, v (ix4 b (prow q) (pcol q) ch) * wq (ix2 ch (hcol n 0 c)) := by
  unfold RefTerm.partQ
  refine (window_apply _ 0 _ (hrow b n) c q (win 0 c) (by show 0 * 64 + c.val = 0 + c.val; omega)).trans ?_
  rw [heads3_apply, col192_win]

/-- The key columns of head n of batch element b. -/
theorem partK_apply (v : FVec Ideal S8x32x32x512 .f32) (wq : FVec Ideal S512x1536 .f32) (b n : Fin 8) (c : Fin 64)
    (q : Fin 1024) :
    RefTerm.partK (RefTerm.heads3 v wq) (ix3 (hrow b n) c q)
      = ∑ ch : Fin 512, v (ix4 b (prow q) (pcol q) ch) * wq (ix2 ch (hcol n 1 c)) := by
  unfold RefTerm.partK
  refine (window_apply _ 64 _ (hrow b n) c q (win 1 c) (by show 1 * 64 + c.val = 64 + c.val; omega)).trans ?_
  rw [heads3_apply, col192_win]

/-- The value columns of head n of batch element b. -/
theorem partV_apply (v : FVec Ideal S8x32x32x512 .f32) (wq : FVec Ideal S512x1536 .f32) (b n : Fin 8) (c : Fin 64)
    (q : Fin 1024) :
    RefTerm.partV (RefTerm.heads3 v wq) (ix3 (hrow b n) c q)
      = ∑ ch : Fin 512, v (ix4 b (prow q) (pcol q) ch) * wq (ix2 ch (hcol n 2 c)) := by
  unfold RefTerm.partV
  refine (window_apply _ 128 _ (hrow b n) c q (win 2 c) (by show 2 * 64 + c.val = 128 + c.val; omega)).trans ?_
  rw [heads3_apply, col192_win]

/-- The heads side by side again, read at (b, h, w, d). -/
theorem merged_apply (o : FVec Ideal S64x1024x64 .f32) (b : Fin 8) (h w : Fin 32) (d : Fin 512) :
    RefTerm.merged o (ix4 b h w d) = o (ix3 (hrow b (hd d)) (pos h w) (lane d)) := by
  unfold RefTerm.merged
  exact merge_apply o _ _ _ b h w d

/-- The output projection, its bias and the residual, read at (b, h, w, d). -/
theorem projected_apply (M : FVec Ideal S8x32x32x512 .f32) (wo : FVec Ideal S512x512 .f32) (bo : FVec Ideal S512 .f32)
    (x : FVec Ideal S8x32x32x512 .f32) (b : Fin 8) (h w : Fin 32) (d : Fin 512) :
    RefTerm.projected M wo bo x (ix4 b h w d)
      = ((∑ c : Fin 512, M (ix4 b h w c) * wo (ix2 c d)) + bo (ix1 d)) + x (ix4 b h w d) := by
  unfold RefTerm.projected
  exact congrArg₂ (· + ·)
    (congrArg₂ (· + ·) (Cert.RefAttnA.hostDot_channel_apply _ rfl rfl rfl rfl rfl rfl none M wo b h w d)
      (bias_apply bo _ _ b h w d)) rfl

end Cert.ReferenceIdeal.RefValue

end
-- ==== Proof.LibHostMax3.lean ====
/-
  The maximum of a rank-3 array along its last axis, in a host program, read at an index given by coordinates.

  A `stablehlo.reduce` whose body is `maximum`, over the last axis of an `[a, b, c]` array, leaves an `[a, b]` array; its
  entry at `(p, r)` is the fold of `max`, from the initial value's one element, over the `c` entries `x (p, r, k)`. Since
  `max` is commutative and associative the order of the fold does not matter, and the fold over the indices that drop to
  `(p, r)` is the fold over the last coordinate `k` with `(p, r)` held fixed.
-/
import Idealize.ShloMosaic.Lib.ValueLayout
import Idealize.ShloMosaic.PureOps.Ideal.Laws

noncomputable section

open scoped BigOperators

namespace Idealize.ShloMosaic.ValueIdx

open Idealize.ShloMosaic

/-- The host's maximum of an `[a, b, c]` array along its last axis, read at `(p, r)`: the fold of `max`, from the initial
    value, over the entries `x (p, r, k)`, `k` running over the last axis, in any order. -/
theorem hostReduce_max_last3_apply {a b c : ℕ} {φ : FTy} {u : Shape} (x : FVec Ideal ⟨3, ![a, b, c]⟩ φ)
    (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) x init h' hu (ix2 p r)
      = (Finset.univ : Finset (Fin c)).fold max (init (Shape.Idx.first hu)) (fun k => x (ix3 p r k)) := by
  refine (Host.reduce_eq_fold_single (FloatOps.maximumf (F := Ideal) (φ := φ)) x init h' h hu (ix2 p r)).trans ?_
  refine congrArg (Finset.fold _ _ · _) (funext fun k => congrArg x (funext fun ax => Fin.ext ?_))
  match ax with
  | ⟨0, _⟩ => rfl
  | ⟨1, _⟩ => rfl
  | ⟨2, _⟩ => rfl

/-- The host's sum of an `[a, b, c]` array along its last axis, at the ideal values and read at `(p, r)`: the initial
    value plus the sum of the entries `x (p, r, k)`. -/
theorem hostReduceAdd_last3_apply {a b c : ℕ} {φ : FTy} {u : Shape} (x : FVec Ideal ⟨3, ![a, b, c]⟩ φ)
    (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduceAdd x init h' hu (ix2 p r) = init (Shape.Idx.first hu) + ∑ k : Fin c, x (ix3 p r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl
  | ⟨2, _⟩ => rfl

end Idealize.ShloMosaic.ValueIdx

end
-- ==== Proof.RefAttnC.lean ====
/-
  The softmax core of the reference's attention half, read at explicit indices: for one of the 64 (batch element,
  head) rows r, with Q, K, V the matrices `p, c ↦ q (r, c, p)` of the query, key and value columns, the scaled scores
  are the specification's `score`, their largest per query position its `smax` (the host's fold from −∞, then a maximum
  with −∞ that changes nothing), the exponentials its `ex`, the quotients by the row sums `ex / den`, and the weighted
  sums of the value rows its `head`.
-/
import Idealize.ShloMosaic.Lib.IdealHost
import proofs.«170573_j2095944040541_2_alg».proof.Proof.RefTermAttn
import proofs.«170573_j2095944040541_2_alg».proof.Proof.RefAttnA
import proofs.«170573_j2095944040541_2_alg».proof.Proof.LibKeepdims3
import proofs.«170573_j2095944040541_2_alg».proof.Proof.LibHostMax3

noncomputable section

open scoped BigOperators

namespace Cert.ReferenceIdeal.RefValue

open Idealize.ShloMosaic Idealize.ShloMosaic.ValueIdx Cert.ReferenceIdeal Cert.AttnSpec
open Cert.ReferenceIdeal.Facts₀

/-- Row r of a `[64, 64, 1024]` stack as a matrix: position by column. -/
def rowOf (t : FVec Ideal S64x64x1024 .f32) (r : Fin 64) : Fin 1024 → Fin 64 → EReal := fun p c => t (ix3 r c p)

theorem reduces_last : S64x1024x1024.Reduces [2] S64x1024 := by decide

/-- The scaled scores at `(r, p, k)`. -/
theorem scores_apply (q k : FVec Ideal S64x64x1024 .f32) (r : Fin 64) (p kk : Fin 1024) :
    RefTerm.scores q k (ix3 r p kk) = score (rowOf q r) (rowOf k r) p kk := by
  unfold RefTerm.scores
  rw [mulf_apply]
  refine congr (congrArg _ ?_) ?_
  · exact Cert.RefAttnA.hostDot_middle_apply _ rfl rfl rfl rfl rfl rfl none q k r p kk
  · exact (broadcastInDim_scalar_apply _ _ _).trans rfl

/-- The largest score of a query position: the fold of `max` from −∞ over the key positions. -/
theorem rowMax_apply (s : FVec Ideal S64x1024x1024 .f32) (r : Fin 64) (p : Fin 1024) :
    RefTerm.rowMax s (ix2 r p) = (Finset.univ : Finset (Fin 1024)).fold max negInf (fun k => s (ix3 r p k)) := by
  unfold RefTerm.rowMax
  rw [maximumf_apply]
  have h1 : broadcastInDim S64x1024 ![] bcast_S_S64x1024 (constant (F := Ideal) S_ .f32 0xFF800000#32) (ix2 r p) = negInf :=
    (broadcastInDim_scalar_apply _ _ _).trans rfl
  have h2 := hostReduce_max_last3_apply s (constant (F := Ideal) S_ .f32 0xFF800000#32)
    reducesTo_S64x1024x1024_S64x1024_d2 reduces_last h_S_ r p
  rw [h1, h2]
  exact max_eq_right ((Finset.le_fold_max _).2 (Or.inl le_rfl))

/-- The keepdims round trip `[64, 1024] → [64, 1024, 1] → [64, 1024, 1024]` reads the row's value at every key position. -/
theorem rowKeep_apply (m : FVec Ideal S64x1024 .f32) (r : Fin 64) (p k : Fin 1024) :
    broadcastInDim S64x1024x1024 ![0, 1, 2] bcast_S64x1024x1_S64x1024x1024_0_1_2
        (broadcastInDim S64x1024x1 ![0, 1] bcast_S64x1024_S64x1024x1_0_1 m) (ix3 r p k)
      = m (ix2 r p) :=
  (Cert.Lib.Keepdims3.broadcastInDim_ab1_abc_apply _ _ rfl rfl _ r p k).trans
    (Cert.Lib.Keepdims3.broadcastInDim_ab_ab1_apply _ _ rfl rfl m r p 0)

/-- The exponential of a score less its row's largest. -/
theorem expo_apply (s : FVec Ideal S64x1024x1024 .f32) (r : Fin 64) (p k : Fin 1024) :
    RefTerm.expo s (ix3 r p k)
      = Ideal.exp (s (ix3 r p k) - (Finset.univ : Finset (Fin 1024)).fold max negInf (fun k => s (ix3 r p k))) := by
  unfold RefTerm.expo
  show Ideal.exp (s (ix3 r p k) - _) = _
  rw [rowKeep_apply, rowMax_apply]

/-- An exponential over its row's sum. -/
theorem probs_apply (e : FVec Ideal S64x1024x1024 .f32) (r : Fin 64) (p k : Fin 1024) :
    RefTerm.probs e (ix3 r p k) = Ideal.div (e (ix3 r p k)) (∑ k : Fin 1024, e (ix3 r p k)) := by
  unfold RefTerm.probs
  rw [hostDivf_apply, rowKeep_apply]
  have h2 := hostReduceAdd_last3_apply e (constant (F := Ideal) S_ .f32 0x00000000#32)
    reducesTo_S64x1024x1024_S64x1024_d2 reduces_last h_S_ r p
  rw [h2, constant_apply, Ideal.ofBits_zero_f32, zero_add]

/-- The weighted sum of the value rows is the specification's head. -/
theorem weighted_apply (q k vv : FVec Ideal S64x64x1024 .f32) (r : Fin 64) (p : Fin 1024) (c : Fin 64) :
    RefTerm.weighted (RefTerm.probs (RefTerm.expo (RefTerm.scores q k))) vv (ix3 r p c)
      = head (rowOf q r) (rowOf k r) (rowOf vv r) p c := by
  unfold RefTerm.weighted
  refine (Cert.RefAttnA.hostDot_last_apply _ rfl rfl rfl rfl rfl rfl none _ vv r p c).trans ?_
  unfold head den ex smax
  refine Finset.sum_congr rfl fun kk _ => ?_
  rw [probs_apply]
  simp only [expo_apply, scores_apply]
  rfl

end Cert.ReferenceIdeal.RefValue

end
-- ==== Proof.RefAttn.lean ====
/-
  The reference's attention half read at an index: at `(b, h, w, d)` it is the specification's output projection, bias
  and residual of the 8 heads side by side, each head reading its own 192 columns of the projection of the
  normalised input. The layout stages (the regrouping by head, the three windows, the merge, the output projection) and
  the softmax core are read separately; here they are put together: channel c of the merged heads at position
  `32·h + w` of batch element b is lane `c mod 64` of head `c div 64`, computed on row `8·b + c div 64` of the stacks.
-/
import proofs.«170573_j2095944040541_2_alg».proof.Proof.RefAttnLayout
import proofs.«170573_j2095944040541_2_alg».proof.Proof.RefAttnC

noncomputable section

open scoped BigOperators

namespace Cert.ReferenceIdeal.RefValue

open Idealize.ShloMosaic Idealize.ShloMosaic.ValueIdx Cert.ReferenceIdeal Cert.AttnSpec
open Cert.RefAttnB

theorem attend_apply (v : FVec Ideal S8x32x32x512 .f32) (wq : FVec Ideal S512x1536 .f32) (wo : FVec Ideal S512x512 .f32)
    (bo : FVec Ideal S512 .f32) (x : FVec Ideal S8x32x32x512 .f32) (b : Fin 8) (h w : Fin 32) (d : Fin 512) :
    RefTerm.attend v wq wo bo x (ix4 b h w d)
      = Cert.AttnSpec.proj (Cert.AttnSpec.att (fun p e => ∑ c : Fin 512, v (ix4 b (Cert.AttnSpec.prow p) (Cert.AttnSpec.pcol p) c) * wq (ix2 c e)))
          (fun c d => wo (ix2 c d)) (fun c => bo (ix1 c)) (Cert.AttnSpec.slab x b) (Cert.AttnSpec.pos h w) d := by
  unfold RefTerm.attend
  rw [projected_apply]
  unfold proj slab
  rw [prow_pos, pcol_pos]
  refine congrArg (· + x (ix4 b h w d)) (congrArg (· + bo (ix1 d)) (Finset.sum_congr rfl fun c _ => congrArg (· * wo (ix2 c d)) ?_))
  rw [merged_apply, weighted_apply]
  unfold att
  have hq : rowOf (RefTerm.partQ (RefTerm.heads3 v wq)) (hrow b (hd c))
      = fun p' c' => ∑ ch : Fin 512, v (ix4 b (prow p') (pcol p') ch) * wq (ix2 ch (hcol (hd c) 0 c')) :=
    funext fun p' => funext fun c' => partQ_apply v wq b (hd c) c' p'
  have hk : rowOf (RefTerm.partK (RefTerm.heads3 v wq)) (hrow b (hd c))
      = fun p' c' => ∑ ch : Fin 512, v (ix4 b (prow p') (pcol p') ch) * wq (ix2 ch (hcol (hd c) 1 c')) :=
    funext fun p' => funext fun c' => partK_apply v wq b (hd c) c' p'
  have hv : rowOf (RefTerm.partV (RefTerm.heads3 v wq)) (hrow b (hd c))
      = fun p' c' => ∑ ch : Fin 512, v (ix4 b (prow p') (pcol p') ch) * wq (ix2 ch (hcol (hd c) 2 c')) :=
    funext fun p' => funext fun c' => partV_apply v wq b (hd c) c' p'
  rw [hq, hk, hv]

end Cert.ReferenceIdeal.RefValue

end
-- ==== Proof.lean ====
/-
  The certificate: a fused self-attention block (group normalisation, QKV projection, eight heads of softmax
  attention, output projection with bias and residual) as one kernel per batch element, against the same computation
  written with whole-array operations on the host.

  At the extended reals both programs compute the function `Cert.AttnSpec.G` (Proof/Spec.lean) of the six argument
  arrays, entry by entry:
  * the kernel side: what one run of the body stores (Proof/KernBlock.lean) read at an index is the specification's
    `block` of the input blocks (Proof/KernBlockValue.lean over the payload lemmas Proof/KernNorm.lean,
    Proof/KernHead.lean, Proof/KernOut.lean); the eight blocks tile the result array, and the host's reshapes around
    the region keep row-major positions (Proof/KernArray.lean, Proof/KernRun.lean);
  * the reference side: its run read back (Proof/RefRun.lean) ends at the normalisation stage followed by the
    attention stage, each read at an index (Proof/RefNorm.lean, Proof/RefAttn.lean).
  The two sides differ only in how sums are grouped (lane sum then position sum against one sum over three axes;
  per-head 1024 × 64 products against batched ones) and in the mean being taken by the factor 2⁻¹⁵ or the quotient by
  32768; on the extended reals neither needs the inputs to be finite, so the precondition is never opened.
  The ideal pass rewrote nothing, so `preserves` is trivial; the three frames are the generated frame certificates
  (the reference's frame is its run with the result dropped).
-/
import proofs.«170573_j2095944040541_2_alg».proof.Defs
import proofs.«170573_j2095944040541_2_alg».proof.Proof.Gen.Kernel
import proofs.«170573_j2095944040541_2_alg».proof.Proof.Gen.Kernel.Frame
import proofs.«170573_j2095944040541_2_alg».proof.Proof.Gen.KernelIdeal
import proofs.«170573_j2095944040541_2_alg».proof.Proof.Gen.KernelIdeal.Frame
import proofs.«170573_j2095944040541_2_alg».proof.Proof.Gen.ReferenceIdeal
import proofs.«170573_j2095944040541_2_alg».proof.Proof.Gen.Pre_finite_inputs
import proofs.«170573_j2095944040541_2_alg».proof.Proof.Spec
import proofs.«170573_j2095944040541_2_alg».proof.Proof.KernRun
import proofs.«170573_j2095944040541_2_alg».proof.Proof.RefRun
import proofs.«170573_j2095944040541_2_alg».proof.Proof.RefNorm
import proofs.«170573_j2095944040541_2_alg».proof.Proof.RefAttn

noncomputable section

namespace Cert.Proof

open Idealize.ShloMosaic Idealize.ShloMosaic.TcCoe Idealize.SL.Sem Idealize.ShloMosaic.ValueIdx

/-- The reference's composed term is the specification: the attention stage read at (b, h, w, d) is `proj` of `att` of
    the projection of the normalised input, and the normalised input at position p = 32·h' + w' is the
    specification's `xn` there. -/
theorem ref_result_eq (x : FVec Ideal Cert.ReferenceIdeal.S8x32x32x512 .f32) (s bi : FVec Ideal Cert.ReferenceIdeal.S512 .f32)
    (wq : FVec Ideal Cert.ReferenceIdeal.S512x1536 .f32) (wo : FVec Ideal Cert.ReferenceIdeal.S512x512 .f32)
    (bo : FVec Ideal Cert.ReferenceIdeal.S512 .f32) :
    Cert.ReferenceIdeal.RefTerm.result x s bi wq wo bo = Cert.AttnSpec.G x s bi wq wo bo := by
  funext i
  obtain ⟨b, h, w, d, rfl⟩ : ∃ (b : Fin 8) (h w : Fin 32) (d : Fin 512), i = ix4 b h w d := ⟨i 0, i 1, i 2, i 3, eq_ix4 i⟩
  rw [Cert.AttnSpec.G_apply]
  unfold Cert.ReferenceIdeal.RefTerm.result
  rw [Cert.ReferenceIdeal.RefValue.attend_apply]
  unfold Cert.AttnSpec.block
  congr 2
  funext p e
  unfold Cert.AttnSpec.qkv
  refine Finset.sum_congr rfl fun c _ => ?_
  rw [Cert.ReferenceIdeal.RefValue.normed_apply, Cert.AttnSpec.pos_prow_pcol]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := Cert.ReferenceIdeal.RefValue.frame_ref

/-- The ideal pass rewrote no operation: nothing to preserve. -/
theorem preserves : Cert.preserves_Kernel_KernelIdeal := trivial

/-- Both programs, run from memories that agree on the arguments, end with the result array at the specification's
    `G` of the arguments. -/
theorem algebraic : Cert.algebraic_KernelIdeal_ReferenceIdeal := by
  intro m ρ m' ρ' _ hagree
  refine ⟨fun c => Cert.AttnSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Arr.run m ρ, ?_⟩
  refine (θ_run Cert.ReferenceIdeal.defs _ _).mono (fun _ h c => ⟨(h c).1.trans ?_, (h c).2⟩)
    (Cert.ReferenceIdeal.RefValue.run m' ρ')
  rw [ref_result_eq, (hagree c).1, (hagree c).2.1, (hagree c).2.2.1, (hagree c).2.2.2.1, (hagree c).2.2.2.2.1,
    (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
